-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32 : Shape := ⟨2, ![40000, 32]⟩
abbrev S32x128 : Shape := ⟨2, ![32, 128]⟩
abbrev S128 : Shape := ⟨1, ![128]⟩
abbrev S4x128 : Shape := ⟨2, ![4, 128]⟩
abbrev S3x128x128 : Shape := ⟨3, ![3, 128, 128]⟩
abbrev S3x128 : Shape := ⟨2, ![3, 128]⟩
abbrev S2x640000 : Shape := ⟨2, ![2, 640000]⟩
abbrev S640000 : Shape := ⟨1, ![640000]⟩
abbrev S40000 : Shape := ⟨1, ![40000]⟩
abbrev S_ : Shape := ⟨0, ![]⟩

class Facts : Prop where
  bcast_S_S40000x32 : S_.BroadcastsInDim S40000x32 (![] : Fin 0 → Fin S40000x32.rank)
  reducesTo_S40000x32_S_d0_1 : S40000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg7 : FVec F S3x128 .f32) (main_arg8 : FVec F S3x128 .f32) (main_arg9 : FVec F S3x128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg4 : FVec F S3x128x128 .f32) (main_arg5 : FVec F S3x128 .f32) (main_arg6 : FVec F S3x128x128 .f32) (main_arg7 : FVec F S3x128 .f32) (main_arg8 : FVec F S3x128 .f32) (main_arg9 : FVec F S3x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S40000x32 .f32) (main_arg1 : FVec F S32x128 .f32) (main_arg2 : FVec F S128 .f32) (main_arg3 : FVec F S4x128 .f32) (main_arg4 : FVec F S3x128x128 .f32) (main_arg5 : FVec F S3x128 .f32) (main_arg6 : FVec F S3x128x128 .f32) (main_arg7 : FVec F S3x128 .f32) (main_arg8 : FVec F S3x128 .f32) (main_arg9 : FVec F S3x128 .f32) (main_arg10 : IVec S2x640000 32) (main_arg11 : IVec S640000 32) (main_arg12 : IVec S40000 32) : IVec S_ 1 :=
  let main_v0 : FVec F S40000x32 .f32 := Host.absf main_arg0
  let main_cst : FVec F S_ .f32 := constant S_ .f32 0x7F800000#32
  let main_v1 : FVec F S40000x32 .f32 := broadcastInDim S40000x32 ![] bcast_S_S40000x32 main_cst
  let main_v2 : IVec S40000x32 1 := cmpf .olt main_v0 main_v1
  let main_c : IVec S_ 1 := constantI S_ 1 1#1
  let main_v3 : IVec S_ 1 := (fun x v => Host.reduce IntOp.andi x v reducesTo_S40000x32_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg7 main_arg8 main_arg9 main_v13 main_v16
-- ==== Kernel.lean ====
abbrev S40000x32 : Shape := ⟨2, ![40000, 32]⟩
abbrev S32x128 : Shape := ⟨2, ![32, 128]⟩
abbrev S128 : Shape := ⟨1, ![128]⟩
abbrev S4x128 : Shape := ⟨2, ![4, 128]⟩
abbrev S3x128x128 : Shape := ⟨3, ![3, 128, 128]⟩
abbrev S3x128 : Shape := ⟨2, ![3, 128]⟩
abbrev S2x640000 : Shape := ⟨2, ![2, 640000]⟩
abbrev S640000 : Shape := ⟨1, ![640000]⟩
abbrev S40000 : Shape := ⟨1, ![40000]⟩
abbrev S1x128 : Shape := ⟨2, ![1, 128]⟩
abbrev S40000x128 : Shape := ⟨2, ![40000, 128]⟩
abbrev S4000x32 : Shape := ⟨2, ![4000, 32]⟩
abbrev S4000x128 : Shape := ⟨2, ![4000, 128]⟩
abbrev S_ : Shape := ⟨0, ![]⟩
abbrev S640000x1 : Shape := ⟨2, ![640000, 1]⟩
abbrev S640000x128 : Shape := ⟨2, ![640000, 128]⟩
abbrev S1x640000 : Shape := ⟨2, ![1, 640000]⟩
abbrev S8000x128 : Shape := ⟨2, ![8000, 128]⟩
abbrev S1x128x128 : Shape := ⟨3, ![1, 128, 128]⟩
abbrev S128x128 : Shape := ⟨2, ![128, 128]⟩
abbrev S64 : Shape := ⟨1, ![64]⟩
abbrev S40000x1 : Shape := ⟨2, ![40000, 1]⟩
abbrev S64x128 : Shape := ⟨2, ![64, 128]⟩
abbrev S64x1 : Shape := ⟨2, ![64, 1]⟩

abbrev nBuf : Space → Nat
  | .hbm => 230
  | .vmem => 78
  | .smem => 0
  | _ => 0

abbrev hbmTy0_0 (i : Nat) : BufTy := match i % 128 with
  | 0 => ⟨S40000x32, .f32⟩
  | 1 => ⟨S32x128, .f32⟩
  | 2 => ⟨S128, .f32⟩
  | 3 => ⟨S4x128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S2x640000, .i32⟩
  | 11 => ⟨S640000, .i32⟩
  | 12 => ⟨S40000, .i32⟩
  | 13 => ⟨S1x128, .f32⟩
  | 14 => ⟨S40000x128, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S640000x128, .f32⟩
  | 38 => ⟨S_, .f32⟩
  | 39 => ⟨S40000x128, .f32⟩
  | 40 => ⟨S640000x1, .i32⟩
  | 41 => ⟨S40000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128, .f32⟩
  | 52 => ⟨S40000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S40000x128, .f32⟩
  | 66 => ⟨S40000x128, .f32⟩
  | 67 => ⟨S40000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S40000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x128, .f32⟩
  | 99 => ⟨S640000x128, .f32⟩
  | 100 => ⟨S_, .f32⟩
  | 101 => ⟨S40000x128, .f32⟩
  | 102 => ⟨S640000x1, .i32⟩
  | 103 => ⟨S40000x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128, .f32⟩
  | 114 => ⟨S40000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S40000x128, .f32⟩
  | _ => ⟨S40000x32, .f32⟩

abbrev hbmTy0_1 (i : Nat) : BufTy := match i % 128 with
  | 0 => ⟨S40000x128, .f32⟩
  | 1 => ⟨S40000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S1x128, .f32⟩
  | 21 => ⟨S1x128, .f32⟩
  | 22 => ⟨S1x128, .f32⟩
  | 23 => ⟨S40000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S640000x128, .f32⟩
  | 34 => ⟨S_, .f32⟩
  | 35 => ⟨S40000x128, .f32⟩
  | 36 => ⟨S640000x1, .i32⟩
  | 37 => ⟨S40000x128, .f32⟩
  | 38 => ⟨S1x128x128, .f32⟩
  | 39 => ⟨S128x128, .f32⟩
  | 40 => ⟨S1x128, .f32⟩
  | 41 => ⟨S128, .f32⟩
  | 42 => ⟨S1x128x128, .f32⟩
  | 43 => ⟨S128x128, .f32⟩
  | 44 => ⟨S1x128, .f32⟩
  | 45 => ⟨S128, .f32⟩
  | 46 => ⟨S1x128, .f32⟩
  | 47 => ⟨S1x128, .f32⟩
  | 48 => ⟨S40000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S40000x128, .f32⟩
  | 62 => ⟨S40000x128, .f32⟩
  | 63 => ⟨S40000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S1x128, .f32⟩
  | 83 => ⟨S1x128, .f32⟩
  | 84 => ⟨S1x128, .f32⟩
  | 85 => ⟨S40000x128, .f32⟩
  | 86 => ⟨S_, .f32⟩
  | 87 => ⟨S40000, .f32⟩
  | 88 => ⟨S_, .f32⟩
  | 89 => ⟨S64, .f32⟩
  | 90 => ⟨S40000x1, .i32⟩
  | 91 => ⟨S64, .f32⟩
  | 92 => ⟨S_, .f32⟩
  | 93 => ⟨S64x128, .f32⟩
  | 94 => ⟨S40000x1, .i32⟩
  | 95 => ⟨S64x128, .f32⟩
  | 96 => ⟨S_, .f32⟩
  | 97 => ⟨S64, .f32⟩
  | 98 => ⟨S64, .f32⟩
  | 99 => ⟨S64x1, .f32⟩
  | 100 => ⟨S64x128, .f32⟩
  | 101 => ⟨S64x128, .f32⟩
  | _ => ⟨S40000x32, .f32⟩

abbrev hbmTy (i : Nat) : BufTy := match i / 128 with
  | 0 => hbmTy0_0 i
  | 1 => hbmTy0_1 i
  | _ => ⟨S40000x32, .f32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S32x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S8000x128, .f32⟩
  | .local _ .vmem, ⟨31, _⟩ => ⟨S8000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S8000x128, .f32⟩
  | .local _ .vmem, ⟨55, _⟩ => ⟨S8000x128, .f32⟩
  | .local _ .vmem, ⟨56, _⟩ => ⟨S8000x128, .f32⟩
  | .local _ .vmem, ⟨57, _⟩ => ⟨S8000x128, .f32⟩
  | .local _ .vmem, ⟨58, _⟩ => ⟨S8000x128, .f32⟩
  | .local _ .vmem, ⟨59, _⟩ => ⟨S8000x128, .f32⟩
  | .local _ .vmem, ⟨60, _⟩ => ⟨S4000x128, .f32⟩
  | .local _ .vmem, ⟨61, _⟩ => ⟨S4000x128, .f32⟩
  | .local _ .vmem, ⟨62, _⟩ => ⟨S4000x128, .f32⟩
  | .local _ .vmem, ⟨63, _⟩ => ⟨S4000x128, .f32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S4000x128, .f32⟩
  | .local _ .vmem, ⟨69, _⟩ => ⟨S4000x128, .f32⟩
  | .local _ .vmem, ⟨70, _⟩ => ⟨S4000x128, .f32⟩
  | .local _ .vmem, ⟨71, _⟩ => ⟨S4000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S4000x128, .f32⟩
  | .local _ .vmem, ⟨77, _⟩ => ⟨S4000x128, .f32⟩
  | _, _ => ⟨S40000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_6 : Ref sig .tc := ⟨.hbm, 90, rfl⟩
abbrev main_v48 : Ref sig .tc := ⟨.hbm, 91, rfl⟩
abbrev main_v49 : Ref sig .tc := ⟨.hbm, 92, rfl⟩
abbrev main_c_7 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_8 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_9 : Ref sig .tc := ⟨.hbm, 115, rfl⟩
abbrev main_v70 : Ref sig .tc := ⟨.hbm, 116, rfl⟩
abbrev main_cst_10 : Ref sig .tc := ⟨.hbm, 117, rfl⟩
abbrev main_v71 : Ref sig .tc := ⟨.hbm, 118, rfl⟩
abbrev main_v72 : Ref sig .tc := ⟨.hbm, 119, rfl⟩
abbrev main_c_11 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_cst_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_v7 : Ref sig .tc := ⟨.hbm, 130, rfl⟩
abbrev main_call1_cst_1 : Ref sig .tc := ⟨.hbm, 131, rfl⟩
abbrev main_call1_v8 : Ref sig .tc := ⟨.hbm, 132, rfl⟩
abbrev main_call1_cst_2 : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_cst_3 : Ref sig .tc := ⟨.hbm, 137, rfl⟩
abbrev main_call1_v12 : Ref sig .tc := ⟨.hbm, 138, rfl⟩
abbrev main_call1_cst_4 : Ref sig .tc := ⟨.hbm, 139, rfl⟩
abbrev main_call1_call0_v0 : Ref sig .tc := ⟨.hbm, 140, rfl⟩
abbrev main_call1_call0_v1 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_c_12 : Ref sig .tc := ⟨.hbm, 152, rfl⟩
abbrev main_v83 : Ref sig .tc := ⟨.hbm, 153, rfl⟩
abbrev main_v84 : Ref sig .tc := ⟨.hbm, 154, rfl⟩
abbrev main_c_13 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_14 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_15 : Ref sig .tc := ⟨.hbm, 177, rfl⟩
abbrev main_v105 : Ref sig .tc := ⟨.hbm, 178, rfl⟩
abbrev main_cst_16 : Ref sig .tc := ⟨.hbm, 179, rfl⟩
abbrev main_v106 : Ref sig .tc := ⟨.hbm, 180, rfl⟩
abbrev main_v107 : Ref sig .tc := ⟨.hbm, 181, rfl⟩
abbrev main_c_17 : Ref sig .tc := ⟨.hbm, 182, rfl⟩
abbrev main_call2_cst : Ref sig .tc := ⟨.hbm, 183, rfl⟩
abbrev main_call2_v0 : Ref sig .tc := ⟨.hbm, 184, rfl⟩
abbrev main_call2_v1 : Ref sig .tc := ⟨.hbm, 185, rfl⟩
abbrev main_call2_cst_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_v6 : Ref sig .tc := ⟨.hbm, 191, rfl⟩
abbrev main_call2_v7 : Ref sig .tc := ⟨.hbm, 192, rfl⟩
abbrev main_call2_cst_1 : Ref sig .tc := ⟨.hbm, 193, rfl⟩
abbrev main_call2_v8 : Ref sig .tc := ⟨.hbm, 194, rfl⟩
abbrev main_call2_cst_2 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_cst_3 : Ref sig .tc := ⟨.hbm, 199, rfl⟩
abbrev main_call2_v12 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_18 : Ref sig .tc := ⟨.hbm, 214, rfl⟩
abbrev main_v118 : Ref sig .tc := ⟨.hbm, 215, rfl⟩
abbrev main_cst_19 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_cst_20 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_21 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg6_0 : Ref sig .tc := ⟨.vmem, 68, rfl⟩
abbrev cc8_stg6_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg4_0 : Ref sig .tc := ⟨.vmem, 75, rfl⟩
abbrev cc9_stg5_0 : Ref sig .tc := ⟨.vmem, 76, rfl⟩
abbrev cc9_stg5_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem6_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem6_0 : DmaSem sig := 68
abbrev cc8_sem6_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem4_0 : DmaSem sig := 75
abbrev cc9_sem5_0 : DmaSem sig := 76
abbrev cc9_sem5_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  shapeCasts_S128_S1x128 : S128.ShapeCasts S1x128
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S40000x128 : S_.BroadcastsInDim S40000x128 (![] : Fin 0 → Fin S40000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S40000x128_S128_d0 : S40000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S40000 : S_.BroadcastsInDim S40000 (![] : Fin 0 → Fin S40000.rank)
  bcast_S_S64 : S_.BroadcastsInDim S64 (![] : Fin 0 → Fin S64.rank)
  bcast_S40000_S40000x1_0 : S40000.BroadcastsInDim S40000x1 (![0] : Fin 1 → Fin S40000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S4000x32_S32x128_S4000x128_1_0_0_1_n_n_wf : DotDims.WF S4000x32 S32x128 S4000x128 [1] [0] [0] [1] [] []
  gather_S4x128_S640000x1_S640000x128_1_0_n_n_0_1_1128_wf : GatherDims.WF S4x128 S640000x1 S640000x128 [1] [0] [] [0] [] 1 ![1, 128]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S40000x32.size a
  hwx0_0 : ∀ i : grid0.Coords, EltTy.bits .f32 = 32 ∨ (Rect.block (s := S40000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S640000x128.size a
  hwx1_2 : ∀ i : grid1.Coords, EltTy.bits .f32 = 32 ∨ (Rect.block (s := S640000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S40000x128.size a
  hwx2_6 : ∀ i : grid2.Coords, EltTy.bits .f32 = 32 ∨ (Rect.block (s := S40000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .f32 = 32 ∨ (Rect.block (s := S40000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S40000x128.size a
  hwx3_5 : ∀ i : grid3.Coords, EltTy.bits .f32 = 32 ∨ (Rect.block (s := S40000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S640000x128.size a
  hwx4_1 : ∀ i : grid4.Coords, EltTy.bits .f32 = 32 ∨ (Rect.block (s := S640000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S640000x128.size a
  hwx4_2 : ∀ i : grid4.Coords, EltTy.bits .f32 = 32 ∨ (Rect.block (s := S640000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S40000x128.size a
  hwx5_0 : ∀ i : grid5.Coords, EltTy.bits .f32 = 32 ∨ (Rect.block (s := S40000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S40000x128.size a
  hwx5_1 : ∀ i : grid5.Coords, EltTy.bits .f32 = 32 ∨ (Rect.block (s := S40000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S40000x128.size a
  hwx5_6 : ∀ i : grid5.Coords, EltTy.bits .f32 = 32 ∨ (Rect.block (s := S40000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S40000x128.size a
  hwx6_0 : ∀ i : grid6.Coords, EltTy.bits .f32 = 32 ∨ (Rect.block (s := S40000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S40000x128.size a
  hwx6_5 : ∀ i : grid6.Coords, EltTy.bits .f32 = 32 ∨ (Rect.block (s := S40000x128) S4000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S640000x128.size a
  hwx7_0 : ∀ i : grid7.Coords, EltTy.bits .f32 = 32 ∨ (Rect.block (s := S640000x128) S8000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x128.size a ≤ S640000x128.size a
  hwx7_1 : ∀ i : grid7.Coords, EltTy.bits .f32 = 32 ∨ (Rect.block (s := S640000x128) S8000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x128.size a ≤ S640000x128.size a
  hwx7_2 : ∀ i : grid7.Coords, EltTy.bits .f32 = 32 ∨ (Rect.block (s := S640000x128) S8000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S40000x128.size a
  hwx8_0 : ∀ i : grid8.Coords, EltTy.bits .f32 = 32 ∨ (Rect.block (s := S40000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S40000x128.size a
  hwx8_1 : ∀ i : grid8.Coords, EltTy.bits .f32 = 32 ∨ (Rect.block (s := S40000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4000x128.size a ≤ S40000x128.size a
  hwx8_6 : ∀ i : grid8.Coords, EltTy.bits .f32 = 32 ∨ (Rect.block (s := S40000x128) S4000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S40000x128.size a
  hwx9_0 : ∀ i : grid9.Coords, EltTy.bits .f32 = 32 ∨ (Rect.block (s := S40000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x128.size a ≤ S40000x128.size a
  hwx9_5 : ∀ i : grid9.Coords, EltTy.bits .f32 = 32 ∨ (Rect.block (s := S40000x128) S4000x128.size (cc9_transform_5 i) (hinb9_5 i)).WholeWords (EltTy.packing .f32)

variable [Facts₀]

def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def gather_S4x128_S640000x1_S640000x128_1_0_n_n_0_1_1128 : GatherDims S4x128 S640000x1 S640000x128 where
  offsetDims := [1]
  collapsedSliceDims := [0]
  operandBatchingDims := []
  startIndicesBatchingDims := []
  startIndexMap := [0]
  indexVectorDim := 1
  sliceSizes := ![1, 128]
  wf := gather_S4x128_S640000x1_S640000x128_1_0_n_n_0_1_1128_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v34) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v69) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v69) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v89) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S8000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v90) S8000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v82) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v95) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v99) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v103) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v104) S4000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v104) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v113) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v116) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v117) S4000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S40000x32 : Shape := ⟨2, ![40000, 32]⟩
abbrev S32x128 : Shape := ⟨2, ![32, 128]⟩
abbrev S128 : Shape := ⟨1, ![128]⟩
abbrev S4x128 : Shape := ⟨2, ![4, 128]⟩
abbrev S3x128x128 : Shape := ⟨3, ![3, 128, 128]⟩
abbrev S3x128 : Shape := ⟨2, ![3, 128]⟩
abbrev S2x640000 : Shape := ⟨2, ![2, 640000]⟩
abbrev S640000 : Shape := ⟨1, ![640000]⟩
abbrev S40000 : Shape := ⟨1, ![40000]⟩
abbrev S40000x128 : Shape := ⟨2, ![40000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S1x640000 : Shape := ⟨2, ![1, 640000]⟩
abbrev S1x128x128 : Shape := ⟨3, ![1, 128, 128]⟩
abbrev S128x128 : Shape := ⟨2, ![128, 128]⟩
abbrev S64 : Shape := ⟨1, ![64]⟩
abbrev S40000x1 : Shape := ⟨2, ![40000, 1]⟩
abbrev S64x128 : Shape := ⟨2, ![64, 128]⟩
abbrev S64x1 : Shape := ⟨2, ![64, 1]⟩

abbrev nBuf : Space → Nat
  | .hbm => 310
  | .vmem => 0
  | .smem => 0
  | _ => 0

abbrev hbmTy0_0 (i : Nat) : BufTy := match i % 128 with
  | 0 => ⟨S40000x32, .f32⟩
  | 1 => ⟨S32x128, .f32⟩
  | 2 => ⟨S128, .f32⟩
  | 3 => ⟨S4x128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S2x640000, .i32⟩
  | 11 => ⟨S640000, .i32⟩
  | 12 => ⟨S40000, .i32⟩
  | 13 => ⟨S40000x128, .f32⟩
  | 14 => ⟨S1x128, .f32⟩
  | 15 => ⟨S40000x128, .f32⟩
  | 16 => ⟨S40000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S1x640000, .i32⟩
  | 27 => ⟨S640000, .i32⟩
  | 28 => ⟨S1x640000, .i32⟩
  | 29 => ⟨S640000, .i32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x128, .f32⟩
  | 39 => ⟨S640000x128, .f32⟩
  | 40 => ⟨S_, .f32⟩
  | 41 => ⟨S640000x128, .f32⟩
  | 42 => ⟨S640000x128, .f32⟩
  | 43 => ⟨S_, .f32⟩
  | 44 => ⟨S40000x128, .f32⟩
  | 45 => ⟨S640000x1, .i32⟩
  | 46 => ⟨S40000x128, .f32⟩
  | 47 => ⟨S40000x128, .f32⟩
  | 48 => ⟨S1x128x128, .f32⟩
  | 49 => ⟨S128x128, .f32⟩
  | 50 => ⟨S40000x128, .f32⟩
  | 51 => ⟨S1x128, .f32⟩
  | 52 => ⟨S128, .f32⟩
  | 53 => ⟨S1x128, .f32⟩
  | 54 => ⟨S40000x128, .f32⟩
  | 55 => ⟨S40000x128, .f32⟩
  | 56 => ⟨S_, .f32⟩
  | 57 => ⟨S40000x128, .f32⟩
  | 58 => ⟨S40000x128, .f32⟩
  | 59 => ⟨S1x128x128, .f32⟩
  | 60 => ⟨S128x128, .f32⟩
  | 61 => ⟨S40000x128, .f32⟩
  | 62 => ⟨S1x128, .f32⟩
  | 63 => ⟨S128, .f32⟩
  | 64 => ⟨S1x128, .f32⟩
  | 65 => ⟨S40000x128, .f32⟩
  | 66 => ⟨S40000x128, .f32⟩
  | 67 => ⟨S_, .f32⟩
  | 68 => ⟨S40000x128, .f32⟩
  | 69 => ⟨S40000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S40000x128, .f32⟩
  | 83 => ⟨S40000x128, .f32⟩
  | 84 => ⟨S40000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S128, .f32⟩
  | 100 => ⟨S1x128, .f32⟩
  | 101 => ⟨S40000x128, .f32⟩
  | 102 => ⟨S40000x128, .f32⟩
  | 103 => ⟨S1x128, .f32⟩
  | 104 => ⟨S40000x128, .f32⟩
  | 105 => ⟨S40000x128, .f32⟩
  | 106 => ⟨S_, .f32⟩
  | 107 => ⟨S128, .f32⟩
  | 108 => ⟨S128, .f32⟩
  | 109 => ⟨S128, .f32⟩
  | 110 => ⟨S1x128, .f32⟩
  | 111 => ⟨S40000x128, .f32⟩
  | 112 => ⟨S40000x128, .f32⟩
  | 113 => ⟨S1x128, .f32⟩
  | 114 => ⟨S128, .f32⟩
  | 115 => ⟨S1x128, .f32⟩
  | 116 => ⟨S40000x128, .f32⟩
  | 117 => ⟨S40000x128, .f32⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S640000x128, .f32⟩
  | 127 => ⟨S640000x128, .f32⟩
  | _ => ⟨S40000x32, .f32⟩

abbrev hbmTy0_1 (i : Nat) : BufTy := match i % 128 with
  | 0 => ⟨S_, .f32⟩
  | 1 => ⟨S640000x128, .f32⟩
  | 2 => ⟨S640000x128, .f32⟩
  | 3 => ⟨S_, .f32⟩
  | 4 => ⟨S40000x128, .f32⟩
  | 5 => ⟨S640000x1, .i32⟩
  | 6 => ⟨S40000x128, .f32⟩
  | 7 => ⟨S40000x128, .f32⟩
  | 8 => ⟨S1x128x128, .f32⟩
  | 9 => ⟨S128x128, .f32⟩
  | 10 => ⟨S40000x128, .f32⟩
  | 11 => ⟨S1x128, .f32⟩
  | 12 => ⟨S128, .f32⟩
  | 13 => ⟨S1x128, .f32⟩
  | 14 => ⟨S40000x128, .f32⟩
  | 15 => ⟨S40000x128, .f32⟩
  | 16 => ⟨S_, .f32⟩
  | 17 => ⟨S40000x128, .f32⟩
  | 18 => ⟨S40000x128, .f32⟩
  | 19 => ⟨S1x128x128, .f32⟩
  | 20 => ⟨S128x128, .f32⟩
  | 21 => ⟨S40000x128, .f32⟩
  | 22 => ⟨S1x128, .f32⟩
  | 23 => ⟨S128, .f32⟩
  | 24 => ⟨S1x128, .f32⟩
  | 25 => ⟨S40000x128, .f32⟩
  | 26 => ⟨S40000x128, .f32⟩
  | 27 => ⟨S_, .f32⟩
  | 28 => ⟨S40000x128, .f32⟩
  | 29 => ⟨S40000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S40000x128, .f32⟩
  | 43 => ⟨S40000x128, .f32⟩
  | 44 => ⟨S40000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S128, .f32⟩
  | 60 => ⟨S1x128, .f32⟩
  | 61 => ⟨S40000x128, .f32⟩
  | 62 => ⟨S40000x128, .f32⟩
  | 63 => ⟨S1x128, .f32⟩
  | 64 => ⟨S40000x128, .f32⟩
  | 65 => ⟨S40000x128, .f32⟩
  | 66 => ⟨S_, .f32⟩
  | 67 => ⟨S128, .f32⟩
  | 68 => ⟨S128, .f32⟩
  | 69 => ⟨S128, .f32⟩
  | 70 => ⟨S1x128, .f32⟩
  | 71 => ⟨S40000x128, .f32⟩
  | 72 => ⟨S40000x128, .f32⟩
  | 73 => ⟨S1x128, .f32⟩
  | 74 => ⟨S128, .f32⟩
  | 75 => ⟨S1x128, .f32⟩
  | 76 => ⟨S40000x128, .f32⟩
  | 77 => ⟨S40000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S640000x128, .f32⟩
  | 88 => ⟨S_, .f32⟩
  | 89 => ⟨S640000x128, .f32⟩
  | 90 => ⟨S640000x128, .f32⟩
  | 91 => ⟨S_, .f32⟩
  | 92 => ⟨S40000x128, .f32⟩
  | 93 => ⟨S640000x1, .i32⟩
  | 94 => ⟨S40000x128, .f32⟩
  | 95 => ⟨S40000x128, .f32⟩
  | 96 => ⟨S1x128x128, .f32⟩
  | 97 => ⟨S128x128, .f32⟩
  | 98 => ⟨S40000x128, .f32⟩
  | 99 => ⟨S1x128, .f32⟩
  | 100 => ⟨S128, .f32⟩
  | 101 => ⟨S1x128, .f32⟩
  | 102 => ⟨S40000x128, .f32⟩
  | 103 => ⟨S40000x128, .f32⟩
  | 104 => ⟨S_, .f32⟩
  | 105 => ⟨S40000x128, .f32⟩
  | 106 => ⟨S40000x128, .f32⟩
  | 107 => ⟨S1x128x128, .f32⟩
  | 108 => ⟨S128x128, .f32⟩
  | 109 => ⟨S40000x128, .f32⟩
  | 110 => ⟨S1x128, .f32⟩
  | 111 => ⟨S128, .f32⟩
  | 112 => ⟨S1x128, .f32⟩
  | 113 => ⟨S40000x128, .f32⟩
  | 114 => ⟨S40000x128, .f32⟩
  | 115 => ⟨S_, .f32⟩
  | 116 => ⟨S40000x128, .f32⟩
  | 117 => ⟨S40000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S40000x32, .f32⟩

abbrev hbmTy0_2 (i : Nat) : BufTy := match i % 128 with
  | 0 => ⟨S1x128, .f32⟩
  | 1 => ⟨S1x128, .f32⟩
  | 2 => ⟨S40000x128, .f32⟩
  | 3 => ⟨S40000x128, .f32⟩
  | 4 => ⟨S40000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S128, .f32⟩
  | 20 => ⟨S1x128, .f32⟩
  | 21 => ⟨S40000x128, .f32⟩
  | 22 => ⟨S40000x128, .f32⟩
  | 23 => ⟨S1x128, .f32⟩
  | 24 => ⟨S40000x128, .f32⟩
  | 25 => ⟨S40000x128, .f32⟩
  | 26 => ⟨S_, .f32⟩
  | 27 => ⟨S128, .f32⟩
  | 28 => ⟨S128, .f32⟩
  | 29 => ⟨S128, .f32⟩
  | 30 => ⟨S1x128, .f32⟩
  | 31 => ⟨S40000x128, .f32⟩
  | 32 => ⟨S40000x128, .f32⟩
  | 33 => ⟨S1x128, .f32⟩
  | 34 => ⟨S128, .f32⟩
  | 35 => ⟨S1x128, .f32⟩
  | 36 => ⟨S40000x128, .f32⟩
  | 37 => ⟨S40000x128, .f32⟩
  | 38 => ⟨S_, .f32⟩
  | 39 => ⟨S40000, .f32⟩
  | 40 => ⟨S_, .f32⟩
  | 41 => ⟨S64, .f32⟩
  | 42 => ⟨S40000x1, .i32⟩
  | 43 => ⟨S64, .f32⟩
  | 44 => ⟨S_, .f32⟩
  | 45 => ⟨S64x128, .f32⟩
  | 46 => ⟨S40000x1, .i32⟩
  | 47 => ⟨S64x128, .f32⟩
  | 48 => ⟨S_, .f32⟩
  | 49 => ⟨S64, .f32⟩
  | 50 => ⟨S64, .f32⟩
  | 51 => ⟨S64x1, .f32⟩
  | 52 => ⟨S64x128, .f32⟩
  | 53 => ⟨S64x128, .f32⟩
  | _ => ⟨S40000x32, .f32⟩

abbrev hbmTy (i : Nat) : BufTy := match i / 128 with
  | 0 => hbmTy0_0 i
  | 1 => hbmTy0_1 i
  | 2 => hbmTy0_2 i
  | _ => ⟨S40000x32, .f32⟩

abbrev bufTy : (tb : Table) → Fin (tcTables nBuf tb) → BufTy
  | .hbm, ⟨i, _⟩ => hbmTy i
  | _, _ => ⟨S40000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_c_5 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_cst_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_cst_1 : Ref sig .tc := ⟨.hbm, 86, rfl⟩
abbrev main_call3_v8 : Ref sig .tc := ⟨.hbm, 87, rfl⟩
abbrev main_call3_cst_2 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_cst_3 : Ref sig .tc := ⟨.hbm, 92, rfl⟩
abbrev main_call3_v12 : Ref sig .tc := ⟨.hbm, 93, rfl⟩
abbrev main_call3_cst_4 : Ref sig .tc := ⟨.hbm, 94, rfl⟩
abbrev main_call3_call0_v0 : Ref sig .tc := ⟨.hbm, 95, rfl⟩
abbrev main_call3_call0_v1 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_7 : Ref sig .tc := ⟨.hbm, 118, rfl⟩
abbrev main_v69 : Ref sig .tc := ⟨.hbm, 119, rfl⟩
abbrev main_v70 : Ref sig .tc := ⟨.hbm, 120, rfl⟩
abbrev main_c_8 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_call4_cst : Ref sig .tc := ⟨.hbm, 128, rfl⟩
abbrev main_call4_v0 : Ref sig .tc := ⟨.hbm, 129, rfl⟩
abbrev main_v77 : Ref sig .tc := ⟨.hbm, 130, rfl⟩
abbrev main_cst_9 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_call5_cst : Ref sig .tc := ⟨.hbm, 144, rfl⟩
abbrev main_call5_v0 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_call6_cst : Ref sig .tc := ⟨.hbm, 155, rfl⟩
abbrev main_call6_v0 : Ref sig .tc := ⟨.hbm, 156, rfl⟩
abbrev main_v99 : Ref sig .tc := ⟨.hbm, 157, rfl⟩
abbrev main_cst_10 : Ref sig .tc := ⟨.hbm, 158, rfl⟩
abbrev main_v100 : Ref sig .tc := ⟨.hbm, 159, rfl⟩
abbrev main_cst_11 : Ref sig .tc := ⟨.hbm, 160, rfl⟩
abbrev main_v101 : Ref sig .tc := ⟨.hbm, 161, rfl⟩
abbrev main_v102 : Ref sig .tc := ⟨.hbm, 162, rfl⟩
abbrev main_c_12 : Ref sig .tc := ⟨.hbm, 163, rfl⟩
abbrev main_call7_cst : Ref sig .tc := ⟨.hbm, 164, rfl⟩
abbrev main_call7_v0 : Ref sig .tc := ⟨.hbm, 165, rfl⟩
abbrev main_call7_v1 : Ref sig .tc := ⟨.hbm, 166, rfl⟩
abbrev main_call7_cst_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_v6 : Ref sig .tc := ⟨.hbm, 172, rfl⟩
abbrev main_call7_v7 : Ref sig .tc := ⟨.hbm, 173, rfl⟩
abbrev main_call7_cst_1 : Ref sig .tc := ⟨.hbm, 174, rfl⟩
abbrev main_call7_v8 : Ref sig .tc := ⟨.hbm, 175, rfl⟩
abbrev main_call7_cst_2 : Ref sig .tc := ⟨.hbm, 176, rfl⟩
abbrev main_call7_v9 : Ref sig .tc := ⟨.hbm, 177, rfl⟩
abbrev main_call7_v10 : Ref sig .tc := ⟨.hbm, 178, rfl⟩
abbrev main_call7_v11 : Ref sig .tc := ⟨.hbm, 179, rfl⟩
abbrev main_call7_cst_3 : Ref sig .tc := ⟨.hbm, 180, rfl⟩
abbrev main_call7_v12 : Ref sig .tc := ⟨.hbm, 181, rfl⟩
abbrev main_call7_cst_4 : Ref sig .tc := ⟨.hbm, 182, rfl⟩
abbrev main_call7_call0_v0 : Ref sig .tc := ⟨.hbm, 183, rfl⟩
abbrev main_call7_call0_v1 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_13 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_c_14 : Ref sig .tc := ⟨.hbm, 206, rfl⟩
abbrev main_v123 : Ref sig .tc := ⟨.hbm, 207, rfl⟩
abbrev main_v124 : Ref sig .tc := ⟨.hbm, 208, rfl⟩
abbrev main_c_15 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_call8_cst : Ref sig .tc := ⟨.hbm, 216, rfl⟩
abbrev main_call8_v0 : Ref sig .tc := ⟨.hbm, 217, rfl⟩
abbrev main_v131 : Ref sig .tc := ⟨.hbm, 218, rfl⟩
abbrev main_cst_16 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_call9_cst : Ref sig .tc := ⟨.hbm, 232, rfl⟩
abbrev main_call9_v0 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_call10_cst : Ref sig .tc := ⟨.hbm, 243, rfl⟩
abbrev main_call10_v0 : Ref sig .tc := ⟨.hbm, 244, rfl⟩
abbrev main_v153 : Ref sig .tc := ⟨.hbm, 245, rfl⟩
abbrev main_cst_17 : Ref sig .tc := ⟨.hbm, 246, rfl⟩
abbrev main_v154 : Ref sig .tc := ⟨.hbm, 247, rfl⟩
abbrev main_cst_18 : Ref sig .tc := ⟨.hbm, 248, rfl⟩
abbrev main_v155 : Ref sig .tc := ⟨.hbm, 249, rfl⟩
abbrev main_v156 : Ref sig .tc := ⟨.hbm, 250, rfl⟩
abbrev main_c_19 : Ref sig .tc := ⟨.hbm, 251, rfl⟩
abbrev main_call11_cst : Ref sig .tc := ⟨.hbm, 252, rfl⟩
abbrev main_call11_v0 : Ref sig .tc := ⟨.hbm, 253, rfl⟩
abbrev main_call11_v1 : Ref sig .tc := ⟨.hbm, 254, rfl⟩
abbrev main_call11_cst_0 : Ref sig .tc := ⟨.hbm, 255, rfl⟩
abbrev main_call11_v2 : Ref sig .tc := ⟨.hbm, 256, rfl⟩
abbrev main_call11_v3 : Ref sig .tc := ⟨.hbm, 257, rfl⟩
abbrev main_call11_v4 : Ref sig .tc := ⟨.hbm, 258, rfl⟩
abbrev main_call11_v5 : Ref sig .tc := ⟨.hbm, 259, rfl⟩
abbrev main_call11_v6 : Ref sig .tc := ⟨.hbm, 260, rfl⟩
abbrev main_call11_v7 : Ref sig .tc := ⟨.hbm, 261, rfl⟩
abbrev main_call11_cst_1 : Ref sig .tc := ⟨.hbm, 262, rfl⟩
abbrev main_call11_v8 : Ref sig .tc := ⟨.hbm, 263, rfl⟩
abbrev main_call11_cst_2 : Ref sig .tc := ⟨.hbm, 264, rfl⟩
abbrev main_call11_v9 : Ref sig .tc := ⟨.hbm, 265, rfl⟩
abbrev main_call11_v10 : Ref sig .tc := ⟨.hbm, 266, rfl⟩
abbrev main_call11_v11 : Ref sig .tc := ⟨.hbm, 267, rfl⟩
abbrev main_call11_cst_3 : Ref sig .tc := ⟨.hbm, 268, rfl⟩
abbrev main_call11_v12 : Ref sig .tc := ⟨.hbm, 269, rfl⟩
abbrev main_call11_cst_4 : Ref sig .tc := ⟨.hbm, 270, rfl⟩
abbrev main_call11_call0_v0 : Ref sig .tc := ⟨.hbm, 271, rfl⟩
abbrev main_call11_call0_v1 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_cst_20 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_cst_21 : Ref sig .tc := ⟨.hbm, 294, rfl⟩
abbrev main_v177 : Ref sig .tc := ⟨.hbm, 295, rfl⟩
abbrev main_cst_22 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_cst_23 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_cst_24 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x128 : S_.BroadcastsInDim S640000x128 (![] : Fin 0 → Fin S640000x128.rank)
  bcast_S_S40000x128 : S_.BroadcastsInDim S40000x128 (![] : Fin 0 → Fin S40000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S40000 : S_.BroadcastsInDim S40000 (![] : Fin 0 → Fin S40000.rank)
  bcast_S_S64 : S_.BroadcastsInDim S64 (![] : Fin 0 → Fin S64.rank)
  bcast_S40000_S40000x1_0 : S40000.BroadcastsInDim S40000x1 (![0] : Fin 1 → Fin S40000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S40000x32_S32x128_S40000x128_1_0_0_1_n_n_wf : DotDims.WF S40000x32 S32x128 S40000x128 [1] [0] [0] [1] [] []
  gather_S4x128_S640000x1_S640000x128_1_0_n_n_0_1_1128_wf : GatherDims.WF S4x128 S640000x1 S640000x128 [1] [0] [] [0] [] 1 ![1, 128]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1

variable [Facts₀]

def dot_S40000x32_S32x128_S40000x128_1_0_0_1_n_n : DotDims S40000x32 S32x128 S40000x128 where
  lhsContracting := [1]
  rhsContracting := [0]
  lhsNonContracting := [0]
  rhsNonContracting := [1]
  lhsBatch := []
  rhsBatch := []
  wf := dot_S40000x32_S32x128_S40000x128_1_0_0_1_n_n_wf
def gather_S4x128_S640000x1_S640000x128_1_0_n_n_0_1_1128 : GatherDims S4x128 S640000x1 S640000x128 where
  offsetDims := [1]
  collapsedSliceDims := [0]
  operandBatchingDims := []
  startIndicesBatchingDims := []
  startIndexMap := [0]
  indexVectorDim := 1
  sliceSizes := ![1, 128]
  wf := gather_S4x128_S640000x1_S640000x128_1_0_n_n_0_1_1128_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf

class Facts : Prop extends Facts₀ where

variable [Facts]
-- ==== Proof.KernelRun.lean ====
/-
  The idealized kernel program's run with its RESULT named: every weakly fair execution of @main ends with the result
  array at the last boundary's contents `Gen.W27 m ρ c` (the fold of the host stretches and of the ten regions'
  write-backs over the launch memory) and the thirteen argument arrays as launched.
-/
import proofs.«155398_j16690242912867_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over @main's twenty-seven segments, the last thread state read against the final state; the result
    array is read at the last boundary's contents, each argument walks back through the fold to the launch memory. -/
theorem run_main : θ_run defs (onTc (τ := τ) (main (F := F))) ⟨m, fun _ => 0, ρ⟩ (fun r => ∀ c : Dev nD,
      r.2.mem ((c.tc : Thread nD τ).loc main_v129) = W27 m ρ c (Proc.devRef .tc main_v129)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v129 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c)⟩)

end Cert.KernelIdeal.Run

end
-- ==== Proof.Spec.lean ====
/-
  The specification shared by the two programs: each stage of the three-layer graph network as ONE function of whole
  arrays, written with the host operations of the plain-jnp program.

  Nodes carry a feature row of width 128 (40000 nodes), edges an embedding row (640000 edges).
    enc      h₀ = x · Wx + bx                                        (a row vector added to every row)
    emb      e  = table[attr]                                        (a gather of 4 rows; negative indices wrapped)
    gath     h[src]                                                  (a gather of node rows along the edges)
    msg      max (h[src] + e) 0
    aggr     the sum of the messages arriving at each node           (scatter-add over the destination index)
    mlp      z = max (max ((h + aggr) · W₁ + b₁) 0 · W₂ + b₂) 0
    mean / var   the per-column mean and (biased) variance of z over the 40000 rows
    bn       (γ · (z − μ)) · (σ² + ε)^(-1/2) + β                     (rows μ, σ², γ, β broadcast down the columns)
    pool     per graph, the sum of its nodes' rows divided by max (number of its nodes) 1
  A row vector enters the kernel's regions as a [1,128] array; `row` is that array and the forms with a K take rows.
-/
import proofs.«155398_j16690242912867_1_alg».proof.ReferenceIdeal
import proofs.«155398_j16690242912867_1_alg».proof.Proof.Gen.ReferenceIdeal
import Idealize.ShloMosaic.PureOps.Ideal

noncomputable section

namespace Cert.Spec

open Idealize.ShloMosaic Cert.ReferenceIdeal Cert.ReferenceIdeal.Facts₀

variable {F : FTy → Type} [FloatOps F]

/-- A host array of shape `S` and element type `t`. -/
abbrev Arr (F : FTy → Type) (S : Shape) (t : EltTy) : Type := (⟨S, t⟩ : BufTy).Contents (Elt F)

/-- A vector of 128 as a [1,128] row. -/
def row (b : Arr F S128 .f32) : Arr F S1x128 .f32 := broadcastInDim S1x128 ![1] bcast_S128_S1x128_1 b
/-- A [1,128] row repeated down 40000 rows. -/
def bc (r : Arr F S1x128 .f32) : Arr F S40000x128 .f32 := broadcastInDim S40000x128 ![0, 1] bcast_S1x128_S40000x128_0_1 r
def zero640 : Arr F S640000x128 .f32 := broadcastInDim S640000x128 ![] bcast_S_S640000x128 (constant S_ .f32 0x00000000#32)
def zero40 : Arr F S40000x128 .f32 := broadcastInDim S40000x128 ![] bcast_S_S40000x128 (constant S_ .f32 0x00000000#32)
def relu640 (x : Arr F S640000x128 .f32) : Arr F S640000x128 .f32 := maximumf x zero640
def relu40 (x : Arr F S40000x128 .f32) : Arr F S40000x128 .f32 := maximumf x zero40

/-- The node encoder with its bias as a row. -/
def encK (x : Arr F S40000x32 .f32) (wx : Arr F S32x128 .f32) (b2 : Arr F S1x128 .f32) : Arr F S40000x128 .f32 :=
  addf (Host.dotGeneral dot_S40000x32_S32x128_S40000x128_1_0_0_1_n_n none x wx) (bc b2)
def enc (x : Arr F S40000x32 .f32) (wx : Arr F S32x128 .f32) (bx : Arr F S128 .f32) : Arr F S40000x128 .f32 := encK x wx (row bx)

/-- An index vector with its negative entries wrapped by `n` (jnp's indexing convention). -/
def wrap (n : BitVec 32) (i : Arr F S640000 .i32) : Arr F S640000 .i32 :=
  select (cmpi .slt i (broadcastInDim S640000 ![] bcast_S_S640000 (constantI S_ 32 0#32)))
    (addi i (broadcastInDim S640000 ![] bcast_S_S640000 (constantI S_ 32 n))) i
def col (i : Arr F S640000 .i32) : Arr F S640000x1 .i32 := broadcastInDim S640000x1 ![0] bcast_S640000_S640000x1_0 i
def emb (tbl : Arr F S4x128 .f32) (attr : Arr F S640000 .i32) : Arr F S640000x128 .f32 :=
  Host.gather gather_S4x128_S640000x1_S640000x128_1_0_n_n_0_1_1128 tbl (col (wrap 4#32 attr))
def srcOf (ei : Arr F S2x640000 .i32) : Arr F S640000 .i32 :=
  shapeCast S640000 (extractStridedSlice S1x640000 ![0, 0] ei slices_S2x640000_S1x640000_0_0) shapeCasts_S1x640000_S640000
def dstOf (ei : Arr F S2x640000 .i32) : Arr F S640000 .i32 :=
  shapeCast S640000 (extractStridedSlice S1x640000 ![1, 0] ei slices_S2x640000_S1x640000_1_0) shapeCasts_S1x640000_S640000
def gath (h : Arr F S40000x128 .f32) (src : Arr F S640000 .i32) : Arr F S640000x128 .f32 :=
  Host.gather gather_S40000x128_S640000x1_S640000x128_1_0_n_n_0_1_1128 h (col (wrap 40000#32 src))
def msg (hg e : Arr F S640000x128 .f32) : Arr F S640000x128 .f32 := relu640 (addf hg e)
def aggr (dst : Arr F S640000 .i32) (m : Arr F S640000x128 .f32) : Arr F S40000x128 .f32 :=
  Host.scatterAdd scatter_S40000x128_S640000x1_S640000x128_1_0_0_1 zero40 (col dst) m

/-- The two-layer perceptron with its biases as rows. -/
def mlpK (h ag : Arr F S40000x128 .f32) (w1 : Arr F S128x128 .f32) (b1 : Arr F S1x128 .f32) (w2 : Arr F S128x128 .f32) (b2 : Arr F S1x128 .f32) :
    Arr F S40000x128 .f32 :=
  relu40 (addf (Host.dotGeneral dot_S40000x128_S128x128_S40000x128_1_0_0_1_n_n none
    (relu40 (addf (Host.dotGeneral dot_S40000x128_S128x128_S40000x128_1_0_0_1_n_n none (addf h ag) w1) (bc b1))) w2) (bc b2))

def mean (z : Arr F S40000x128 .f32) : Arr F S128 .f32 :=
  Host.divf (Host.reduceAdd z (constant S_ .f32 0x00000000#32) reducesTo_S40000x128_S128_d0 h_S_)
    (broadcastInDim S128 ![] bcast_S_S128 (constant S_ .f32 0x471C4000#32))

/-- The biased variance of each column, as jnp's `var` computes it (the divisor `40000 − ddof` with `ddof = 0`, guarded). -/
def var (z : Arr F S40000x128 .f32) : Arr F S128 .f32 :=
  let n : Arr F S_ .f32 := subf (constant S_ .f32 0x471C4000#32) (sitofp .f32 (constantI S_ 32 0#32))
  let d : Arr F S40000x128 .f32 := subf z (bc (Host.divf
    (row (Host.reduceAdd z (constant S_ .f32 0x00000000#32) reducesTo_S40000x128_S128_d0 h_S_))
    (broadcastInDim S1x128 ![] bcast_S_S1x128 (constant S_ .f32 0x471C4000#32))))
  select (broadcastInDim S128 ![] bcast_S_S128 (cmpf .ogt n (constant S_ .f32 0x00000000#32)))
    (Host.divf (Host.reduceAdd (mulf d d) (constant S_ .f32 0x00000000#32) reducesTo_S40000x128_S128_d0 h_S_)
      (broadcastInDim S128 ![] bcast_S_S128 n))
    (broadcastInDim S128 ![] bcast_S_S128 (id (constant S_ .f32 0x7FC00000#32)))

/-- Batch normalisation with the four row vectors as rows; the reciprocal root is taken on the row. -/
def bnK (z : Arr F S40000x128 .f32) (mu va g bt : Arr F S1x128 .f32) : Arr F S40000x128 .f32 :=
  addf (mulf (mulf (bc g) (subf z (bc mu))) (bc (Host.rsqrt (addf va (broadcastInDim S1x128 ![] bcast_S_S1x128 (constant S_ .f32 0x3727C5AC#32)))))) (bc bt)
/-- Batch normalisation as the plain program writes it: the reciprocal root taken on the vector of 128. -/
def bn (z : Arr F S40000x128 .f32) (mu va g bt : Arr F S128 .f32) : Arr F S40000x128 .f32 :=
  addf (mulf (mulf (bc (row g)) (subf z (bc (row mu)))) (bc (row (Host.rsqrt (addf va (broadcastInDim S128 ![] bcast_S_S128 (constant S_ .f32 0x3727C5AC#32))))))) (bc (row bt))

/-- Layer `l`'s slices of the stacked parameters. -/
def w_0 (w : Arr F S3x128x128 .f32) : Arr F S128x128 .f32 := shapeCast S128x128 (extractStridedSlice S1x128x128 ![0, 0, 0] w slices_S3x128x128_S1x128x128_0_0_0) shapeCasts_S1x128x128_S128x128
def w_1 (w : Arr F S3x128x128 .f32) : Arr F S128x128 .f32 := shapeCast S128x128 (extractStridedSlice S1x128x128 ![1, 0, 0] w slices_S3x128x128_S1x128x128_1_0_0) shapeCasts_S1x128x128_S128x128
def w_2 (w : Arr F S3x128x128 .f32) : Arr F S128x128 .f32 := shapeCast S128x128 (extractStridedSlice S1x128x128 ![2, 0, 0] w slices_S3x128x128_S1x128x128_2_0_0) shapeCasts_S1x128x128_S128x128
def v_0 (b : Arr F S3x128 .f32) : Arr F S128 .f32 := shapeCast S128 (extractStridedSlice S1x128 ![0, 0] b slices_S3x128_S1x128_0_0) shapeCasts_S1x128_S128
def v_1 (b : Arr F S3x128 .f32) : Arr F S128 .f32 := shapeCast S128 (extractStridedSlice S1x128 ![1, 0] b slices_S3x128_S1x128_1_0) shapeCasts_S1x128_S128
def v_2 (b : Arr F S3x128 .f32) : Arr F S128 .f32 := shapeCast S128 (extractStridedSlice S1x128 ![2, 0] b slices_S3x128_S1x128_2_0) shapeCasts_S1x128_S128

/-- One layer from its own parameter slices: messages along the edges, their sums at the nodes, the perceptron, the
    normalisation by the batch statistics of the perceptron's output. -/
def layer (h : Arr F S40000x128 .f32) (e : Arr F S640000x128 .f32) (src dst : Arr F S640000 .i32)
    (w1 : Arr F S128x128 .f32) (b1 : Arr F S128 .f32) (w2 : Arr F S128x128 .f32) (b2 g bt : Arr F S128 .f32) : Arr F S40000x128 .f32 :=
  let z := mlpK h (aggr dst (msg (gath h src) e)) w1 (row b1) w2 (row b2)
  bn z (mean z) (var z) g bt

/-- The mean of the node rows of each of the 64 graphs (an empty graph's divisor is 1). -/
def pool (h : Arr F S40000x128 .f32) (batch : Arr F S40000 .i32) : Arr F S64x128 .f32 :=
  Host.divf
    (Host.scatterAdd scatter_S64x128_S40000x1_S40000x128_1_0_0_1 (broadcastInDim S64x128 ![] bcast_S_S64x128 (constant S_ .f32 0x00000000#32))
      (broadcastInDim S40000x1 ![0] bcast_S40000_S40000x1_0 batch) h)
    (broadcastInDim S64x128 ![0, 1] bcast_S64x1_S64x128_0_1 (broadcastInDim S64x1 ![0] bcast_S64_S64x1_0
      (maximumf
        (Host.scatterAdd scatter_S64_S40000x1_S40000_n_0_0_1 (broadcastInDim S64 ![] bcast_S_S64 (constant S_ .f32 0x00000000#32))
          (broadcastInDim S40000x1 ![0] bcast_S40000_S40000x1_0 batch) (broadcastInDim S40000 ![] bcast_S_S40000 (constant S_ .f32 0x3F800000#32)))
        (broadcastInDim S64 ![] bcast_S_S64 (constant S_ .f32 0x3F800000#32)))))

/-- The whole network as a function of the thirteen arguments. -/
def result (x : Arr F S40000x32 .f32) (wx : Arr F S32x128 .f32) (bx : Arr F S128 .f32) (tbl : Arr F S4x128 .f32)
    (W1 : Arr F S3x128x128 .f32) (B1 : Arr F S3x128 .f32) (W2 : Arr F S3x128x128 .f32) (B2 G Bt : Arr F S3x128 .f32)
    (ei : Arr F S2x640000 .i32) (attr : Arr F S640000 .i32) (batch : Arr F S40000 .i32) : Arr F S64x128 .f32 :=
  let e := emb tbl attr
  let src := srcOf ei
  let dst := dstOf ei
  let h0 := enc x wx bx
  let h1 := layer h0 e src dst (w_0 W1) (v_0 B1) (w_0 W2) (v_0 B2) (v_0 G) (v_0 Bt)
  let h2 := layer h1 e src dst (w_1 W1) (v_1 B1) (w_1 W2) (v_1 B2) (v_1 G) (v_1 Bt)
  let h3 := layer h2 e src dst (w_2 W1) (v_2 B1) (w_2 W2) (v_2 B2) (v_2 G) (v_2 Bt)
  pool h3 batch

end Cert.Spec

end
-- ==== Proof.SpecLemmas.lean ====
/-
  Two facts about rows. A vector of 128 laid out as a [1,128] array is the same array whether it is written as a broadcast
  along the new leading axis or as a reshape; and batch normalisation may take its reciprocal root on the vector or on the
  row, since the root and the added constant act entry by entry.
-/
import proofs.«155398_j16690242912867_1_alg».proof.Proof.Spec
import Idealize.ShloMosaic.Lib.Pipeline.Value

noncomputable section

namespace Cert.Spec

open Idealize.ShloMosaic Cert.ReferenceIdeal Cert.ReferenceIdeal.Facts₀

variable {F : FTy → Type} [FloatOps F]

/-- The reshape of a vector of 128 to [1,128] is its row. -/
theorem row_eq (b : Arr F S128 .f32) (h : S128.ShapeCasts S1x128) : (fun i => shapeCast S1x128 b h i) = row b := by
  funext j
  unfold row
  rw [shapeCast_addUnit_apply ![128] b h j]
  rw [broadcastInDim_apply (s := S128) (t := S1x128) ![1] bcast_S128_S1x128_1 b j (fun a => j a.succ)]
  intro a
  match a with
  | ⟨0, _⟩ => rfl

/-- Batch normalisation over rows of row vectors is batch normalisation over the vectors. -/
theorem bnK_rows (z : Arr F S40000x128 .f32) (mu va g bt : Arr F S128 .f32) :
    bnK z (row mu) (row va) (row g) (row bt) = bn z mu va g bt := rfl

end Cert.Spec

end
-- ==== Proof.KernelKeep.lean ====
/-
  What each of the kernel program's twenty-seven segments leaves alone. A host stretch rewrites only the buffers its operations
  name as results; a region rewrites only its output window's array, and an input window's array is read back as entered.
  So a buffer outside a segment's list holds after the segment what it held before, and an argument array that no segment
  writes holds at every boundary what the launch memory holds.
-/
import proofs.«155398_j16690242912867_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The buffers the stretch `hostOps0` writes. -/
abbrev wr1 : List (Ref sig .tc) := [main_v0]
theorem keep1 {b : Ref sig .tc} (hb : b ∉ wr1) : W1 m ρ c (Proc.devRef .tc b) = W0 m ρ c (Proc.devRef .tc b) := by
  show StableHlo.after hostOps0 _ _ = _
  refine StableHlo.after_of_forall_not_mem _ _ (List.forall_iff_forall_mem.mp ?_)
  simp only [hostOps0, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 0's windows. -/
abbrev wr2 : List (Ref sig .tc) := [main_arg0, main_arg1, main_v0, main_v1]
theorem keep2 {b : Ref sig .tc} (hb : b ∉ wr2) : W2 m ρ c (Proc.devRef .tc b) = W1 m ρ c (Proc.devRef .tc b) :=
  W2_of_ne m ρ c b (fun w e => hb (e ▸ ((by decide : ∀ w : Fin 4, Pipeline.arrRef spec0 w ∈ wr2) w)))

/-- The buffers the stretch `hostOps1` writes. -/
abbrev wr3 : List (Ref sig .tc) := [main_c, main_v2, main_v3, main_c_0, main_v4, main_v5, main_v6, main_v7, main_v8, main_v9, main_v10, main_v11, main_v12, main_c_1, main_v13, main_v14, main_c_2, main_v15, main_v16, main_v17, main_v18, main_v19]
theorem keep3 {b : Ref sig .tc} (hb : b ∉ wr3) : W3 m ρ c (Proc.devRef .tc b) = W2 m ρ c (Proc.devRef .tc b) := by
  show StableHlo.after hostOps1 _ _ = _
  refine StableHlo.after_of_forall_not_mem _ _ (List.forall_iff_forall_mem.mp ?_)
  simp only [hostOps1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 1's windows. -/
abbrev wr4 : List (Ref sig .tc) := [main_v19, main_v8, main_v20]
theorem keep4 {b : Ref sig .tc} (hb : b ∉ wr4) : W4 m ρ c (Proc.devRef .tc b) = W3 m ρ c (Proc.devRef .tc b) :=
  W4_of_ne m ρ c b (fun w e => hb (e ▸ ((by decide : ∀ w : Fin 3, Pipeline.arrRef spec1 w ∈ wr4) w)))

/-- The buffers the stretch `hostOps2` writes. -/
abbrev wr5 : List (Ref sig .tc) := [main_cst, main_v21, main_v22, main_v23, main_v24, main_v25, main_v26, main_v27, main_v28, main_v29, main_v30, main_v31, main_v32, main_v33]
theorem keep5 {b : Ref sig .tc} (hb : b ∉ wr5) : W5 m ρ c (Proc.devRef .tc b) = W4 m ρ c (Proc.devRef .tc b) := by
  show StableHlo.after hostOps2 _ _ = _
  refine StableHlo.after_of_forall_not_mem _ _ (List.forall_iff_forall_mem.mp ?_)
  simp only [hostOps2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 2's windows. -/
abbrev wr6 : List (Ref sig .tc) := [main_v1, main_v23, main_v25, main_v32, main_v29, main_v33, main_v34]
theorem keep6 {b : Ref sig .tc} (hb : b ∉ wr6) : W6 m ρ c (Proc.devRef .tc b) = W5 m ρ c (Proc.devRef .tc b) :=
  W6_of_ne m ρ c b (fun w e => hb (e ▸ ((by decide : ∀ w : Fin 7, Pipeline.arrRef spec2 w ∈ wr6) w)))

/-- The buffers the stretch `hostOps3` writes. -/
abbrev wr7 : List (Ref sig .tc) := [main_cst_3, main_v35, main_cst_4, main_v36, main_v37, main_c_5]
theorem keep7 {b : Ref sig .tc} (hb : b ∉ wr7) : W7 m ρ c (Proc.devRef .tc b) = W6 m ρ c (Proc.devRef .tc b) := by
  show StableHlo.after hostOps3 _ _ = _
  refine StableHlo.after_of_forall_not_mem _ _ (List.forall_iff_forall_mem.mp ?_)
  simp only [hostOps3, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps3_1` writes. -/
abbrev wr8 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38]
theorem keep8 {b : Ref sig .tc} (hb : b ∉ wr8) : W8 m ρ c (Proc.devRef .tc b) = W7 m ρ c (Proc.devRef .tc b) := by
  show StableHlo.after hostOps3_1 _ _ = _
  refine StableHlo.after_of_forall_not_mem _ _ (List.forall_iff_forall_mem.mp ?_)
  simp only [hostOps3_1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps3_2` writes. -/
abbrev wr9 : List (Ref sig .tc) := [main_v39, main_v40, main_v41, main_v42, main_v43, main_v44, main_v45, main_v46]
theorem keep9 {b : Ref sig .tc} (hb : b ∉ wr9) : W9 m ρ c (Proc.devRef .tc b) = W8 m ρ c (Proc.devRef .tc b) := by
  show StableHlo.after hostOps3_2 _ _ = _
  refine StableHlo.after_of_forall_not_mem _ _ (List.forall_iff_forall_mem.mp ?_)
  simp only [hostOps3_2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 3's windows. -/
abbrev wr10 : List (Ref sig .tc) := [main_v34, main_v43, main_v44, main_v45, main_v46, main_v47]
theorem keep10 {b : Ref sig .tc} (hb : b ∉ wr10) : W10 m ρ c (Proc.devRef .tc b) = W9 m ρ c (Proc.devRef .tc b) :=
  W10_of_ne m ρ c b (fun w e => hb (e ▸ ((by decide : ∀ w : Fin 6, Pipeline.arrRef spec3 w ∈ wr10) w)))

/-- The buffers the stretch `hostOps4` writes. -/
abbrev wr11 : List (Ref sig .tc) := [main_c_6, main_v48, main_v49, main_c_7, main_v50, main_v51, main_v52, main_v53, main_v54]
theorem keep11 {b : Ref sig .tc} (hb : b ∉ wr11) : W11 m ρ c (Proc.devRef .tc b) = W10 m ρ c (Proc.devRef .tc b) := by
  show StableHlo.after hostOps4 _ _ = _
  refine StableHlo.after_of_forall_not_mem _ _ (List.forall_iff_forall_mem.mp ?_)
  simp only [hostOps4, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 4's windows. -/
abbrev wr12 : List (Ref sig .tc) := [main_v54, main_v8, main_v55]
theorem keep12 {b : Ref sig .tc} (hb : b ∉ wr12) : W12 m ρ c (Proc.devRef .tc b) = W11 m ρ c (Proc.devRef .tc b) :=
  W12_of_ne m ρ c b (fun w e => hb (e ▸ ((by decide : ∀ w : Fin 3, Pipeline.arrRef spec4 w ∈ wr12) w)))

/-- The buffers the stretch `hostOps5` writes. -/
abbrev wr13 : List (Ref sig .tc) := [main_cst_8, main_v56, main_v57, main_v58, main_v59, main_v60, main_v61, main_v62, main_v63, main_v64, main_v65, main_v66, main_v67, main_v68]
theorem keep13 {b : Ref sig .tc} (hb : b ∉ wr13) : W13 m ρ c (Proc.devRef .tc b) = W12 m ρ c (Proc.devRef .tc b) := by
  show StableHlo.after hostOps5 _ _ = _
  refine StableHlo.after_of_forall_not_mem _ _ (List.forall_iff_forall_mem.mp ?_)
  simp only [hostOps5, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 5's windows. -/
abbrev wr14 : List (Ref sig .tc) := [main_v47, main_v58, main_v60, main_v67, main_v64, main_v68, main_v69]
theorem keep14 {b : Ref sig .tc} (hb : b ∉ wr14) : W14 m ρ c (Proc.devRef .tc b) = W13 m ρ c (Proc.devRef .tc b) :=
  W14_of_ne m ρ c b (fun w e => hb (e ▸ ((by decide : ∀ w : Fin 7, Pipeline.arrRef spec5 w ∈ wr14) w)))

/-- The buffers the stretch `hostOps6` writes. -/
abbrev wr15 : List (Ref sig .tc) := [main_cst_9, main_v70, main_cst_10, main_v71, main_v72, main_c_11]
theorem keep15 {b : Ref sig .tc} (hb : b ∉ wr15) : W15 m ρ c (Proc.devRef .tc b) = W14 m ρ c (Proc.devRef .tc b) := by
  show StableHlo.after hostOps6 _ _ = _
  refine StableHlo.after_of_forall_not_mem _ _ (List.forall_iff_forall_mem.mp ?_)
  simp only [hostOps6, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps6_1` writes. -/
abbrev wr16 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v73]
theorem keep16 {b : Ref sig .tc} (hb : b ∉ wr16) : W16 m ρ c (Proc.devRef .tc b) = W15 m ρ c (Proc.devRef .tc b) := by
  show StableHlo.after hostOps6_1 _ _ = _
  refine StableHlo.after_of_forall_not_mem _ _ (List.forall_iff_forall_mem.mp ?_)
  simp only [hostOps6_1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps6_2` writes. -/
abbrev wr17 : List (Ref sig .tc) := [main_v74, main_v75, main_v76, main_v77, main_v78, main_v79, main_v80, main_v81]
theorem keep17 {b : Ref sig .tc} (hb : b ∉ wr17) : W17 m ρ c (Proc.devRef .tc b) = W16 m ρ c (Proc.devRef .tc b) := by
  show StableHlo.after hostOps6_2 _ _ = _
  refine StableHlo.after_of_forall_not_mem _ _ (List.forall_iff_forall_mem.mp ?_)
  simp only [hostOps6_2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 6's windows. -/
abbrev wr18 : List (Ref sig .tc) := [main_v69, main_v78, main_v79, main_v80, main_v81, main_v82]
theorem keep18 {b : Ref sig .tc} (hb : b ∉ wr18) : W18 m ρ c (Proc.devRef .tc b) = W17 m ρ c (Proc.devRef .tc b) :=
  W18_of_ne m ρ c b (fun w e => hb (e ▸ ((by decide : ∀ w : Fin 6, Pipeline.arrRef spec6 w ∈ wr18) w)))

/-- The buffers the stretch `hostOps7` writes. -/
abbrev wr19 : List (Ref sig .tc) := [main_c_12, main_v83, main_v84, main_c_13, main_v85, main_v86, main_v87, main_v88, main_v89]
theorem keep19 {b : Ref sig .tc} (hb : b ∉ wr19) : W19 m ρ c (Proc.devRef .tc b) = W18 m ρ c (Proc.devRef .tc b) := by
  show StableHlo.after hostOps7 _ _ = _
  refine StableHlo.after_of_forall_not_mem _ _ (List.forall_iff_forall_mem.mp ?_)
  simp only [hostOps7, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 7's windows. -/
abbrev wr20 : List (Ref sig .tc) := [main_v89, main_v8, main_v90]
theorem keep20 {b : Ref sig .tc} (hb : b ∉ wr20) : W20 m ρ c (Proc.devRef .tc b) = W19 m ρ c (Proc.devRef .tc b) :=
  W20_of_ne m ρ c b (fun w e => hb (e ▸ ((by decide : ∀ w : Fin 3, Pipeline.arrRef spec7 w ∈ wr20) w)))

/-- The buffers the stretch `hostOps8` writes. -/
abbrev wr21 : List (Ref sig .tc) := [main_cst_14, main_v91, main_v92, main_v93, main_v94, main_v95, main_v96, main_v97, main_v98, main_v99, main_v100, main_v101, main_v102, main_v103]
theorem keep21 {b : Ref sig .tc} (hb : b ∉ wr21) : W21 m ρ c (Proc.devRef .tc b) = W20 m ρ c (Proc.devRef .tc b) := by
  show StableHlo.after hostOps8 _ _ = _
  refine StableHlo.after_of_forall_not_mem _ _ (List.forall_iff_forall_mem.mp ?_)
  simp only [hostOps8, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 8's windows. -/
abbrev wr22 : List (Ref sig .tc) := [main_v82, main_v93, main_v95, main_v102, main_v99, main_v103, main_v104]
theorem keep22 {b : Ref sig .tc} (hb : b ∉ wr22) : W22 m ρ c (Proc.devRef .tc b) = W21 m ρ c (Proc.devRef .tc b) :=
  W22_of_ne m ρ c b (fun w e => hb (e ▸ ((by decide : ∀ w : Fin 7, Pipeline.arrRef spec8 w ∈ wr22) w)))

/-- The buffers the stretch `hostOps9` writes. -/
abbrev wr23 : List (Ref sig .tc) := [main_cst_15, main_v105, main_cst_16, main_v106, main_v107, main_c_17]
theorem keep23 {b : Ref sig .tc} (hb : b ∉ wr23) : W23 m ρ c (Proc.devRef .tc b) = W22 m ρ c (Proc.devRef .tc b) := by
  show StableHlo.after hostOps9 _ _ = _
  refine StableHlo.after_of_forall_not_mem _ _ (List.forall_iff_forall_mem.mp ?_)
  simp only [hostOps9, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps9_1` writes. -/
abbrev wr24 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v108]
theorem keep24 {b : Ref sig .tc} (hb : b ∉ wr24) : W24 m ρ c (Proc.devRef .tc b) = W23 m ρ c (Proc.devRef .tc b) := by
  show StableHlo.after hostOps9_1 _ _ = _
  refine StableHlo.after_of_forall_not_mem _ _ (List.forall_iff_forall_mem.mp ?_)
  simp only [hostOps9_1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The buffers the stretch `hostOps9_2` writes. -/
abbrev wr25 : List (Ref sig .tc) := [main_v109, main_v110, main_v111, main_v112, main_v113, main_v114, main_v115, main_v116]
theorem keep25 {b : Ref sig .tc} (hb : b ∉ wr25) : W25 m ρ c (Proc.devRef .tc b) = W24 m ρ c (Proc.devRef .tc b) := by
  show StableHlo.after hostOps9_2 _ _ = _
  refine StableHlo.after_of_forall_not_mem _ _ (List.forall_iff_forall_mem.mp ?_)
  simp only [hostOps9_2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

/-- The arrays of region 9's windows. -/
abbrev wr26 : List (Ref sig .tc) := [main_v104, main_v113, main_v114, main_v115, main_v116, main_v117]
theorem keep26 {b : Ref sig .tc} (hb : b ∉ wr26) : W26 m ρ c (Proc.devRef .tc b) = W25 m ρ c (Proc.devRef .tc b) :=
  W26_of_ne m ρ c b (fun w e => hb (e ▸ ((by decide : ∀ w : Fin 6, Pipeline.arrRef spec9 w ∈ wr26) w)))

/-- The buffers the stretch `hostOps10` writes. -/
abbrev wr27 : List (Ref sig .tc) := [main_cst_18, main_v118, main_cst_19, main_v119, main_v120, main_v121, main_cst_20, main_v122, main_v123, main_v124, main_cst_21, main_v125, main_v126, main_v127, main_v128, main_v129]
theorem keep27 {b : Ref sig .tc} (hb : b ∉ wr27) : W27 m ρ c (Proc.devRef .tc b) = W26 m ρ c (Proc.devRef .tc b) := by
  show StableHlo.after hostOps10 _ _ = _
  refine StableHlo.after_of_forall_not_mem _ _ (List.forall_iff_forall_mem.mp ?_)
  simp only [hostOps10, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (fun e => hb (by subst e; decide))

end Cert.KernelIdeal.Chain

end
-- ==== Proof.KernelChain.lean ====
/-
  The kernel program's result as the specification's function of the thirteen arguments.
  Walking @main's twenty-seven segments in order: each host stretch is read as the specification's stage of the buffers it
  reads (the gather of node rows along the edges, the scatter-add of the messages, the slices of the stacked parameters,
  the mean and the variance, the pooling), each region as the whole-array value of its kernel (the hypotheses `Finals`),
  and a buffer met again later is walked back to the segment that wrote it. Layer by layer the node features are
  `H0 = enc`, `H(l+1) = layer_l H_l`, and the result is `pool H3`.
-/
import proofs.«155398_j16690242912867_1_alg».proof.Proof.Gen.KernelIdeal.Frame
import proofs.«155398_j16690242912867_1_alg».proof.Proof.Spec
import proofs.«155398_j16690242912867_1_alg».proof.Proof.SpecLemmas
import proofs.«155398_j16690242912867_1_alg».proof.Proof.KernelKeep
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- The ten regions' values: each output array after its region is the specification's stage of the region's input arrays
    as the region finds them. -/
structure Finals : Prop where
  f0 : ∀ (V : (c : Dev nD) → (b : Ref sig .tc) → Buf (Elt Ideal) ((c : Thread nD τ).loc b)) (c : Dev nD),
    (dat0 V c).arrAt 3 cfg0.N = Cert.Spec.encK (V c main_arg0) (V c main_arg1) (V c main_v0)
  f1 : ∀ (V : (c : Dev nD) → (b : Ref sig .tc) → Buf (Elt Ideal) ((c : Thread nD τ).loc b)) (c : Dev nD),
    (dat1 V c).arrAt 2 cfg1.N = Cert.Spec.msg (V c main_v19) (V c main_v8)
  f4 : ∀ (V : (c : Dev nD) → (b : Ref sig .tc) → Buf (Elt Ideal) ((c : Thread nD τ).loc b)) (c : Dev nD),
    (dat4 V c).arrAt 2 cfg4.N = Cert.Spec.msg (V c main_v54) (V c main_v8)
  f7 : ∀ (V : (c : Dev nD) → (b : Ref sig .tc) → Buf (Elt Ideal) ((c : Thread nD τ).loc b)) (c : Dev nD),
    (dat7 V c).arrAt 2 cfg7.N = Cert.Spec.msg (V c main_v89) (V c main_v8)
  f2 : ∀ (V : (c : Dev nD) → (b : Ref sig .tc) → Buf (Elt Ideal) ((c : Thread nD τ).loc b)) (c : Dev nD),
    (dat2 V c).arrAt 6 cfg2.N = Cert.Spec.mlpK (V c main_v1) (V c main_v23) (V c main_v25)
      (V c main_v32) (V c main_v29) (V c main_v33)
  f5 : ∀ (V : (c : Dev nD) → (b : Ref sig .tc) → Buf (Elt Ideal) ((c : Thread nD τ).loc b)) (c : Dev nD),
    (dat5 V c).arrAt 6 cfg5.N = Cert.Spec.mlpK (V c main_v47) (V c main_v58) (V c main_v60)
      (V c main_v67) (V c main_v64) (V c main_v68)
  f8 : ∀ (V : (c : Dev nD) → (b : Ref sig .tc) → Buf (Elt Ideal) ((c : Thread nD τ).loc b)) (c : Dev nD),
    (dat8 V c).arrAt 6 cfg8.N = Cert.Spec.mlpK (V c main_v82) (V c main_v93) (V c main_v95)
      (V c main_v102) (V c main_v99) (V c main_v103)
  f3 : ∀ (V : (c : Dev nD) → (b : Ref sig .tc) → Buf (Elt Ideal) ((c : Thread nD τ).loc b)) (c : Dev nD),
    (dat3 V c).arrAt 5 cfg3.N = Cert.Spec.bnK (V c main_v34) (V c main_v43) (V c main_v44)
      (V c main_v45) (V c main_v46)
  f6 : ∀ (V : (c : Dev nD) → (b : Ref sig .tc) → Buf (Elt Ideal) ((c : Thread nD τ).loc b)) (c : Dev nD),
    (dat6 V c).arrAt 5 cfg6.N = Cert.Spec.bnK (V c main_v69) (V c main_v78) (V c main_v79)
      (V c main_v80) (V c main_v81)
  f9 : ∀ (V : (c : Dev nD) → (b : Ref sig .tc) → Buf (Elt Ideal) ((c : Thread nD τ).loc b)) (c : Dev nD),
    (dat9 V c).arrAt 5 cfg9.N = Cert.Spec.bnK (V c main_v104) (V c main_v113) (V c main_v114)
      (V c main_v115) (V c main_v116)

variable (m : (ℓ : Loc nD τ sig) → Buf (Elt Ideal) ℓ) (ρ : Dev nD → PrngReg) (c : Dev nD)

/-! ## The stages' values, as functions of the launch memory -/

/-- The edge embeddings, the source and the destination node of each edge. -/
def E : Cert.Spec.Arr Ideal S640000x128 .f32 := Cert.Spec.emb (m ((c : Thread nD τ).loc main_arg3)) (m ((c : Thread nD τ).loc main_arg11))
def SRC : Cert.Spec.Arr Ideal S640000 .i32 := Cert.Spec.srcOf (m ((c : Thread nD τ).loc main_arg10))
def DST : Cert.Spec.Arr Ideal S640000 .i32 := Cert.Spec.dstOf (m ((c : Thread nD τ).loc main_arg10))
/-- The node features entering each layer. -/
def H0 : Cert.Spec.Arr Ideal S40000x128 .f32 := Cert.Spec.enc (m ((c : Thread nD τ).loc main_arg0)) (m ((c : Thread nD τ).loc main_arg1)) (m ((c : Thread nD τ).loc main_arg2))
/-- Layer 0's perceptron output, before normalisation. -/
def Z0 : Cert.Spec.Arr Ideal S40000x128 .f32 :=
  Cert.Spec.mlpK (H0 m c) (Cert.Spec.aggr (DST m c) (Cert.Spec.msg (Cert.Spec.gath (H0 m c) (SRC m c)) (E m c)))
    (Cert.Spec.w_0 (m ((c : Thread nD τ).loc main_arg4))) (Cert.Spec.row (Cert.Spec.v_0 (m ((c : Thread nD τ).loc main_arg5)))) (Cert.Spec.w_0 (m ((c : Thread nD τ).loc main_arg6))) (Cert.Spec.row (Cert.Spec.v_0 (m ((c : Thread nD τ).loc main_arg7))))
def H1 : Cert.Spec.Arr Ideal S40000x128 .f32 :=
  Cert.Spec.bn (Z0 m c) (Cert.Spec.mean (Z0 m c)) (Cert.Spec.var (Z0 m c)) (Cert.Spec.v_0 (m ((c : Thread nD τ).loc main_arg8))) (Cert.Spec.v_0 (m ((c : Thread nD τ).loc main_arg9)))
/-- Layer 1's perceptron output, before normalisation. -/
def Z1 : Cert.Spec.Arr Ideal S40000x128 .f32 :=
  Cert.Spec.mlpK (H1 m c) (Cert.Spec.aggr (DST m c) (Cert.Spec.msg (Cert.Spec.gath (H1 m c) (SRC m c)) (E m c)))
    (Cert.Spec.w_1 (m ((c : Thread nD τ).loc main_arg4))) (Cert.Spec.row (Cert.Spec.v_1 (m ((c : Thread nD τ).loc main_arg5)))) (Cert.Spec.w_1 (m ((c : Thread nD τ).loc main_arg6))) (Cert.Spec.row (Cert.Spec.v_1 (m ((c : Thread nD τ).loc main_arg7))))
def H2 : Cert.Spec.Arr Ideal S40000x128 .f32 :=
  Cert.Spec.bn (Z1 m c) (Cert.Spec.mean (Z1 m c)) (Cert.Spec.var (Z1 m c)) (Cert.Spec.v_1 (m ((c : Thread nD τ).loc main_arg8))) (Cert.Spec.v_1 (m ((c : Thread nD τ).loc main_arg9)))
/-- Layer 2's perceptron output, before normalisation. -/
def Z2 : Cert.Spec.Arr Ideal S40000x128 .f32 :=
  Cert.Spec.mlpK (H2 m c) (Cert.Spec.aggr (DST m c) (Cert.Spec.msg (Cert.Spec.gath (H2 m c) (SRC m c)) (E m c)))
    (Cert.Spec.w_2 (m ((c : Thread nD τ).loc main_arg4))) (Cert.Spec.row (Cert.Spec.v_2 (m ((c : Thread nD τ).loc main_arg5)))) (Cert.Spec.w_2 (m ((c : Thread nD τ).loc main_arg6))) (Cert.Spec.row (Cert.Spec.v_2 (m ((c : Thread nD τ).loc main_arg7))))
def H3 : Cert.Spec.Arr Ideal S40000x128 .f32 :=
  Cert.Spec.bn (Z2 m c) (Cert.Spec.mean (Z2 m c)) (Cert.Spec.var (Z2 m c)) (Cert.Spec.v_2 (m ((c : Thread nD τ).loc main_arg8))) (Cert.Spec.v_2 (m ((c : Thread nD τ).loc main_arg9)))

/-! ## The arguments at the boundaries where a stretch reads them -/

theorem at1_arg0 : W1 m ρ c (Proc.devRef .tc main_arg0) = m ((c : Thread nD τ).loc main_arg0) :=
  keep1 m ρ c (b := main_arg0) (by decide)
theorem at1_arg1 : W1 m ρ c (Proc.devRef .tc main_arg1) = m ((c : Thread nD τ).loc main_arg1) :=
  keep1 m ρ c (b := main_arg1) (by decide)
theorem at2_arg3 : W2 m ρ c (Proc.devRef .tc main_arg3) = m ((c : Thread nD τ).loc main_arg3) :=
  (keep2 m ρ c (b := main_arg3) (by decide)).trans (keep1 m ρ c (b := main_arg3) (by decide))
theorem at2_arg10 : W2 m ρ c (Proc.devRef .tc main_arg10) = m ((c : Thread nD τ).loc main_arg10) :=
  (keep2 m ρ c (b := main_arg10) (by decide)).trans (keep1 m ρ c (b := main_arg10) (by decide))
theorem at2_arg11 : W2 m ρ c (Proc.devRef .tc main_arg11) = m ((c : Thread nD τ).loc main_arg11) :=
  (keep2 m ρ c (b := main_arg11) (by decide)).trans (keep1 m ρ c (b := main_arg11) (by decide))
theorem at4_arg4 : W4 m ρ c (Proc.devRef .tc main_arg4) = m ((c : Thread nD τ).loc main_arg4) :=
  (keep4 m ρ c (b := main_arg4) (by decide)).trans ((keep3 m ρ c (b := main_arg4) (by decide)).trans ((keep2 m ρ c (b := main_arg4) (by decide)).trans (keep1 m ρ c (b := main_arg4) (by decide))))
theorem at4_arg5 : W4 m ρ c (Proc.devRef .tc main_arg5) = m ((c : Thread nD τ).loc main_arg5) :=
  (keep4 m ρ c (b := main_arg5) (by decide)).trans ((keep3 m ρ c (b := main_arg5) (by decide)).trans ((keep2 m ρ c (b := main_arg5) (by decide)).trans (keep1 m ρ c (b := main_arg5) (by decide))))
theorem at4_arg6 : W4 m ρ c (Proc.devRef .tc main_arg6) = m ((c : Thread nD τ).loc main_arg6) :=
  (keep4 m ρ c (b := main_arg6) (by decide)).trans ((keep3 m ρ c (b := main_arg6) (by decide)).trans ((keep2 m ρ c (b := main_arg6) (by decide)).trans (keep1 m ρ c (b := main_arg6) (by decide))))
theorem at4_arg7 : W4 m ρ c (Proc.devRef .tc main_arg7) = m ((c : Thread nD τ).loc main_arg7) :=
  (keep4 m ρ c (b := main_arg7) (by decide)).trans ((keep3 m ρ c (b := main_arg7) (by decide)).trans ((keep2 m ρ c (b := main_arg7) (by decide)).trans (keep1 m ρ c (b := main_arg7) (by decide))))
theorem at8_arg8 : W8 m ρ c (Proc.devRef .tc main_arg8) = m ((c : Thread nD τ).loc main_arg8) :=
  (keep8 m ρ c (b := main_arg8) (by decide)).trans ((keep7 m ρ c (b := main_arg8) (by decide)).trans ((keep6 m ρ c (b := main_arg8) (by decide)).trans ((keep5 m ρ c (b := main_arg8) (by decide)).trans ((keep4 m ρ c (b := main_arg8) (by decide)).trans ((keep3 m ρ c (b := main_arg8) (by decide)).trans ((keep2 m ρ c (b := main_arg8) (by decide)).trans (keep1 m ρ c (b := main_arg8) (by decide))))))))
theorem at8_arg9 : W8 m ρ c (Proc.devRef .tc main_arg9) = m ((c : Thread nD τ).loc main_arg9) :=
  (keep8 m ρ c (b := main_arg9) (by decide)).trans ((keep7 m ρ c (b := main_arg9) (by decide)).trans ((keep6 m ρ c (b := main_arg9) (by decide)).trans ((keep5 m ρ c (b := main_arg9) (by decide)).trans ((keep4 m ρ c (b := main_arg9) (by decide)).trans ((keep3 m ρ c (b := main_arg9) (by decide)).trans ((keep2 m ρ c (b := main_arg9) (by decide)).trans (keep1 m ρ c (b := main_arg9) (by decide))))))))
theorem at12_arg4 : W12 m ρ c (Proc.devRef .tc main_arg4) = m ((c : Thread nD τ).loc main_arg4) :=
  (keep12 m ρ c (b := main_arg4) (by decide)).trans ((keep11 m ρ c (b := main_arg4) (by decide)).trans ((keep10 m ρ c (b := main_arg4) (by decide)).trans ((keep9 m ρ c (b := main_arg4) (by decide)).trans ((keep8 m ρ c (b := main_arg4) (by decide)).trans ((keep7 m ρ c (b := main_arg4) (by decide)).trans ((keep6 m ρ c (b := main_arg4) (by decide)).trans ((keep5 m ρ c (b := main_arg4) (by decide)).trans ((keep4 m ρ c (b := main_arg4) (by decide)).trans ((keep3 m ρ c (b := main_arg4) (by decide)).trans ((keep2 m ρ c (b := main_arg4) (by decide)).trans (keep1 m ρ c (b := main_arg4) (by decide))))))))))))
theorem at12_arg5 : W12 m ρ c (Proc.devRef .tc main_arg5) = m ((c : Thread nD τ).loc main_arg5) :=
  (keep12 m ρ c (b := main_arg5) (by decide)).trans ((keep11 m ρ c (b := main_arg5) (by decide)).trans ((keep10 m ρ c (b := main_arg5) (by decide)).trans ((keep9 m ρ c (b := main_arg5) (by decide)).trans ((keep8 m ρ c (b := main_arg5) (by decide)).trans ((keep7 m ρ c (b := main_arg5) (by decide)).trans ((keep6 m ρ c (b := main_arg5) (by decide)).trans ((keep5 m ρ c (b := main_arg5) (by decide)).trans ((keep4 m ρ c (b := main_arg5) (by decide)).trans ((keep3 m ρ c (b := main_arg5) (by decide)).trans ((keep2 m ρ c (b := main_arg5) (by decide)).trans (keep1 m ρ c (b := main_arg5) (by decide))))))))))))
theorem at12_arg6 : W12 m ρ c (Proc.devRef .tc main_arg6) = m ((c : Thread nD τ).loc main_arg6) :=
  (keep12 m ρ c (b := main_arg6) (by decide)).trans ((keep11 m ρ c (b := main_arg6) (by decide)).trans ((keep10 m ρ c (b := main_arg6) (by decide)).trans ((keep9 m ρ c (b := main_arg6) (by decide)).trans ((keep8 m ρ c (b := main_arg6) (by decide)).trans ((keep7 m ρ c (b := main_arg6) (by decide)).trans ((keep6 m ρ c (b := main_arg6) (by decide)).trans ((keep5 m ρ c (b := main_arg6) (by decide)).trans ((keep4 m ρ c (b := main_arg6) (by decide)).trans ((keep3 m ρ c (b := main_arg6) (by decide)).trans ((keep2 m ρ c (b := main_arg6) (by decide)).trans (keep1 m ρ c (b := main_arg6) (by decide))))))))))))
theorem at12_arg7 : W12 m ρ c (Proc.devRef .tc main_arg7) = m ((c : Thread nD τ).loc main_arg7) :=
  (keep12 m ρ c (b := main_arg7) (by decide)).trans ((keep11 m ρ c (b := main_arg7) (by decide)).trans ((keep10 m ρ c (b := main_arg7) (by decide)).trans ((keep9 m ρ c (b := main_arg7) (by decide)).trans ((keep8 m ρ c (b := main_arg7) (by decide)).trans ((keep7 m ρ c (b := main_arg7) (by decide)).trans ((keep6 m ρ c (b := main_arg7) (by decide)).trans ((keep5 m ρ c (b := main_arg7) (by decide)).trans ((keep4 m ρ c (b := main_arg7) (by decide)).trans ((keep3 m ρ c (b := main_arg7) (by decide)).trans ((keep2 m ρ c (b := main_arg7) (by decide)).trans (keep1 m ρ c (b := main_arg7) (by decide))))))))))))
theorem at16_arg8 : W16 m ρ c (Proc.devRef .tc main_arg8) = m ((c : Thread nD τ).loc main_arg8) :=
  (keep16 m ρ c (b := main_arg8) (by decide)).trans ((keep15 m ρ c (b := main_arg8) (by decide)).trans ((keep14 m ρ c (b := main_arg8) (by decide)).trans ((keep13 m ρ c (b := main_arg8) (by decide)).trans ((keep12 m ρ c (b := main_arg8) (by decide)).trans ((keep11 m ρ c (b := main_arg8) (by decide)).trans ((keep10 m ρ c (b := main_arg8) (by decide)).trans ((keep9 m ρ c (b := main_arg8) (by decide)).trans ((keep8 m ρ c (b := main_arg8) (by decide)).trans ((keep7 m ρ c (b := main_arg8) (by decide)).trans ((keep6 m ρ c (b := main_arg8) (by decide)).trans ((keep5 m ρ c (b := main_arg8) (by decide)).trans ((keep4 m ρ c (b := main_arg8) (by decide)).trans ((keep3 m ρ c (b := main_arg8) (by decide)).trans ((keep2 m ρ c (b := main_arg8) (by decide)).trans (keep1 m ρ c (b := main_arg8) (by decide))))))))))))))))
theorem at16_arg9 : W16 m ρ c (Proc.devRef .tc main_arg9) = m ((c : Thread nD τ).loc main_arg9) :=
  (keep16 m ρ c (b := main_arg9) (by decide)).trans ((keep15 m ρ c (b := main_arg9) (by decide)).trans ((keep14 m ρ c (b := main_arg9) (by decide)).trans ((keep13 m ρ c (b := main_arg9) (by decide)).trans ((keep12 m ρ c (b := main_arg9) (by decide)).trans ((keep11 m ρ c (b := main_arg9) (by decide)).trans ((keep10 m ρ c (b := main_arg9) (by decide)).trans ((keep9 m ρ c (b := main_arg9) (by decide)).trans ((keep8 m ρ c (b := main_arg9) (by decide)).trans ((keep7 m ρ c (b := main_arg9) (by decide)).trans ((keep6 m ρ c (b := main_arg9) (by decide)).trans ((keep5 m ρ c (b := main_arg9) (by decide)).trans ((keep4 m ρ c (b := main_arg9) (by decide)).trans ((keep3 m ρ c (b := main_arg9) (by decide)).trans ((keep2 m ρ c (b := main_arg9) (by decide)).trans (keep1 m ρ c (b := main_arg9) (by decide))))))))))))))))
theorem at20_arg4 : W20 m ρ c (Proc.devRef .tc main_arg4) = m ((c : Thread nD τ).loc main_arg4) :=
  (keep20 m ρ c (b := main_arg4) (by decide)).trans ((keep19 m ρ c (b := main_arg4) (by decide)).trans ((keep18 m ρ c (b := main_arg4) (by decide)).trans ((keep17 m ρ c (b := main_arg4) (by decide)).trans ((keep16 m ρ c (b := main_arg4) (by decide)).trans ((keep15 m ρ c (b := main_arg4) (by decide)).trans ((keep14 m ρ c (b := main_arg4) (by decide)).trans ((keep13 m ρ c (b := main_arg4) (by decide)).trans ((keep12 m ρ c (b := main_arg4) (by decide)).trans ((keep11 m ρ c (b := main_arg4) (by decide)).trans ((keep10 m ρ c (b := main_arg4) (by decide)).trans ((keep9 m ρ c (b := main_arg4) (by decide)).trans ((keep8 m ρ c (b := main_arg4) (by decide)).trans ((keep7 m ρ c (b := main_arg4) (by decide)).trans ((keep6 m ρ c (b := main_arg4) (by decide)).trans ((keep5 m ρ c (b := main_arg4) (by decide)).trans ((keep4 m ρ c (b := main_arg4) (by decide)).trans ((keep3 m ρ c (b := main_arg4) (by decide)).trans ((keep2 m ρ c (b := main_arg4) (by decide)).trans (keep1 m ρ c (b := main_arg4) (by decide))))))))))))))))))))
theorem at20_arg5 : W20 m ρ c (Proc.devRef .tc main_arg5) = m ((c : Thread nD τ).loc main_arg5) :=
  (keep20 m ρ c (b := main_arg5) (by decide)).trans ((keep19 m ρ c (b := main_arg5) (by decide)).trans ((keep18 m ρ c (b := main_arg5) (by decide)).trans ((keep17 m ρ c (b := main_arg5) (by decide)).trans ((keep16 m ρ c (b := main_arg5) (by decide)).trans ((keep15 m ρ c (b := main_arg5) (by decide)).trans ((keep14 m ρ c (b := main_arg5) (by decide)).trans ((keep13 m ρ c (b := main_arg5) (by decide)).trans ((keep12 m ρ c (b := main_arg5) (by decide)).trans ((keep11 m ρ c (b := main_arg5) (by decide)).trans ((keep10 m ρ c (b := main_arg5) (by decide)).trans ((keep9 m ρ c (b := main_arg5) (by decide)).trans ((keep8 m ρ c (b := main_arg5) (by decide)).trans ((keep7 m ρ c (b := main_arg5) (by decide)).trans ((keep6 m ρ c (b := main_arg5) (by decide)).trans ((keep5 m ρ c (b := main_arg5) (by decide)).trans ((keep4 m ρ c (b := main_arg5) (by decide)).trans ((keep3 m ρ c (b := main_arg5) (by decide)).trans ((keep2 m ρ c (b := main_arg5) (by decide)).trans (keep1 m ρ c (b := main_arg5) (by decide))))))))))))))))))))
theorem at20_arg6 : W20 m ρ c (Proc.devRef .tc main_arg6) = m ((c : Thread nD τ).loc main_arg6) :=
  (keep20 m ρ c (b := main_arg6) (by decide)).trans ((keep19 m ρ c (b := main_arg6) (by decide)).trans ((keep18 m ρ c (b := main_arg6) (by decide)).trans ((keep17 m ρ c (b := main_arg6) (by decide)).trans ((keep16 m ρ c (b := main_arg6) (by decide)).trans ((keep15 m ρ c (b := main_arg6) (by decide)).trans ((keep14 m ρ c (b := main_arg6) (by decide)).trans ((keep13 m ρ c (b := main_arg6) (by decide)).trans ((keep12 m ρ c (b := main_arg6) (by decide)).trans ((keep11 m ρ c (b := main_arg6) (by decide)).trans ((keep10 m ρ c (b := main_arg6) (by decide)).trans ((keep9 m ρ c (b := main_arg6) (by decide)).trans ((keep8 m ρ c (b := main_arg6) (by decide)).trans ((keep7 m ρ c (b := main_arg6) (by decide)).trans ((keep6 m ρ c (b := main_arg6) (by decide)).trans ((keep5 m ρ c (b := main_arg6) (by decide)).trans ((keep4 m ρ c (b := main_arg6) (by decide)).trans ((keep3 m ρ c (b := main_arg6) (by decide)).trans ((keep2 m ρ c (b := main_arg6) (by decide)).trans (keep1 m ρ c (b := main_arg6) (by decide))))))))))))))))))))
theorem at20_arg7 : W20 m ρ c (Proc.devRef .tc main_arg7) = m ((c : Thread nD τ).loc main_arg7) :=
  (keep20 m ρ c (b := main_arg7) (by decide)).trans ((keep19 m ρ c (b := main_arg7) (by decide)).trans ((keep18 m ρ c (b := main_arg7) (by decide)).trans ((keep17 m ρ c (b := main_arg7) (by decide)).trans ((keep16 m ρ c (b := main_arg7) (by decide)).trans ((keep15 m ρ c (b := main_arg7) (by decide)).trans ((keep14 m ρ c (b := main_arg7) (by decide)).trans ((keep13 m ρ c (b := main_arg7) (by decide)).trans ((keep12 m ρ c (b := main_arg7) (by decide)).trans ((keep11 m ρ c (b := main_arg7) (by decide)).trans ((keep10 m ρ c (b := main_arg7) (by decide)).trans ((keep9 m ρ c (b := main_arg7) (by decide)).trans ((keep8 m ρ c (b := main_arg7) (by decide)).trans ((keep7 m ρ c (b := main_arg7) (by decide)).trans ((keep6 m ρ c (b := main_arg7) (by decide)).trans ((keep5 m ρ c (b := main_arg7) (by decide)).trans ((keep4 m ρ c (b := main_arg7) (by decide)).trans ((keep3 m ρ c (b := main_arg7) (by decide)).trans ((keep2 m ρ c (b := main_arg7) (by decide)).trans (keep1 m ρ c (b := main_arg7) (by decide))))))))))))))))))))
theorem at24_arg8 : W24 m ρ c (Proc.devRef .tc main_arg8) = m ((c : Thread nD τ).loc main_arg8) :=
  (keep24 m ρ c (b := main_arg8) (by decide)).trans ((keep23 m ρ c (b := main_arg8) (by decide)).trans ((keep22 m ρ c (b := main_arg8) (by decide)).trans ((keep21 m ρ c (b := main_arg8) (by decide)).trans ((keep20 m ρ c (b := main_arg8) (by decide)).trans ((keep19 m ρ c (b := main_arg8) (by decide)).trans ((keep18 m ρ c (b := main_arg8) (by decide)).trans ((keep17 m ρ c (b := main_arg8) (by decide)).trans ((keep16 m ρ c (b := main_arg8) (by decide)).trans ((keep15 m ρ c (b := main_arg8) (by decide)).trans ((keep14 m ρ c (b := main_arg8) (by decide)).trans ((keep13 m ρ c (b := main_arg8) (by decide)).trans ((keep12 m ρ c (b := main_arg8) (by decide)).trans ((keep11 m ρ c (b := main_arg8) (by decide)).trans ((keep10 m ρ c (b := main_arg8) (by decide)).trans ((keep9 m ρ c (b := main_arg8) (by decide)).trans ((keep8 m ρ c (b := main_arg8) (by decide)).trans ((keep7 m ρ c (b := main_arg8) (by decide)).trans ((keep6 m ρ c (b := main_arg8) (by decide)).trans ((keep5 m ρ c (b := main_arg8) (by decide)).trans ((keep4 m ρ c (b := main_arg8) (by decide)).trans ((keep3 m ρ c (b := main_arg8) (by decide)).trans ((keep2 m ρ c (b := main_arg8) (by decide)).trans (keep1 m ρ c (b := main_arg8) (by decide))))))))))))))))))))))))
theorem at24_arg9 : W24 m ρ c (Proc.devRef .tc main_arg9) = m ((c : Thread nD τ).loc main_arg9) :=
  (keep24 m ρ c (b := main_arg9) (by decide)).trans ((keep23 m ρ c (b := main_arg9) (by decide)).trans ((keep22 m ρ c (b := main_arg9) (by decide)).trans ((keep21 m ρ c (b := main_arg9) (by decide)).trans ((keep20 m ρ c (b := main_arg9) (by decide)).trans ((keep19 m ρ c (b := main_arg9) (by decide)).trans ((keep18 m ρ c (b := main_arg9) (by decide)).trans ((keep17 m ρ c (b := main_arg9) (by decide)).trans ((keep16 m ρ c (b := main_arg9) (by decide)).trans ((keep15 m ρ c (b := main_arg9) (by decide)).trans ((keep14 m ρ c (b := main_arg9) (by decide)).trans ((keep13 m ρ c (b := main_arg9) (by decide)).trans ((keep12 m ρ c (b := main_arg9) (by decide)).trans ((keep11 m ρ c (b := main_arg9) (by decide)).trans ((keep10 m ρ c (b := main_arg9) (by decide)).trans ((keep9 m ρ c (b := main_arg9) (by decide)).trans ((keep8 m ρ c (b := main_arg9) (by decide)).trans ((keep7 m ρ c (b := main_arg9) (by decide)).trans ((keep6 m ρ c (b := main_arg9) (by decide)).trans ((keep5 m ρ c (b := main_arg9) (by decide)).trans ((keep4 m ρ c (b := main_arg9) (by decide)).trans ((keep3 m ρ c (b := main_arg9) (by decide)).trans ((keep2 m ρ c (b := main_arg9) (by decide)).trans (keep1 m ρ c (b := main_arg9) (by decide))))))))))))))))))))))))
theorem at26_arg12 : W26 m ρ c (Proc.devRef .tc main_arg12) = m ((c : Thread nD τ).loc main_arg12) :=
  (keep26 m ρ c (b := main_arg12) (by decide)).trans ((keep25 m ρ c (b := main_arg12) (by decide)).trans ((keep24 m ρ c (b := main_arg12) (by decide)).trans ((keep23 m ρ c (b := main_arg12) (by decide)).trans ((keep22 m ρ c (b := main_arg12) (by decide)).trans ((keep21 m ρ c (b := main_arg12) (by decide)).trans ((keep20 m ρ c (b := main_arg12) (by decide)).trans ((keep19 m ρ c (b := main_arg12) (by decide)).trans ((keep18 m ρ c (b := main_arg12) (by decide)).trans ((keep17 m ρ c (b := main_arg12) (by decide)).trans ((keep16 m ρ c (b := main_arg12) (by decide)).trans ((keep15 m ρ c (b := main_arg12) (by decide)).trans ((keep14 m ρ c (b := main_arg12) (by decide)).trans ((keep13 m ρ c (b := main_arg12) (by decide)).trans ((keep12 m ρ c (b := main_arg12) (by decide)).trans ((keep11 m ρ c (b := main_arg12) (by decide)).trans ((keep10 m ρ c (b := main_arg12) (by decide)).trans ((keep9 m ρ c (b := main_arg12) (by decide)).trans ((keep8 m ρ c (b := main_arg12) (by decide)).trans ((keep7 m ρ c (b := main_arg12) (by decide)).trans ((keep6 m ρ c (b := main_arg12) (by decide)).trans ((keep5 m ρ c (b := main_arg12) (by decide)).trans ((keep4 m ρ c (b := main_arg12) (by decide)).trans ((keep3 m ρ c (b := main_arg12) (by decide)).trans ((keep2 m ρ c (b := main_arg12) (by decide)).trans (keep1 m ρ c (b := main_arg12) (by decide))))))))))))))))))))))))))

/-! ## The encoder -/

theorem v0_raw : W1 m ρ c (Proc.devRef .tc main_v0) = fun i => shapeCast S1x128 (m ((c : Thread nD τ).loc main_arg2)) shapeCasts_S128_S1x128 i := by
  show StableHlo.after hostOps0 _ _ = _
  after_results
  rfl
theorem v0_val : W1 m ρ c (Proc.devRef .tc main_v0) = Cert.Spec.row (m ((c : Thread nD τ).loc main_arg2)) := by
  rw [v0_raw]; exact Cert.Spec.row_eq _ _
theorem h0_raw (hf : Finals) : W2 m ρ c (Proc.devRef .tc main_v1) = Cert.Spec.encK (W1 m ρ c (Proc.devRef .tc main_arg0)) (W1 m ρ c (Proc.devRef .tc main_arg1)) (W1 m ρ c (Proc.devRef .tc main_v0)) :=
  (W2_arr m ρ c 3).trans (hf.f0 (V1 m ρ) c)
theorem h0_val (hf : Finals) : W2 m ρ c (Proc.devRef .tc main_v1) = H0 m c := by
  rw [h0_raw m ρ c hf, at1_arg0, at1_arg1, v0_val]; rfl

/-! ## The edge data: embeddings, sources, destinations (computed once, read in every layer) -/

theorem e_raw : W3 m ρ c (Proc.devRef .tc main_v8) = Cert.Spec.emb (W2 m ρ c (Proc.devRef .tc main_arg3)) (W2 m ρ c (Proc.devRef .tc main_arg11)) := by
  show StableHlo.after hostOps1 _ _ = _
  after_results_simp
  rfl
theorem e_val : W3 m ρ c (Proc.devRef .tc main_v8) = E m c := by rw [e_raw, at2_arg3, at2_arg11]; rfl
theorem src_raw : W3 m ρ c (Proc.devRef .tc main_v10) = Cert.Spec.srcOf (W2 m ρ c (Proc.devRef .tc main_arg10)) := by
  show StableHlo.after hostOps1 _ _ = _
  after_results_simp
  rfl
theorem src_val : W3 m ρ c (Proc.devRef .tc main_v10) = SRC m c := by rw [src_raw, at2_arg10]; rfl
theorem dst_raw : W3 m ρ c (Proc.devRef .tc main_v12) = Cert.Spec.dstOf (W2 m ρ c (Proc.devRef .tc main_arg10)) := by
  show StableHlo.after hostOps1 _ _ = _
  after_results_simp
  rfl
theorem dst_val : W3 m ρ c (Proc.devRef .tc main_v12) = DST m c := by rw [dst_raw, at2_arg10]; rfl
theorem e_at11 : W11 m ρ c (Proc.devRef .tc main_v8) = E m c :=
  ((keep11 m ρ c (b := main_v8) (by decide)).trans ((keep10 m ρ c (b := main_v8) (by decide)).trans ((keep9 m ρ c (b := main_v8) (by decide)).trans ((keep8 m ρ c (b := main_v8) (by decide)).trans ((keep7 m ρ c (b := main_v8) (by decide)).trans ((keep6 m ρ c (b := main_v8) (by decide)).trans ((keep5 m ρ c (b := main_v8) (by decide)).trans ((W4_arr m ρ c 1).trans (((dat1 (V3 m ρ) c).arrAt_in 1 rfl _).trans (A_eq1 (V3 m ρ) c 1)))))))))).trans (e_val m ρ c)
theorem e_at19 : W19 m ρ c (Proc.devRef .tc main_v8) = E m c :=
  ((keep19 m ρ c (b := main_v8) (by decide)).trans ((keep18 m ρ c (b := main_v8) (by decide)).trans ((keep17 m ρ c (b := main_v8) (by decide)).trans ((keep16 m ρ c (b := main_v8) (by decide)).trans ((keep15 m ρ c (b := main_v8) (by decide)).trans ((keep14 m ρ c (b := main_v8) (by decide)).trans ((keep13 m ρ c (b := main_v8) (by decide)).trans ((W12_arr m ρ c 1).trans (((dat4 (V11 m ρ) c).arrAt_in 1 rfl _).trans (A_eq4 (V11 m ρ) c 1)))))))))).trans (e_at11 m ρ c)
theorem src_at10 : W10 m ρ c (Proc.devRef .tc main_v10) = SRC m c :=
  ((keep10 m ρ c (b := main_v10) (by decide)).trans ((keep9 m ρ c (b := main_v10) (by decide)).trans ((keep8 m ρ c (b := main_v10) (by decide)).trans ((keep7 m ρ c (b := main_v10) (by decide)).trans ((keep6 m ρ c (b := main_v10) (by decide)).trans ((keep5 m ρ c (b := main_v10) (by decide)).trans (keep4 m ρ c (b := main_v10) (by decide)))))))).trans (src_val m ρ c)
theorem src_at18 : W18 m ρ c (Proc.devRef .tc main_v10) = SRC m c :=
  ((keep18 m ρ c (b := main_v10) (by decide)).trans ((keep17 m ρ c (b := main_v10) (by decide)).trans ((keep16 m ρ c (b := main_v10) (by decide)).trans ((keep15 m ρ c (b := main_v10) (by decide)).trans ((keep14 m ρ c (b := main_v10) (by decide)).trans ((keep13 m ρ c (b := main_v10) (by decide)).trans ((keep12 m ρ c (b := main_v10) (by decide)).trans (keep11 m ρ c (b := main_v10) (by decide))))))))).trans (src_at10 m ρ c)
theorem dst_at4 : W4 m ρ c (Proc.devRef .tc main_v12) = DST m c :=
  (keep4 m ρ c (b := main_v12) (by decide)).trans (dst_val m ρ c)
theorem dst_at12 : W12 m ρ c (Proc.devRef .tc main_v12) = DST m c :=
  ((keep12 m ρ c (b := main_v12) (by decide)).trans ((keep11 m ρ c (b := main_v12) (by decide)).trans ((keep10 m ρ c (b := main_v12) (by decide)).trans ((keep9 m ρ c (b := main_v12) (by decide)).trans ((keep8 m ρ c (b := main_v12) (by decide)).trans ((keep7 m ρ c (b := main_v12) (by decide)).trans ((keep6 m ρ c (b := main_v12) (by decide)).trans (keep5 m ρ c (b := main_v12) (by decide))))))))).trans (dst_at4 m ρ c)
theorem dst_at20 : W20 m ρ c (Proc.devRef .tc main_v12) = DST m c :=
  ((keep20 m ρ c (b := main_v12) (by decide)).trans ((keep19 m ρ c (b := main_v12) (by decide)).trans ((keep18 m ρ c (b := main_v12) (by decide)).trans ((keep17 m ρ c (b := main_v12) (by decide)).trans ((keep16 m ρ c (b := main_v12) (by decide)).trans ((keep15 m ρ c (b := main_v12) (by decide)).trans ((keep14 m ρ c (b := main_v12) (by decide)).trans (keep13 m ρ c (b := main_v12) (by decide))))))))).trans (dst_at12 m ρ c)

/-! ## Layer 0 -/

theorem g0_raw : W3 m ρ c (Proc.devRef .tc main_v19) = Cert.Spec.gath (W2 m ρ c (Proc.devRef .tc main_v1)) (Cert.Spec.srcOf (W2 m ρ c (Proc.devRef .tc main_arg10))) := by
  show StableHlo.after hostOps1 _ _ = _
  after_results_simp
  rfl
theorem g0_val (hf : Finals) : W3 m ρ c (Proc.devRef .tc main_v19) = Cert.Spec.gath (H0 m c) (SRC m c) := by
  rw [g0_raw, h0_val m ρ c hf, at2_arg10]; rfl
theorem m0_val (hf : Finals) : W4 m ρ c (Proc.devRef .tc main_v20) = Cert.Spec.msg (Cert.Spec.gath (H0 m c) (SRC m c)) (E m c) := by
  rw [show W4 m ρ c (Proc.devRef .tc main_v20) = Cert.Spec.msg (W3 m ρ c (Proc.devRef .tc main_v19)) (W3 m ρ c (Proc.devRef .tc main_v8)) from (W4_arr m ρ c 2).trans (hf.f1 (V3 m ρ) c),
    g0_val m ρ c hf, e_val]
theorem ag0_raw : W5 m ρ c (Proc.devRef .tc main_v23) = Cert.Spec.aggr (W4 m ρ c (Proc.devRef .tc main_v12)) (W4 m ρ c (Proc.devRef .tc main_v20)) := by
  show StableHlo.after hostOps2 _ _ = _
  after_results_simp
  rfl
theorem ag0_val (hf : Finals) : W5 m ρ c (Proc.devRef .tc main_v23) = Cert.Spec.aggr (DST m c) (Cert.Spec.msg (Cert.Spec.gath (H0 m c) (SRC m c)) (E m c)) := by
  rw [ag0_raw, dst_at4, m0_val m ρ c hf]
theorem w1_0_val : W5 m ρ c (Proc.devRef .tc main_v25) = Cert.Spec.w_0 (m ((c : Thread nD τ).loc main_arg4)) := by
  rw [show W5 m ρ c (Proc.devRef .tc main_v25) = Cert.Spec.w_0 (W4 m ρ c (Proc.devRef .tc main_arg4)) from by
    show StableHlo.after hostOps2 _ _ = _
    after_results_simp
    rfl, at4_arg4]
theorem w2_0_val : W5 m ρ c (Proc.devRef .tc main_v29) = Cert.Spec.w_0 (m ((c : Thread nD τ).loc main_arg6)) := by
  rw [show W5 m ρ c (Proc.devRef .tc main_v29) = Cert.Spec.w_0 (W4 m ρ c (Proc.devRef .tc main_arg6)) from by
    show StableHlo.after hostOps2 _ _ = _
    after_results_simp
    rfl, at4_arg6]
theorem b1_0_val : W5 m ρ c (Proc.devRef .tc main_v32) = Cert.Spec.row (Cert.Spec.v_0 (m ((c : Thread nD τ).loc main_arg5))) := by
  rw [show W5 m ρ c (Proc.devRef .tc main_v32) = (fun i => shapeCast S1x128 (Cert.Spec.v_0 (W4 m ρ c (Proc.devRef .tc main_arg5))) shapeCasts_S128_S1x128 i) from by
    show StableHlo.after hostOps2 _ _ = _
    after_results_simp
    rfl, at4_arg5]
  exact Cert.Spec.row_eq _ _
theorem b2_0_val : W5 m ρ c (Proc.devRef .tc main_v33) = Cert.Spec.row (Cert.Spec.v_0 (m ((c : Thread nD τ).loc main_arg7))) := by
  rw [show W5 m ρ c (Proc.devRef .tc main_v33) = (fun i => shapeCast S1x128 (Cert.Spec.v_0 (W4 m ρ c (Proc.devRef .tc main_arg7))) shapeCasts_S128_S1x128 i) from by
    show StableHlo.after hostOps2 _ _ = _
    after_results_simp
    rfl, at4_arg7]
  exact Cert.Spec.row_eq _ _
theorem hin0_at5 (hf : Finals) : W5 m ρ c (Proc.devRef .tc main_v1) = H0 m c :=
  ((keep5 m ρ c (b := main_v1) (by decide)).trans ((keep4 m ρ c (b := main_v1) (by decide)).trans (keep3 m ρ c (b := main_v1) (by decide)))).trans (h0_val m ρ c hf)
theorem z0_val (hf : Finals) : W6 m ρ c (Proc.devRef .tc main_v34) = Z0 m c := by
  rw [show W6 m ρ c (Proc.devRef .tc main_v34) = Cert.Spec.mlpK (W5 m ρ c (Proc.devRef .tc main_v1)) (W5 m ρ c (Proc.devRef .tc main_v23)) (W5 m ρ c (Proc.devRef .tc main_v25)) (W5 m ρ c (Proc.devRef .tc main_v32)) (W5 m ρ c (Proc.devRef .tc main_v29)) (W5 m ρ c (Proc.devRef .tc main_v33))
      from (W6_arr m ρ c 6).trans (hf.f2 (V5 m ρ) c),
    hin0_at5 m ρ c hf, ag0_val m ρ c hf, w1_0_val, b1_0_val, w2_0_val, b2_0_val]
  rfl
theorem mu0_val (hf : Finals) : W7 m ρ c (Proc.devRef .tc main_v37) = Cert.Spec.mean (Z0 m c) := by
  rw [show W7 m ρ c (Proc.devRef .tc main_v37) = Cert.Spec.mean (W6 m ρ c (Proc.devRef .tc main_v34)) from by
    show StableHlo.after hostOps3 _ _ = _
    after_results_simp
    rfl, z0_val m ρ c hf]
theorem var0_val (hf : Finals) : W8 m ρ c (Proc.devRef .tc main_v38) = Cert.Spec.var (Z0 m c) := by
  rw [show W8 m ρ c (Proc.devRef .tc main_v38) = Cert.Spec.var (W6 m ρ c (Proc.devRef .tc main_v34)) from by
    show StableHlo.after hostOps3_1 (StableHlo.after hostOps3 _) _ = _
    after_results_simp
    rfl, z0_val m ρ c hf]
theorem mur0_val (hf : Finals) : W9 m ρ c (Proc.devRef .tc main_v43) = Cert.Spec.row (Cert.Spec.mean (Z0 m c)) := by
  rw [show W9 m ρ c (Proc.devRef .tc main_v43) = (fun i => shapeCast S1x128 (W8 m ρ c (Proc.devRef .tc main_v37)) shapeCasts_S128_S1x128 i) from by
    show StableHlo.after hostOps3_2 _ _ = _
    after_results_simp
    rfl, keep8 m ρ c (b := main_v37) (by decide), mu0_val m ρ c hf]
  exact Cert.Spec.row_eq _ _
theorem varr0_val (hf : Finals) : W9 m ρ c (Proc.devRef .tc main_v44) = Cert.Spec.row (Cert.Spec.var (Z0 m c)) := by
  rw [show W9 m ρ c (Proc.devRef .tc main_v44) = (fun i => shapeCast S1x128 (W8 m ρ c (Proc.devRef .tc main_v38)) shapeCasts_S128_S1x128 i) from by
    show StableHlo.after hostOps3_2 _ _ = _
    after_results_simp
    rfl, var0_val m ρ c hf]
  exact Cert.Spec.row_eq _ _
theorem gr0_val : W9 m ρ c (Proc.devRef .tc main_v45) = Cert.Spec.row (Cert.Spec.v_0 (m ((c : Thread nD τ).loc main_arg8))) := by
  rw [show W9 m ρ c (Proc.devRef .tc main_v45) = (fun i => shapeCast S1x128 (Cert.Spec.v_0 (W8 m ρ c (Proc.devRef .tc main_arg8))) shapeCasts_S128_S1x128 i) from by
    show StableHlo.after hostOps3_2 _ _ = _
    after_results_simp
    rfl, at8_arg8]
  exact Cert.Spec.row_eq _ _
theorem btr0_val : W9 m ρ c (Proc.devRef .tc main_v46) = Cert.Spec.row (Cert.Spec.v_0 (m ((c : Thread nD τ).loc main_arg9))) := by
  rw [show W9 m ρ c (Proc.devRef .tc main_v46) = (fun i => shapeCast S1x128 (Cert.Spec.v_0 (W8 m ρ c (Proc.devRef .tc main_arg9))) shapeCasts_S128_S1x128 i) from by
    show StableHlo.after hostOps3_2 _ _ = _
    after_results_simp
    rfl, at8_arg9]
  exact Cert.Spec.row_eq _ _
theorem z0_at9 (hf : Finals) : W9 m ρ c (Proc.devRef .tc main_v34) = Z0 m c :=
  ((keep9 m ρ c (b := main_v34) (by decide)).trans ((keep8 m ρ c (b := main_v34) (by decide)).trans (keep7 m ρ c (b := main_v34) (by decide)))).trans (z0_val m ρ c hf)
theorem h1_val (hf : Finals) : W10 m ρ c (Proc.devRef .tc main_v47) = H1 m c := by
  rw [show W10 m ρ c (Proc.devRef .tc main_v47) = Cert.Spec.bnK (W9 m ρ c (Proc.devRef .tc main_v34)) (W9 m ρ c (Proc.devRef .tc main_v43)) (W9 m ρ c (Proc.devRef .tc main_v44)) (W9 m ρ c (Proc.devRef .tc main_v45)) (W9 m ρ c (Proc.devRef .tc main_v46))
      from (W10_arr m ρ c 5).trans (hf.f3 (V9 m ρ) c),
    z0_at9 m ρ c hf, mur0_val m ρ c hf, varr0_val m ρ c hf, gr0_val, btr0_val, Cert.Spec.bnK_rows]
  rfl

/-! ## Layer 1 -/

theorem g1_raw : W11 m ρ c (Proc.devRef .tc main_v54) = Cert.Spec.gath (W10 m ρ c (Proc.devRef .tc main_v47)) (W10 m ρ c (Proc.devRef .tc main_v10)) := by
  show StableHlo.after hostOps4 _ _ = _
  after_results_simp
  rfl
theorem g1_val (hf : Finals) : W11 m ρ c (Proc.devRef .tc main_v54) = Cert.Spec.gath (H1 m c) (SRC m c) := by
  rw [g1_raw, h1_val m ρ c hf, src_at10]
theorem m1_val (hf : Finals) : W12 m ρ c (Proc.devRef .tc main_v55) = Cert.Spec.msg (Cert.Spec.gath (H1 m c) (SRC m c)) (E m c) := by
  rw [show W12 m ρ c (Proc.devRef .tc main_v55) = Cert.Spec.msg (W11 m ρ c (Proc.devRef .tc main_v54)) (W11 m ρ c (Proc.devRef .tc main_v8)) from (W12_arr m ρ c 2).trans (hf.f4 (V11 m ρ) c),
    g1_val m ρ c hf, e_at11]
theorem ag1_raw : W13 m ρ c (Proc.devRef .tc main_v58) = Cert.Spec.aggr (W12 m ρ c (Proc.devRef .tc main_v12)) (W12 m ρ c (Proc.devRef .tc main_v55)) := by
  show StableHlo.after hostOps5 _ _ = _
  after_results_simp
  rfl
theorem ag1_val (hf : Finals) : W13 m ρ c (Proc.devRef .tc main_v58) = Cert.Spec.aggr (DST m c) (Cert.Spec.msg (Cert.Spec.gath (H1 m c) (SRC m c)) (E m c)) := by
  rw [ag1_raw, dst_at12, m1_val m ρ c hf]
theorem w1_1_val : W13 m ρ c (Proc.devRef .tc main_v60) = Cert.Spec.w_1 (m ((c : Thread nD τ).loc main_arg4)) := by
  rw [show W13 m ρ c (Proc.devRef .tc main_v60) = Cert.Spec.w_1 (W12 m ρ c (Proc.devRef .tc main_arg4)) from by
    show StableHlo.after hostOps5 _ _ = _
    after_results_simp
    rfl, at12_arg4]
theorem w2_1_val : W13 m ρ c (Proc.devRef .tc main_v64) = Cert.Spec.w_1 (m ((c : Thread nD τ).loc main_arg6)) := by
  rw [show W13 m ρ c (Proc.devRef .tc main_v64) = Cert.Spec.w_1 (W12 m ρ c (Proc.devRef .tc main_arg6)) from by
    show StableHlo.after hostOps5 _ _ = _
    after_results_simp
    rfl, at12_arg6]
theorem b1_1_val : W13 m ρ c (Proc.devRef .tc main_v67) = Cert.Spec.row (Cert.Spec.v_1 (m ((c : Thread nD τ).loc main_arg5))) := by
  rw [show W13 m ρ c (Proc.devRef .tc main_v67) = (fun i => shapeCast S1x128 (Cert.Spec.v_1 (W12 m ρ c (Proc.devRef .tc main_arg5))) shapeCasts_S128_S1x128 i) from by
    show StableHlo.after hostOps5 _ _ = _
    after_results_simp
    rfl, at12_arg5]
  exact Cert.Spec.row_eq _ _
theorem b2_1_val : W13 m ρ c (Proc.devRef .tc main_v68) = Cert.Spec.row (Cert.Spec.v_1 (m ((c : Thread nD τ).loc main_arg7))) := by
  rw [show W13 m ρ c (Proc.devRef .tc main_v68) = (fun i => shapeCast S1x128 (Cert.Spec.v_1 (W12 m ρ c (Proc.devRef .tc main_arg7))) shapeCasts_S128_S1x128 i) from by
    show StableHlo.after hostOps5 _ _ = _
    after_results_simp
    rfl, at12_arg7]
  exact Cert.Spec.row_eq _ _
theorem hin1_at13 (hf : Finals) : W13 m ρ c (Proc.devRef .tc main_v47) = H1 m c :=
  ((keep13 m ρ c (b := main_v47) (by decide)).trans ((keep12 m ρ c (b := main_v47) (by decide)).trans (keep11 m ρ c (b := main_v47) (by decide)))).trans (h1_val m ρ c hf)
theorem z1_val (hf : Finals) : W14 m ρ c (Proc.devRef .tc main_v69) = Z1 m c := by
  rw [show W14 m ρ c (Proc.devRef .tc main_v69) = Cert.Spec.mlpK (W13 m ρ c (Proc.devRef .tc main_v47)) (W13 m ρ c (Proc.devRef .tc main_v58)) (W13 m ρ c (Proc.devRef .tc main_v60)) (W13 m ρ c (Proc.devRef .tc main_v67)) (W13 m ρ c (Proc.devRef .tc main_v64)) (W13 m ρ c (Proc.devRef .tc main_v68))
      from (W14_arr m ρ c 6).trans (hf.f5 (V13 m ρ) c),
    hin1_at13 m ρ c hf, ag1_val m ρ c hf, w1_1_val, b1_1_val, w2_1_val, b2_1_val]
  rfl
theorem mu1_val (hf : Finals) : W15 m ρ c (Proc.devRef .tc main_v72) = Cert.Spec.mean (Z1 m c) := by
  rw [show W15 m ρ c (Proc.devRef .tc main_v72) = Cert.Spec.mean (W14 m ρ c (Proc.devRef .tc main_v69)) from by
    show StableHlo.after hostOps6 _ _ = _
    after_results_simp
    rfl, z1_val m ρ c hf]
theorem var1_val (hf : Finals) : W16 m ρ c (Proc.devRef .tc main_v73) = Cert.Spec.var (Z1 m c) := by
  rw [show W16 m ρ c (Proc.devRef .tc main_v73) = Cert.Spec.var (W14 m ρ c (Proc.devRef .tc main_v69)) from by
    show StableHlo.after hostOps6_1 (StableHlo.after hostOps6 _) _ = _
    after_results_simp
    rfl, z1_val m ρ c hf]
theorem mur1_val (hf : Finals) : W17 m ρ c (Proc.devRef .tc main_v78) = Cert.Spec.row (Cert.Spec.mean (Z1 m c)) := by
  rw [show W17 m ρ c (Proc.devRef .tc main_v78) = (fun i => shapeCast S1x128 (W16 m ρ c (Proc.devRef .tc main_v72)) shapeCasts_S128_S1x128 i) from by
    show StableHlo.after hostOps6_2 _ _ = _
    after_results_simp
    rfl, keep16 m ρ c (b := main_v72) (by decide), mu1_val m ρ c hf]
  exact Cert.Spec.row_eq _ _
theorem varr1_val (hf : Finals) : W17 m ρ c (Proc.devRef .tc main_v79) = Cert.Spec.row (Cert.Spec.var (Z1 m c)) := by
  rw [show W17 m ρ c (Proc.devRef .tc main_v79) = (fun i => shapeCast S1x128 (W16 m ρ c (Proc.devRef .tc main_v73)) shapeCasts_S128_S1x128 i) from by
    show StableHlo.after hostOps6_2 _ _ = _
    after_results_simp
    rfl, var1_val m ρ c hf]
  exact Cert.Spec.row_eq _ _
theorem gr1_val : W17 m ρ c (Proc.devRef .tc main_v80) = Cert.Spec.row (Cert.Spec.v_1 (m ((c : Thread nD τ).loc main_arg8))) := by
  rw [show W17 m ρ c (Proc.devRef .tc main_v80) = (fun i => shapeCast S1x128 (Cert.Spec.v_1 (W16 m ρ c (Proc.devRef .tc main_arg8))) shapeCasts_S128_S1x128 i) from by
    show StableHlo.after hostOps6_2 _ _ = _
    after_results_simp
    rfl, at16_arg8]
  exact Cert.Spec.row_eq _ _
theorem btr1_val : W17 m ρ c (Proc.devRef .tc main_v81) = Cert.Spec.row (Cert.Spec.v_1 (m ((c : Thread nD τ).loc main_arg9))) := by
  rw [show W17 m ρ c (Proc.devRef .tc main_v81) = (fun i => shapeCast S1x128 (Cert.Spec.v_1 (W16 m ρ c (Proc.devRef .tc main_arg9))) shapeCasts_S128_S1x128 i) from by
    show StableHlo.after hostOps6_2 _ _ = _
    after_results_simp
    rfl, at16_arg9]
  exact Cert.Spec.row_eq _ _
theorem z1_at17 (hf : Finals) : W17 m ρ c (Proc.devRef .tc main_v69) = Z1 m c :=
  ((keep17 m ρ c (b := main_v69) (by decide)).trans ((keep16 m ρ c (b := main_v69) (by decide)).trans (keep15 m ρ c (b := main_v69) (by decide)))).trans (z1_val m ρ c hf)
theorem h2_val (hf : Finals) : W18 m ρ c (Proc.devRef .tc main_v82) = H2 m c := by
  rw [show W18 m ρ c (Proc.devRef .tc main_v82) = Cert.Spec.bnK (W17 m ρ c (Proc.devRef .tc main_v69)) (W17 m ρ c (Proc.devRef .tc main_v78)) (W17 m ρ c (Proc.devRef .tc main_v79)) (W17 m ρ c (Proc.devRef .tc main_v80)) (W17 m ρ c (Proc.devRef .tc main_v81))
      from (W18_arr m ρ c 5).trans (hf.f6 (V17 m ρ) c),
    z1_at17 m ρ c hf, mur1_val m ρ c hf, varr1_val m ρ c hf, gr1_val, btr1_val, Cert.Spec.bnK_rows]
  rfl

/-! ## Layer 2 -/

theorem g2_raw : W19 m ρ c (Proc.devRef .tc main_v89) = Cert.Spec.gath (W18 m ρ c (Proc.devRef .tc main_v82)) (W18 m ρ c (Proc.devRef .tc main_v10)) := by
  show StableHlo.after hostOps7 _ _ = _
  after_results_simp
  rfl
theorem g2_val (hf : Finals) : W19 m ρ c (Proc.devRef .tc main_v89) = Cert.Spec.gath (H2 m c) (SRC m c) := by
  rw [g2_raw, h2_val m ρ c hf, src_at18]
theorem m2_val (hf : Finals) : W20 m ρ c (Proc.devRef .tc main_v90) = Cert.Spec.msg (Cert.Spec.gath (H2 m c) (SRC m c)) (E m c) := by
  rw [show W20 m ρ c (Proc.devRef .tc main_v90) = Cert.Spec.msg (W19 m ρ c (Proc.devRef .tc main_v89)) (W19 m ρ c (Proc.devRef .tc main_v8)) from (W20_arr m ρ c 2).trans (hf.f7 (V19 m ρ) c),
    g2_val m ρ c hf, e_at19]
theorem ag2_raw : W21 m ρ c (Proc.devRef .tc main_v93) = Cert.Spec.aggr (W20 m ρ c (Proc.devRef .tc main_v12)) (W20 m ρ c (Proc.devRef .tc main_v90)) := by
  show StableHlo.after hostOps8 _ _ = _
  after_results_simp
  rfl
theorem ag2_val (hf : Finals) : W21 m ρ c (Proc.devRef .tc main_v93) = Cert.Spec.aggr (DST m c) (Cert.Spec.msg (Cert.Spec.gath (H2 m c) (SRC m c)) (E m c)) := by
  rw [ag2_raw, dst_at20, m2_val m ρ c hf]
theorem w1_2_val : W21 m ρ c (Proc.devRef .tc main_v95) = Cert.Spec.w_2 (m ((c : Thread nD τ).loc main_arg4)) := by
  rw [show W21 m ρ c (Proc.devRef .tc main_v95) = Cert.Spec.w_2 (W20 m ρ c (Proc.devRef .tc main_arg4)) from by
    show StableHlo.after hostOps8 _ _ = _
    after_results_simp
    rfl, at20_arg4]
theorem w2_2_val : W21 m ρ c (Proc.devRef .tc main_v99) = Cert.Spec.w_2 (m ((c : Thread nD τ).loc main_arg6)) := by
  rw [show W21 m ρ c (Proc.devRef .tc main_v99) = Cert.Spec.w_2 (W20 m ρ c (Proc.devRef .tc main_arg6)) from by
    show StableHlo.after hostOps8 _ _ = _
    after_results_simp
    rfl, at20_arg6]
theorem b1_2_val : W21 m ρ c (Proc.devRef .tc main_v102) = Cert.Spec.row (Cert.Spec.v_2 (m ((c : Thread nD τ).loc main_arg5))) := by
  rw [show W21 m ρ c (Proc.devRef .tc main_v102) = (fun i => shapeCast S1x128 (Cert.Spec.v_2 (W20 m ρ c (Proc.devRef .tc main_arg5))) shapeCasts_S128_S1x128 i) from by
    show StableHlo.after hostOps8 _ _ = _
    after_results_simp
    rfl, at20_arg5]
  exact Cert.Spec.row_eq _ _
theorem b2_2_val : W21 m ρ c (Proc.devRef .tc main_v103) = Cert.Spec.row (Cert.Spec.v_2 (m ((c : Thread nD τ).loc main_arg7))) := by
  rw [show W21 m ρ c (Proc.devRef .tc main_v103) = (fun i => shapeCast S1x128 (Cert.Spec.v_2 (W20 m ρ c (Proc.devRef .tc main_arg7))) shapeCasts_S128_S1x128 i) from by
    show StableHlo.after hostOps8 _ _ = _
    after_results_simp
    rfl, at20_arg7]
  exact Cert.Spec.row_eq _ _
theorem hin2_at21 (hf : Finals) : W21 m ρ c (Proc.devRef .tc main_v82) = H2 m c :=
  ((keep21 m ρ c (b := main_v82) (by decide)).trans ((keep20 m ρ c (b := main_v82) (by decide)).trans (keep19 m ρ c (b := main_v82) (by decide)))).trans (h2_val m ρ c hf)
theorem z2_val (hf : Finals) : W22 m ρ c (Proc.devRef .tc main_v104) = Z2 m c := by
  rw [show W22 m ρ c (Proc.devRef .tc main_v104) = Cert.Spec.mlpK (W21 m ρ c (Proc.devRef .tc main_v82)) (W21 m ρ c (Proc.devRef .tc main_v93)) (W21 m ρ c (Proc.devRef .tc main_v95)) (W21 m ρ c (Proc.devRef .tc main_v102)) (W21 m ρ c (Proc.devRef .tc main_v99)) (W21 m ρ c (Proc.devRef .tc main_v103))
      from (W22_arr m ρ c 6).trans (hf.f8 (V21 m ρ) c),
    hin2_at21 m ρ c hf, ag2_val m ρ c hf, w1_2_val, b1_2_val, w2_2_val, b2_2_val]
  rfl
theorem mu2_val (hf : Finals) : W23 m ρ c (Proc.devRef .tc main_v107) = Cert.Spec.mean (Z2 m c) := by
  rw [show W23 m ρ c (Proc.devRef .tc main_v107) = Cert.Spec.mean (W22 m ρ c (Proc.devRef .tc main_v104)) from by
    show StableHlo.after hostOps9 _ _ = _
    after_results_simp
    rfl, z2_val m ρ c hf]
theorem var2_val (hf : Finals) : W24 m ρ c (Proc.devRef .tc main_v108) = Cert.Spec.var (Z2 m c) := by
  rw [show W24 m ρ c (Proc.devRef .tc main_v108) = Cert.Spec.var (W22 m ρ c (Proc.devRef .tc main_v104)) from by
    show StableHlo.after hostOps9_1 (StableHlo.after hostOps9 _) _ = _
    after_results_simp
    rfl, z2_val m ρ c hf]
theorem mur2_val (hf : Finals) : W25 m ρ c (Proc.devRef .tc main_v113) = Cert.Spec.row (Cert.Spec.mean (Z2 m c)) := by
  rw [show W25 m ρ c (Proc.devRef .tc main_v113) = (fun i => shapeCast S1x128 (W24 m ρ c (Proc.devRef .tc main_v107)) shapeCasts_S128_S1x128 i) from by
    show StableHlo.after hostOps9_2 _ _ = _
    after_results_simp
    rfl, keep24 m ρ c (b := main_v107) (by decide), mu2_val m ρ c hf]
  exact Cert.Spec.row_eq _ _
theorem varr2_val (hf : Finals) : W25 m ρ c (Proc.devRef .tc main_v114) = Cert.Spec.row (Cert.Spec.var (Z2 m c)) := by
  rw [show W25 m ρ c (Proc.devRef .tc main_v114) = (fun i => shapeCast S1x128 (W24 m ρ c (Proc.devRef .tc main_v108)) shapeCasts_S128_S1x128 i) from by
    show StableHlo.after hostOps9_2 _ _ = _
    after_results_simp
    rfl, var2_val m ρ c hf]
  exact Cert.Spec.row_eq _ _
theorem gr2_val : W25 m ρ c (Proc.devRef .tc main_v115) = Cert.Spec.row (Cert.Spec.v_2 (m ((c : Thread nD τ).loc main_arg8))) := by
  rw [show W25 m ρ c (Proc.devRef .tc main_v115) = (fun i => shapeCast S1x128 (Cert.Spec.v_2 (W24 m ρ c (Proc.devRef .tc main_arg8))) shapeCasts_S128_S1x128 i) from by
    show StableHlo.after hostOps9_2 _ _ = _
    after_results_simp
    rfl, at24_arg8]
  exact Cert.Spec.row_eq _ _
theorem btr2_val : W25 m ρ c (Proc.devRef .tc main_v116) = Cert.Spec.row (Cert.Spec.v_2 (m ((c : Thread nD τ).loc main_arg9))) := by
  rw [show W25 m ρ c (Proc.devRef .tc main_v116) = (fun i => shapeCast S1x128 (Cert.Spec.v_2 (W24 m ρ c (Proc.devRef .tc main_arg9))) shapeCasts_S128_S1x128 i) from by
    show StableHlo.after hostOps9_2 _ _ = _
    after_results_simp
    rfl, at24_arg9]
  exact Cert.Spec.row_eq _ _
theorem z2_at25 (hf : Finals) : W25 m ρ c (Proc.devRef .tc main_v104) = Z2 m c :=
  ((keep25 m ρ c (b := main_v104) (by decide)).trans ((keep24 m ρ c (b := main_v104) (by decide)).trans (keep23 m ρ c (b := main_v104) (by decide)))).trans (z2_val m ρ c hf)
theorem h3_val (hf : Finals) : W26 m ρ c (Proc.devRef .tc main_v117) = H3 m c := by
  rw [show W26 m ρ c (Proc.devRef .tc main_v117) = Cert.Spec.bnK (W25 m ρ c (Proc.devRef .tc main_v104)) (W25 m ρ c (Proc.devRef .tc main_v113)) (W25 m ρ c (Proc.devRef .tc main_v114)) (W25 m ρ c (Proc.devRef .tc main_v115)) (W25 m ρ c (Proc.devRef .tc main_v116))
      from (W26_arr m ρ c 5).trans (hf.f9 (V25 m ρ) c),
    z2_at25 m ρ c hf, mur2_val m ρ c hf, varr2_val m ρ c hf, gr2_val, btr2_val, Cert.Spec.bnK_rows]
  rfl

/-! ## The pooling, and the whole -/

theorem out_raw : W27 m ρ c (Proc.devRef .tc main_v129) = Cert.Spec.pool (W26 m ρ c (Proc.devRef .tc main_v117)) (W26 m ρ c (Proc.devRef .tc main_arg12)) := by
  show StableHlo.after hostOps10 _ _ = _
  after_results_simp
  rfl

/-- The kernel program's result array is the specification's function of the launch memory's argument arrays. -/
theorem result_val (hf : Finals) : W27 m ρ c (Proc.devRef .tc main_v129)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [out_raw, h3_val m ρ c hf, at26_arg12]
  rfl

end Cert.KernelIdeal.Chain

end
-- ==== Proof.RegionSpec.lean ====
/-
  Each kernel region's result as ONE function of whole arrays, read index by index.

  A region walks its output array block by block: at every grid point it loads a block of rows of each
  row-indexed operand (and the whole of each small operand), computes, and writes back the same block of
  rows of the output. The functions below say what the finished output array holds at an index (r, c),
  in terms of the operand arrays as the region found them.
    msgG   max (a(r,c) + b(r,c)) 0
    linG   Σ_k x(r,k) · w(k,c) + b(0,c)                 a matrix product plus a row added to every row
    encG   linG at contraction width 32
    mlpG   max (linG (max (linG (h + ag) w₁ b₁) 0) w₂ b₂) 0
    bnG    (γ(0,c) · (z(r,c) − μ(0,c))) · (σ²(0,c) + ε)^(-1/2) + β(0,c)
  and, for the two matrix products, a plain M×K by K×N contraction read at an index as a sum over `Fin K`.
-/
import proofs.«155398_j16690242912867_1_alg».proof.Proof.Gen.KernelIdeal
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx Cert.KernelIdeal

/-- The offsets `![0, 0]` of a whole-block access are the zero offsets. -/
theorem hz : (![0, 0] : Fin 2 → Nat) = fun _ => 0 := funext fun a => by fin_cases a <;> rfl

/-! ## A plain matrix product read at an index -/

section Dot
variable {m k n : Nat} {φ₁ φ₂ : FTy}

/-- With dimension numbers "contract axis 1 of the left with axis 0 of the right", the left operand's index at
    output (a, b) and contraction coordinate c is (a, c). -/
theorem plain_lhsIdx (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- … and the right operand's is (c, b). -/
theorem plain_rhsIdx (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The kernel's matrix product into a zero accumulator, at (a, b): the sum over the contracted coordinate. -/
theorem matmul_zero_plain_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b) = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [plain_lhsIdx, plain_rhsIdx]

/-- The host's matrix product at (a, b): the same sum. -/
theorem dotGeneral_plain_apply' (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [plain_lhsIdx, plain_rhsIdx]

end Dot

/-! ## The regions' results -/

/-- An edge message: the gathered node row plus the edge embedding, clamped below at zero. -/
def msgG (a b : FVec Ideal S640000x128 .f32) : FVec Ideal S640000x128 .f32 :=
  fun i => max (a i + b i) (Ideal.ofBits .f32 0x00000000#32)

/-- The node encoder: the 32 input features of a node times the weight matrix, plus the bias row. -/
def encG (x : FVec Ideal S40000x32 .f32) (wx : FVec Ideal S32x128 .f32) (b2 : FVec Ideal S1x128 .f32) : FVec Ideal S40000x128 .f32 :=
  fun i => (∑ c : Fin 32, x (ix2 (i 0 : Fin 40000) c) * wx (ix2 c (i 1 : Fin 128))) + b2 (ix2 (0 : Fin 1) (i 1 : Fin 128))

/-- A 128-wide linear layer: each node row times the weight matrix, plus the bias row. -/
def linG (x : FVec Ideal S40000x128 .f32) (w : FVec Ideal S128x128 .f32) (b : FVec Ideal S1x128 .f32) : FVec Ideal S40000x128 .f32 :=
  fun i => (∑ c : Fin 128, x (ix2 (i 0 : Fin 40000) c) * w (ix2 c (i 1 : Fin 128))) + b (ix2 (0 : Fin 1) (i 1 : Fin 128))

/-- Clamping below at zero, entry by entry. -/
def reluG (x : FVec Ideal S40000x128 .f32) : FVec Ideal S40000x128 .f32 :=
  fun i => max (x i) (Ideal.ofBits .f32 0x00000000#32)

/-- The two-layer perceptron on a node's own row plus its aggregated messages. -/
def mlpG (h ag : FVec Ideal S40000x128 .f32) (w1 : FVec Ideal S128x128 .f32) (b1 : FVec Ideal S1x128 .f32)
    (w2 : FVec Ideal S128x128 .f32) (b2 : FVec Ideal S1x128 .f32) : FVec Ideal S40000x128 .f32 :=
  reluG (linG (reluG (linG (fun i => h i + ag i) w1 b1)) w2 b2)

/-- Batch normalisation from the column statistics given as rows: the reciprocal root is of the variance row plus ε. -/
def bnG (z : FVec Ideal S40000x128 .f32) (mu va g bt : FVec Ideal S1x128 .f32) : FVec Ideal S40000x128 .f32 :=
  fun i => (g (ix2 (0 : Fin 1) (i 1 : Fin 128)) * (z i - mu (ix2 (0 : Fin 1) (i 1 : Fin 128))))
      * Ideal.rsqrt (va (ix2 (0 : Fin 1) (i 1 : Fin 128)) + Ideal.ofBits .f32 0x3727C5AC#32) + bt (ix2 (0 : Fin 1) (i 1 : Fin 128))

end Cert.KernelIdeal.RegionValue

end
-- ==== Proof.RegionEnc.lean ====
/-
  The encoder region. Every grid point loads rows 4000·t … 4000·t + 3999 of the node features, the whole weight
  matrix and the whole bias row, multiplies (into a zero accumulator), adds the bias row to every row and writes the
  same rows of the output; the 10 points' blocks tile the 40000 rows, so the finished output is `encG`.
-/
import proofs.«155398_j16690242912867_1_alg».proof.Proof.Gen.KernelIdeal.Frame
import proofs.«155398_j16690242912867_1_alg».proof.Proof.RegionSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 0 -/

/-- The body's arithmetic at an entry (p, q) of the block: the block's row p against column q of the weights, plus
    the bias row's entry q (a change of float format is the identity on the extended reals). -/
theorem pay0_apply (x : Vec Ideal S4000x32 .f32) (w : Vec Ideal S32x128 .f32) (b : Vec Ideal S1x128 .f32) (p : Fin 4000) (q : Fin 128) :
    k0_pay1 x w b (ix2 p q) = (∑ c : Fin 32, x (ix2 p c) * w (ix2 c q)) + b (ix2 (0 : Fin 1) q) := by
  unfold k0_pay1
  simp only [shapeCast_self]
  rw [addf_apply, broadcastTo_1b_ab_apply]
  exact congrArg (· + b (ix2 (0 : Fin 1) q)) (matmul_zero_plain_apply _ none _ _ p q)

/-- One entry of the block the body stores, from the operand arrays: the block's row at the matching array row,
    the weights and the bias row whole. -/
theorem enc_point (X : FVec Ideal S40000x32 .f32) (WX : FVec Ideal S32x128 .f32) (B2 : FVec Ideal S1x128 .f32)
    (x : Vec Ideal S4000x32 .f32) (w : Vec Ideal S32x128 .f32) (b : Vec Ideal S1x128 .f32)
    (j : S4000x128.Idx) (i : S40000x128.Idx)
    (hx : ∀ c : Fin 32, x (ix2 (j 0 : Fin 4000) c) = X (ix2 (i 0 : Fin 40000) c)) (hq : (i 1 : Fin 128) = (j 1 : Fin 128))
    (hw : w = WX) (hb : b = B2) : k0_pay1 x w b j = encG X WX B2 i := by
  obtain ⟨p, q, rfl⟩ : ∃ (p : Fin 4000) (q : Fin 128), j = ix2 p q := ⟨j 0, j 1, eq_ix2 j⟩
  have hq' : (i 1 : Fin 128) = q := hq
  have hx' : ∀ c : Fin 32, x (ix2 p c) = X (ix2 (i 0 : Fin 40000) c) := hx
  rw [pay0_apply, hw, hb]
  unfold encG
  rw [hq']
  exact congrArg (· + B2 (ix2 (0 : Fin 1) q)) (Finset.sum_congr rfl fun c _ => by rw [hx' c])

/-- The block index at point `t` is (t, 0) for the rows window and the output, (0, 0) for the weights and the bias row. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights window's block at any point is its whole array. -/
theorem whole0_1 (c : Dev nD) (t : Fin cfg0.N) : (iblk0 V c 1 t : Vec Ideal S32x128 .f32) = V c (Pipeline.arrRef spec0 1) := by
  obtain ⟨e0, e1, e2, e3, e4, e5, e6, e7⟩ := idx_facts0 t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The bias row window's block at any point is its whole one-row array. -/
theorem whole0_2 (c : Dev nD) (t : Fin cfg0.N) : (iblk0 V c 2 t : Vec Ideal S1x128 .f32) = V c (Pipeline.arrRef spec0 2) := by
  obtain ⟨e0, e1, e2, e3, e4, e5, e6, e7⟩ := idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

set_option maxHeartbeats 1000000 in
/-- What point `t` writes back is block `t` of `encG` of the operand arrays. -/
theorem flushed0_eq (c : Dev nD) (t : Fin cfg0.N) :
    (dat0 V c).flushed 3 t = ((cfg0.win 3).blk t).view.read (Elt Ideal)
      (encG (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S4000x32) hz, View.ld_unit_zero (S := S32x128) hz, View.ld_unit_zero (S := S1x128) hz]
  obtain ⟨e0, e1, e2, e3, e4, e5, e6, e7⟩ := idx_facts0 t
  funext j
  show k0_pay1 (iblk0 V c 0 t) (iblk0 V c 1 t) (iblk0 V c 2 t) j
    = encG (V c (Pipeline.arrRef spec0 0)) (V c (Pipeline.arrRef spec0 1)) (V c (Pipeline.arrRef spec0 2)) (((cfg0.win 3).blk t).view.emb j)
  refine enc_point _ _ _ (iblk0 V c 0 t) (iblk0 V c 1 t) (iblk0 V c 2 t) j _ (fun cc => ?_) ?_ (whole0_1 V c t) (whole0_2 V c t)
  · show V c (Pipeline.arrRef spec0 0) (((cfg0.win 0).blk t).view.emb (ix2 (j 0 : Fin 4000) cc))
      = V c (Pipeline.arrRef spec0 0) (ix2 ((((cfg0.win 3).blk t).view.emb j) 0 : Fin 40000) cc)
    refine congrArg _ (funext fun a => Fin.ext ?_)
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 32 + 1 * cc.val = cc.val; omega
  · refine Fin.ext ?_
    show win0_3.index t (1 : Fin 2) * 128 + 1 * (j 1).val = (j 1).val
    omega

/-- An index of the output array is in point `t`'s block iff each coordinate is in the block's range on its axis. -/
theorem mem_blk0 (t : Fin cfg0.N) (i : S40000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1).slice (win0_3.rect t)).set ↔ _
  rw [View.set_slice_whole, Rect.mem_set_unit]
  exact Iff.rfl

/-- Every row of the output lies in the block of the point numbered by the row's quotient by 4000. -/
theorem cover0 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 10 := N_0
  let t : Fin cfg0.N := ⟨(i 0).val / 4000, by rw [hN]; omega⟩
  obtain ⟨e0, e1, e2, e3, e4, e5, e6, e7⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the region: `encG` of the operand arrays as the region found them. -/
theorem final0 (c : Dev nD) :
    (dat0 V c).arrAt 3 cfg0.N = encG (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.RegionValue

end
-- ==== Proof.RegionMsg.lean ====
/-
  The message regions (one per layer). Every grid point loads rows 8000·t … 8000·t + 7999 of the two edge arrays
  (gathered node rows and edge embeddings), adds them, clamps at zero and writes the same rows of the output; the
  80 points' blocks tile the 640000 rows, so the finished output is `msgG` of the two arrays.
-/
import proofs.«155398_j16690242912867_1_alg».proof.Proof.Gen.KernelIdeal.Frame
import proofs.«155398_j16690242912867_1_alg».proof.Proof.RegionSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 1 -/

/-- The body's arithmetic at an index of the block. -/
theorem pay1_apply (x0 x1 : Vec Ideal S8000x128 .f32) (j : S8000x128.Idx) :
    k1_pay1 x0 x1 j = max (x0 j + x1 j) (Ideal.ofBits .f32 0x00000000#32) := by
  unfold k1_pay1
  simp only [shapeCast_self]
  rfl

/-- One entry of the block the body stores, from the operand arrays' entries at the matching array index. -/
theorem msg_point1 (A B : FVec Ideal S640000x128 .f32) (x0 x1 : Vec Ideal S8000x128 .f32) (j : S8000x128.Idx) (i : S640000x128.Idx)
    (h0 : x0 j = A i) (h1 : x1 j = B i) : k1_pay1 x0 x1 j = msgG A B i := by
  rw [pay1_apply, h0, h1]; rfl

/-- The three windows' block index at point `t` is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `msgG` of the two operand arrays. -/
theorem flushed1_eq (c : Dev nD) (t : Fin cfg1.N) :
    (dat1 V c).flushed 2 t = ((cfg1.win 2).blk t).view.read (Elt Ideal) (msgG (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S8000x128) hz]
  obtain ⟨e0, e1, e2, e3, e4, e5⟩ := idx_facts1 t
  funext j
  show k1_pay1 (iblk1 V c 0 t) (iblk1 V c 1 t) j
    = msgG (V c (Pipeline.arrRef spec1 0)) (V c (Pipeline.arrRef spec1 1)) (((cfg1.win 2).blk t).view.emb j)
  refine msg_point1 _ _ (iblk1 V c 0 t) (iblk1 V c 1 t) j _ ?_ ?_
  · show V c (Pipeline.arrRef spec1 0) (((cfg1.win 0).blk t).view.emb j) = V c (Pipeline.arrRef spec1 0) (((cfg1.win 2).blk t).view.emb j)
    refine congrArg _ (funext fun a => Fin.ext ?_)
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  · show V c (Pipeline.arrRef spec1 1) (((cfg1.win 1).blk t).view.emb j) = V c (Pipeline.arrRef spec1 1) (((cfg1.win 2).blk t).view.emb j)
    refine congrArg _ (funext fun a => Fin.ext ?_)
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_blk1 (t : Fin cfg1.N) (i : S640000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v20).slice (win1_2.rect t)).set ↔ _
  rw [View.set_slice_whole, Rect.mem_set_unit]
  exact Iff.rfl

/-- Every row of the output lies in the block of the point numbered by the row's quotient by 8000. -/
theorem cover1 (i : S640000x128.Idx) : ∃ t : Fin cfg1.N, (cfg1.win 2).flush t = true ∧ i ∈ ((cfg1.win 2).blk t).view.set := by
  have hi0 : (i 0).val < 640000 := (i 0).isLt
  have hi1 : (i 1).val < 128 := (i 1).isLt
  have hN : cfg1.N = 80 := N_1
  let t : Fin cfg1.N := ⟨(i 0).val / 8000, by rw [hN]; omega⟩
  obtain ⟨e0, e1, e2, e3, e4, e5⟩ := idx_facts1 t
  have ht : t.val = (i 0).val / 8000 := rfl
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- The output array after the region: `msgG` of the two operand arrays as the region found them. -/
theorem final1 (c : Dev nD) :
    (dat1 V c).arrAt 2 cfg1.N = msgG (V c (Pipeline.arrRef spec1 0)) (V c (Pipeline.arrRef spec1 1)) :=
  (dat1 V c).arrAt_eq_of_cover 2 _ (fun t _ => flushed1_eq V c t) cover1

/-! ## Region 4 -/

/-- The body's arithmetic at an index of the block. -/
theorem pay4_apply (x0 x1 : Vec Ideal S8000x128 .f32) (j : S8000x128.Idx) :
    k4_pay1 x0 x1 j = max (x0 j + x1 j) (Ideal.ofBits .f32 0x00000000#32) := by
  unfold k4_pay1
  simp only [shapeCast_self]
  rfl

/-- One entry of the block the body stores, from the operand arrays' entries at the matching array index. -/
theorem msg_point4 (A B : FVec Ideal S640000x128 .f32) (x0 x1 : Vec Ideal S8000x128 .f32) (j : S8000x128.Idx) (i : S640000x128.Idx)
    (h0 : x0 j = A i) (h1 : x1 j = B i) : k4_pay1 x0 x1 j = msgG A B i := by
  rw [pay4_apply, h0, h1]; rfl

/-- The three windows' block index at point `t` is (t, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `msgG` of the two operand arrays. -/
theorem flushed4_eq (c : Dev nD) (t : Fin cfg4.N) :
    (dat4 V c).flushed 2 t = ((cfg4.win 2).blk t).view.read (Elt Ideal) (msgG (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S8000x128) hz]
  obtain ⟨e0, e1, e2, e3, e4, e5⟩ := idx_facts4 t
  funext j
  show k4_pay1 (iblk4 V c 0 t) (iblk4 V c 1 t) j
    = msgG (V c (Pipeline.arrRef spec4 0)) (V c (Pipeline.arrRef spec4 1)) (((cfg4.win 2).blk t).view.emb j)
  refine msg_point4 _ _ (iblk4 V c 0 t) (iblk4 V c 1 t) j _ ?_ ?_
  · show V c (Pipeline.arrRef spec4 0) (((cfg4.win 0).blk t).view.emb j) = V c (Pipeline.arrRef spec4 0) (((cfg4.win 2).blk t).view.emb j)
    refine congrArg _ (funext fun a => Fin.ext ?_)
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  · show V c (Pipeline.arrRef spec4 1) (((cfg4.win 1).blk t).view.emb j) = V c (Pipeline.arrRef spec4 1) (((cfg4.win 2).blk t).view.emb j)
    refine congrArg _ (funext fun a => Fin.ext ?_)
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 128 + 1 * (j 1).val = win4_2.index t (1 : Fin 2) * 128 + 1 * (j 1).val; omega

/-- An index of the output array is in point `t`'s block iff each coordinate is in the block's range on its axis. -/
theorem mem_blk4 (t : Fin cfg4.N) (i : S640000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v55).slice (win4_2.rect t)).set ↔ _
  rw [View.set_slice_whole, Rect.mem_set_unit]
  exact Iff.rfl

/-- Every row of the output lies in the block of the point numbered by the row's quotient by 8000. -/
theorem cover4 (i : S640000x128.Idx) : ∃ t : Fin cfg4.N, (cfg4.win 2).flush t = true ∧ i ∈ ((cfg4.win 2).blk t).view.set := by
  have hi0 : (i 0).val < 640000 := (i 0).isLt
  have hi1 : (i 1).val < 128 := (i 1).isLt
  have hN : cfg4.N = 80 := N_4
  let t : Fin cfg4.N := ⟨(i 0).val / 8000, by rw [hN]; omega⟩
  obtain ⟨e0, e1, e2, e3, e4, e5⟩ := idx_facts4 t
  have ht : t.val = (i 0).val / 8000 := rfl
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- The output array after the region: `msgG` of the two operand arrays as the region found them. -/
theorem final4 (c : Dev nD) :
    (dat4 V c).arrAt 2 cfg4.N = msgG (V c (Pipeline.arrRef spec4 0)) (V c (Pipeline.arrRef spec4 1)) :=
  (dat4 V c).arrAt_eq_of_cover 2 _ (fun t _ => flushed4_eq V c t) cover4

/-! ## Region 7 -/

/-- The body's arithmetic at an index of the block. -/
theorem pay7_apply (x0 x1 : Vec Ideal S8000x128 .f32) (j : S8000x128.Idx) :
    k7_pay1 x0 x1 j = max (x0 j + x1 j) (Ideal.ofBits .f32 0x00000000#32) := by
  unfold k7_pay1
  simp only [shapeCast_self]
  rfl

/-- One entry of the block the body stores, from the operand arrays' entries at the matching array index. -/
theorem msg_point7 (A B : FVec Ideal S640000x128 .f32) (x0 x1 : Vec Ideal S8000x128 .f32) (j : S8000x128.Idx) (i : S640000x128.Idx)
    (h0 : x0 j = A i) (h1 : x1 j = B i) : k7_pay1 x0 x1 j = msgG A B i := by
  rw [pay7_apply, h0, h1]; rfl

/-- The three windows' block index at point `t` is (t, 0). -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `msgG` of the two operand arrays. -/
theorem flushed7_eq (c : Dev nD) (t : Fin cfg7.N) :
    (dat7 V c).flushed 2 t = ((cfg7.win 2).blk t).view.read (Elt Ideal) (msgG (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S8000x128) hz]
  obtain ⟨e0, e1, e2, e3, e4, e5⟩ := idx_facts7 t
  funext j
  show k7_pay1 (iblk7 V c 0 t) (iblk7 V c 1 t) j
    = msgG (V c (Pipeline.arrRef spec7 0)) (V c (Pipeline.arrRef spec7 1)) (((cfg7.win 2).blk t).view.emb j)
  refine msg_point7 _ _ (iblk7 V c 0 t) (iblk7 V c 1 t) j _ ?_ ?_
  · show V c (Pipeline.arrRef spec7 0) (((cfg7.win 0).blk t).view.emb j) = V c (Pipeline.arrRef spec7 0) (((cfg7.win 2).blk t).view.emb j)
    refine congrArg _ (funext fun a => Fin.ext ?_)
    match a with
    | ⟨0, _⟩ => show win7_0.index t (0 : Fin 2) * 8000 + 1 * (j 0).val = win7_2.index t (0 : Fin 2) * 8000 + 1 * (j 0).val; omega
    | ⟨1, _⟩ => show win7_0.index t (1 : Fin 2) * 128 + 1 * (j 1).val = win7_2.index t (1 : Fin 2) * 128 + 1 * (j 1).val; omega
  · show V c (Pipeline.arrRef spec7 1) (((cfg7.win 1).blk t).view.emb j) = V c (Pipeline.arrRef spec7 1) (((cfg7.win 2).blk t).view.emb j)
    refine congrArg _ (funext fun a => Fin.ext ?_)
    match a with
    | ⟨0, _⟩ => show win7_1.index t (0 : Fin 2) * 8000 + 1 * (j 0).val = win7_2.index t (0 : Fin 2) * 8000 + 1 * (j 0).val; omega
    | ⟨1, _⟩ => show win7_1.index t (1 : Fin 2) * 128 + 1 * (j 1).val = win7_2.index t (1 : Fin 2) * 128 + 1 * (j 1).val; omega

/-- An index of the output array is in point `t`'s block iff each coordinate is in the block's range on its axis. -/
theorem mem_blk7 (t : Fin cfg7.N) (i : S640000x128.Idx) :
    i ∈ ((cfg7.win 2).blk t).view.set ↔ ∀ a : Fin 2, win7_2.index t a * S8000x128.size a ≤ (i a).val ∧ (i a).val < win7_2.index t a * S8000x128.size a + S8000x128.size a := by
  show i ∈ ((View.whole main_v90).slice (win7_2.rect t)).set ↔ _
  rw [View.set_slice_whole, Rect.mem_set_unit]
  exact Iff.rfl

/-- Every row of the output lies in the block of the point numbered by the row's quotient by 8000. -/
theorem cover7 (i : S640000x128.Idx) : ∃ t : Fin cfg7.N, (cfg7.win 2).flush t = true ∧ i ∈ ((cfg7.win 2).blk t).view.set := by
  have hi0 : (i 0).val < 640000 := (i 0).isLt
  have hi1 : (i 1).val < 128 := (i 1).isLt
  have hN : cfg7.N = 80 := N_7
  let t : Fin cfg7.N := ⟨(i 0).val / 8000, by rw [hN]; omega⟩
  obtain ⟨e0, e1, e2, e3, e4, e5⟩ := idx_facts7 t
  have ht : t.val = (i 0).val / 8000 := rfl
  refine ⟨t, flush7_2 t, ?_⟩
  rw [mem_blk7]
  intro a
  match a with
  | ⟨0, _⟩ => show win7_2.index t (0 : Fin 2) * 8000 ≤ (i 0).val ∧ (i 0).val < win7_2.index t (0 : Fin 2) * 8000 + 8000; omega
  | ⟨1, _⟩ => show win7_2.index t (1 : Fin 2) * 128 ≤ (i 1).val ∧ (i 1).val < win7_2.index t (1 : Fin 2) * 128 + 128; omega

/-- The output array after the region: `msgG` of the two operand arrays as the region found them. -/
theorem final7 (c : Dev nD) :
    (dat7 V c).arrAt 2 cfg7.N = msgG (V c (Pipeline.arrRef spec7 0)) (V c (Pipeline.arrRef spec7 1)) :=
  (dat7 V c).arrAt_eq_of_cover 2 _ (fun t _ => flushed7_eq V c t) cover7

end Cert.KernelIdeal.RegionValue

end
-- ==== Proof.RegionMlp.lean ====
/-
  The perceptron regions (one per layer). Every grid point loads rows 4000·t … 4000·t + 3999 of the node rows and of
  the aggregated messages, the two whole weight matrices and the two whole bias rows; adds the two row blocks,
  multiplies by the first matrix (into a zero accumulator), adds its bias row, clamps at zero, multiplies by the second
  matrix, adds its bias row, clamps at zero, and writes the same rows of the output; the 10 points' blocks tile the
  40000 rows, so the finished output is `mlpG` of the six arrays.
-/
import proofs.«155398_j16690242912867_1_alg».proof.Proof.Gen.KernelIdeal.Frame
import proofs.«155398_j16690242912867_1_alg».proof.Proof.RegionSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- `mlpG` at an index, written out: the second product's row is the first layer's clamped output row. -/
theorem mlpG_apply (H AG : FVec Ideal S40000x128 .f32) (W1 : FVec Ideal S128x128 .f32) (B1 : FVec Ideal S1x128 .f32)
    (W2 : FVec Ideal S128x128 .f32) (B2 : FVec Ideal S1x128 .f32) (i : S40000x128.Idx) :
    mlpG H AG W1 B1 W2 B2 i
      = max ((∑ k : Fin 128, max ((∑ c : Fin 128, (H (ix2 (i 0 : Fin 40000) c) + AG (ix2 (i 0 : Fin 40000) c)) * W1 (ix2 c k)) + B1 (ix2 (0 : Fin 1) k)) (Ideal.ofBits .f32 0x00000000#32)
            * W2 (ix2 k (i 1 : Fin 128))) + B2 (ix2 (0 : Fin 1) (i 1 : Fin 128))) (Ideal.ofBits .f32 0x00000000#32) := rfl

/-- The body's arithmetic at an entry (p, q) of the block: two matrix products into zero accumulators, each followed
    by its bias row and a clamp at zero (a change of float format is the identity on the extended reals). -/
theorem pay2_apply (xh xag : Vec Ideal S4000x128 .f32) (w1 : Vec Ideal S128x128 .f32) (b1 : Vec Ideal S1x128 .f32)
    (w2 : Vec Ideal S128x128 .f32) (b2 : Vec Ideal S1x128 .f32) (p : Fin 4000) (q : Fin 128) :
    k2_pay1 xh xag w1 b1 w2 b2 (ix2 p q)
      = max ((∑ k : Fin 128, max ((∑ c : Fin 128, (xh (ix2 p c) + xag (ix2 p c)) * w1 (ix2 c k)) + b1 (ix2 (0 : Fin 1) k)) (Ideal.ofBits .f32 0x00000000#32)
            * w2 (ix2 k q)) + b2 (ix2 (0 : Fin 1) q)) (Ideal.ofBits .f32 0x00000000#32) := by
  unfold k2_pay1
  simp only [shapeCast_self]
  rw [maximumf_apply, addf_apply, broadcastTo_1b_ab_apply, broadcast_apply]
  refine congrArg (fun s => max (s + b2 (ix2 (0 : Fin 1) q)) (Ideal.ofBits .f32 0x00000000#32)) ?_
  refine (matmul_zero_plain_apply _ none _ _ p q).trans (Finset.sum_congr rfl fun k _ => ?_)
  refine congrArg (· * w2 (ix2 k q)) ?_
  rw [truncf_apply, maximumf_apply, addf_apply, broadcastTo_1b_ab_apply, broadcast_apply]
  refine congrArg (fun s => max (s + b1 (ix2 (0 : Fin 1) k)) (Ideal.ofBits .f32 0x00000000#32)) ?_
  exact matmul_zero_plain_apply _ none _ _ p k

/-- One entry of the block the body stores, from the operand arrays: the two row blocks at the matching array row,
    the two weight matrices and the two bias rows whole. -/
theorem mlp_point2 (H AG : FVec Ideal S40000x128 .f32) (W1 : FVec Ideal S128x128 .f32) (B1 : FVec Ideal S1x128 .f32)
    (W2 : FVec Ideal S128x128 .f32) (B2 : FVec Ideal S1x128 .f32)
    (xh xag : Vec Ideal S4000x128 .f32) (w1 : Vec Ideal S128x128 .f32) (b1 : Vec Ideal S1x128 .f32)
    (w2 : Vec Ideal S128x128 .f32) (b2 : Vec Ideal S1x128 .f32) (j : S4000x128.Idx) (i : S40000x128.Idx)
    (hh : ∀ c : Fin 128, xh (ix2 (j 0 : Fin 4000) c) = H (ix2 (i 0 : Fin 40000) c))
    (hag : ∀ c : Fin 128, xag (ix2 (j 0 : Fin 4000) c) = AG (ix2 (i 0 : Fin 40000) c))
    (hq : (i 1 : Fin 128) = (j 1 : Fin 128)) (hw1 : w1 = W1) (hb1 : b1 = B1) (hw2 : w2 = W2) (hb2 : b2 = B2) :
    k2_pay1 xh xag w1 b1 w2 b2 j = mlpG H AG W1 B1 W2 B2 i := by
  obtain ⟨p, q, rfl⟩ : ∃ (p : Fin 4000) (q : Fin 128), j = ix2 p q := ⟨j 0, j 1, eq_ix2 j⟩
  have hq' : (i 1 : Fin 128) = q := hq
  have hh' : ∀ c : Fin 128, xh (ix2 p c) = H (ix2 (i 0 : Fin 40000) c) := hh
  have hag' : ∀ c : Fin 128, xag (ix2 p c) = AG (ix2 (i 0 : Fin 40000) c) := hag
  rw [pay2_apply, hw1, hb1, hw2, hb2, mlpG_apply, hq']
  simp only [hh', hag']

/-- The block index at point `t` is (t, 0) for the two row windows and the output, (0, 0) for the weights and bias rows. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 2's block at any point is its whole array. -/
theorem whole2_2 (c : Dev nD) (t : Fin cfg2.N) : (iblk2 V c 2 t : Vec Ideal S128x128 .f32) = V c (Pipeline.arrRef spec2 2) := by
  obtain ⟨e0, e1, e2, e3, e4, e5, e6, e7, e8, e9, e10, e11, e12, e13⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block at any point is its whole array. -/
theorem whole2_3 (c : Dev nD) (t : Fin cfg2.N) : (iblk2 V c 3 t : Vec Ideal S1x128 .f32) = V c (Pipeline.arrRef spec2 3) := by
  obtain ⟨e0, e1, e2, e3, e4, e5, e6, e7, e8, e9, e10, e11, e12, e13⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block at any point is its whole array. -/
theorem whole2_4 (c : Dev nD) (t : Fin cfg2.N) : (iblk2 V c 4 t : Vec Ideal S128x128 .f32) = V c (Pipeline.arrRef spec2 4) := by
  obtain ⟨e0, e1, e2, e3, e4, e5, e6, e7, e8, e9, e10, e11, e12, e13⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at any point is its whole array. -/
theorem whole2_5 (c : Dev nD) (t : Fin cfg2.N) : (iblk2 V c 5 t : Vec Ideal S1x128 .f32) = V c (Pipeline.arrRef spec2 5) := by
  obtain ⟨e0, e1, e2, e3, e4, e5, e6, e7, e8, e9, e10, e11, e12, e13⟩ := idx_facts2 t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

set_option maxHeartbeats 1000000 in
/-- What point `t` writes back is block `t` of `mlpG` of the operand arrays. -/
theorem flushed2_eq (c : Dev nD) (t : Fin cfg2.N) :
    (dat2 V c).flushed 6 t = ((cfg2.win 6).blk t).view.read (Elt Ideal)
      (mlpG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts2 t
  funext j
  show k2_pay1 (iblk2 V c 0 t) (iblk2 V c 1 t) (iblk2 V c 2 t) (iblk2 V c 3 t) (iblk2 V c 4 t) (iblk2 V c 5 t) j
    = mlpG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb j)
  refine mlp_point2 _ _ _ _ _ _ (iblk2 V c 0 t) (iblk2 V c 1 t) (iblk2 V c 2 t) (iblk2 V c 3 t) (iblk2 V c 4 t) (iblk2 V c 5 t) j _
    (fun cc => ?_) (fun cc => ?_) ?_ (whole2_2 V c t) (whole2_3 V c t) (whole2_4 V c t) (whole2_5 V c t)
  · show V c (Pipeline.arrRef spec2 0) (((cfg2.win 0).blk t).view.emb (ix2 (j 0 : Fin 4000) cc))
      = V c (Pipeline.arrRef spec2 0) (ix2 ((((cfg2.win 6).blk t).view.emb j) 0 : Fin 40000) cc)
    refine congrArg _ (funext fun a => Fin.ext ?_)
    match a with
    | ⟨0, _⟩ => show win2_0.index t (0 : Fin 2) * 4000 + 1 * (j 0).val = win2_6.index t (0 : Fin 2) * 4000 + 1 * (j 0).val; omega
    | ⟨1, _⟩ => show win2_0.index t (1 : Fin 2) * 128 + 1 * cc.val = cc.val; omega
  · show V c (Pipeline.arrRef spec2 1) (((cfg2.win 1).blk t).view.emb (ix2 (j 0 : Fin 4000) cc))
      = V c (Pipeline.arrRef spec2 1) (ix2 ((((cfg2.win 6).blk t).view.emb j) 0 : Fin 40000) cc)
    refine congrArg _ (funext fun a => Fin.ext ?_)
    match a with
    | ⟨0, _⟩ => show win2_1.index t (0 : Fin 2) * 4000 + 1 * (j 0).val = win2_6.index t (0 : Fin 2) * 4000 + 1 * (j 0).val; omega
    | ⟨1, _⟩ => show win2_1.index t (1 : Fin 2) * 128 + 1 * cc.val = cc.val; omega
  · refine Fin.ext ?_
    show win2_6.index t (1 : Fin 2) * 128 + 1 * (j 1).val = (j 1).val
    omega

/-- An index of the output array is in point `t`'s block iff each coordinate is in the block's range on its axis. -/
theorem mem_blk2 (t : Fin cfg2.N) (i : S40000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v34).slice (win2_6.rect t)).set ↔ _
  rw [View.set_slice_whole, Rect.mem_set_unit]
  exact Iff.rfl

/-- Every row of the output lies in the block of the point numbered by the row's quotient by 4000. -/
theorem cover2 (i : S40000x128.Idx) : ∃ t : Fin cfg2.N, (cfg2.win 6).flush t = true ∧ i ∈ ((cfg2.win 6).blk t).view.set := by
  have hi0 : (i 0).val < 40000 := (i 0).isLt
  have hi1 : (i 1).val < 128 := (i 1).isLt
  have hN : cfg2.N = 10 := N_2
  let t : Fin cfg2.N := ⟨(i 0).val / 4000, by rw [hN]; omega⟩
  obtain ⟨e0, e1, e2, e3, e4, e5, e6, e7, e8, e9, e10, e11, e12, e13⟩ := idx_facts2 t
  have ht : t.val = (i 0).val / 4000 := rfl
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- The output array after the region: `mlpG` of the operand arrays as the region found them. -/
theorem final2 (c : Dev nD) :
    (dat2 V c).arrAt 6 cfg2.N = mlpG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed2_eq V c t) cover2

/-- The body's arithmetic at an entry (p, q) of the block: two matrix products into zero accumulators, each followed
    by its bias row and a clamp at zero (a change of float format is the identity on the extended reals). -/
theorem pay5_apply (xh xag : Vec Ideal S4000x128 .f32) (w1 : Vec Ideal S128x128 .f32) (b1 : Vec Ideal S1x128 .f32)
    (w2 : Vec Ideal S128x128 .f32) (b2 : Vec Ideal S1x128 .f32) (p : Fin 4000) (q : Fin 128) :
    k5_pay1 xh xag w1 b1 w2 b2 (ix2 p q)
      = max ((∑ k : Fin 128, max ((∑ c : Fin 128, (xh (ix2 p c) + xag (ix2 p c)) * w1 (ix2 c k)) + b1 (ix2 (0 : Fin 1) k)) (Ideal.ofBits .f32 0x00000000#32)
            * w2 (ix2 k q)) + b2 (ix2 (0 : Fin 1) q)) (Ideal.ofBits .f32 0x00000000#32) := by
  unfold k5_pay1
  simp only [shapeCast_self]
  rw [maximumf_apply, addf_apply, broadcastTo_1b_ab_apply, broadcast_apply]
  refine congrArg (fun s => max (s + b2 (ix2 (0 : Fin 1) q)) (Ideal.ofBits .f32 0x00000000#32)) ?_
  refine (matmul_zero_plain_apply _ none _ _ p q).trans (Finset.sum_congr rfl fun k _ => ?_)
  refine congrArg (· * w2 (ix2 k q)) ?_
  rw [truncf_apply, maximumf_apply, addf_apply, broadcastTo_1b_ab_apply, broadcast_apply]
  refine congrArg (fun s => max (s + b1 (ix2 (0 : Fin 1) k)) (Ideal.ofBits .f32 0x00000000#32)) ?_
  exact matmul_zero_plain_apply _ none _ _ p k

/-- One entry of the block the body stores, from the operand arrays: the two row blocks at the matching array row,
    the two weight matrices and the two bias rows whole. -/
theorem mlp_point5 (H AG : FVec Ideal S40000x128 .f32) (W1 : FVec Ideal S128x128 .f32) (B1 : FVec Ideal S1x128 .f32)
    (W2 : FVec Ideal S128x128 .f32) (B2 : FVec Ideal S1x128 .f32)
    (xh xag : Vec Ideal S4000x128 .f32) (w1 : Vec Ideal S128x128 .f32) (b1 : Vec Ideal S1x128 .f32)
    (w2 : Vec Ideal S128x128 .f32) (b2 : Vec Ideal S1x128 .f32) (j : S4000x128.Idx) (i : S40000x128.Idx)
    (hh : ∀ c : Fin 128, xh (ix2 (j 0 : Fin 4000) c) = H (ix2 (i 0 : Fin 40000) c))
    (hag : ∀ c : Fin 128, xag (ix2 (j 0 : Fin 4000) c) = AG (ix2 (i 0 : Fin 40000) c))
    (hq : (i 1 : Fin 128) = (j 1 : Fin 128)) (hw1 : w1 = W1) (hb1 : b1 = B1) (hw2 : w2 = W2) (hb2 : b2 = B2) :
    k5_pay1 xh xag w1 b1 w2 b2 j = mlpG H AG W1 B1 W2 B2 i := by
  obtain ⟨p, q, rfl⟩ : ∃ (p : Fin 4000) (q : Fin 128), j = ix2 p q := ⟨j 0, j 1, eq_ix2 j⟩
  have hq' : (i 1 : Fin 128) = q := hq
  have hh' : ∀ c : Fin 128, xh (ix2 p c) = H (ix2 (i 0 : Fin 40000) c) := hh
  have hag' : ∀ c : Fin 128, xag (ix2 p c) = AG (ix2 (i 0 : Fin 40000) c) := hag
  rw [pay5_apply, hw1, hb1, hw2, hb2, mlpG_apply, hq']
  simp only [hh', hag']

/-- The block index at point `t` is (t, 0) for the two row windows and the output, (0, 0) for the weights and bias rows. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Window 2's block at any point is its whole array. -/
theorem whole5_2 (c : Dev nD) (t : Fin cfg5.N) : (iblk5 V c 2 t : Vec Ideal S128x128 .f32) = V c (Pipeline.arrRef spec5 2) := by
  obtain ⟨e0, e1, e2, e3, e4, e5, e6, e7, e8, e9, e10, e11, e12, e13⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- Window 3's block at any point is its whole array. -/
theorem whole5_3 (c : Dev nD) (t : Fin cfg5.N) : (iblk5 V c 3 t : Vec Ideal S1x128 .f32) = V c (Pipeline.arrRef spec5 3) := by
  obtain ⟨e0, e1, e2, e3, e4, e5, e6, e7, e8, e9, e10, e11, e12, e13⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4's block at any point is its whole array. -/
theorem whole5_4 (c : Dev nD) (t : Fin cfg5.N) : (iblk5 V c 4 t : Vec Ideal S128x128 .f32) = V c (Pipeline.arrRef spec5 4) := by
  obtain ⟨e0, e1, e2, e3, e4, e5, e6, e7, e8, e9, e10, e11, e12, e13⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- Window 5's block at any point is its whole array. -/
theorem whole5_5 (c : Dev nD) (t : Fin cfg5.N) : (iblk5 V c 5 t : Vec Ideal S1x128 .f32) = V c (Pipeline.arrRef spec5 5) := by
  obtain ⟨e0, e1, e2, e3, e4, e5, e6, e7, e8, e9, e10, e11, e12, e13⟩ := idx_facts5 t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 1 + 1 * (y 0).val = (y 0).val; omega
  | ⟨1, _⟩ => show win5_5.index t (1 : Fin 2) * 128 + 1 * (y 1).val = (y 1).val; omega

set_option maxHeartbeats 1000000 in
/-- What point `t` writes back is block `t` of `mlpG` of the operand arrays. -/
theorem flushed5_eq (c : Dev nD) (t : Fin cfg5.N) :
    (dat5 V c).flushed 6 t = ((cfg5.win 6).blk t).view.read (Elt Ideal)
      (mlpG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts5 t
  funext j
  show k5_pay1 (iblk5 V c 0 t) (iblk5 V c 1 t) (iblk5 V c 2 t) (iblk5 V c 3 t) (iblk5 V c 4 t) (iblk5 V c 5 t) j
    = mlpG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb j)
  refine mlp_point5 _ _ _ _ _ _ (iblk5 V c 0 t) (iblk5 V c 1 t) (iblk5 V c 2 t) (iblk5 V c 3 t) (iblk5 V c 4 t) (iblk5 V c 5 t) j _
    (fun cc => ?_) (fun cc => ?_) ?_ (whole5_2 V c t) (whole5_3 V c t) (whole5_4 V c t) (whole5_5 V c t)
  · show V c (Pipeline.arrRef spec5 0) (((cfg5.win 0).blk t).view.emb (ix2 (j 0 : Fin 4000) cc))
      = V c (Pipeline.arrRef spec5 0) (ix2 ((((cfg5.win 6).blk t).view.emb j) 0 : Fin 40000) cc)
    refine congrArg _ (funext fun a => Fin.ext ?_)
    match a with
    | ⟨0, _⟩ => show win5_0.index t (0 : Fin 2) * 4000 + 1 * (j 0).val = win5_6.index t (0 : Fin 2) * 4000 + 1 * (j 0).val; omega
    | ⟨1, _⟩ => show win5_0.index t (1 : Fin 2) * 128 + 1 * cc.val = cc.val; omega
  · show V c (Pipeline.arrRef spec5 1) (((cfg5.win 1).blk t).view.emb (ix2 (j 0 : Fin 4000) cc))
      = V c (Pipeline.arrRef spec5 1) (ix2 ((((cfg5.win 6).blk t).view.emb j) 0 : Fin 40000) cc)
    refine congrArg _ (funext fun a => Fin.ext ?_)
    match a with
    | ⟨0, _⟩ => show win5_1.index t (0 : Fin 2) * 4000 + 1 * (j 0).val = win5_6.index t (0 : Fin 2) * 4000 + 1 * (j 0).val; omega
    | ⟨1, _⟩ => show win5_1.index t (1 : Fin 2) * 128 + 1 * cc.val = cc.val; omega
  · refine Fin.ext ?_
    show win5_6.index t (1 : Fin 2) * 128 + 1 * (j 1).val = (j 1).val
    omega

/-- An index of the output array is in point `t`'s block iff each coordinate is in the block's range on its axis. -/
theorem mem_blk5 (t : Fin cfg5.N) (i : S40000x128.Idx) :
    i ∈ ((cfg5.win 6).blk t).view.set ↔ ∀ a : Fin 2, win5_6.index t a * S4000x128.size a ≤ (i a).val ∧ (i a).val < win5_6.index t a * S4000x128.size a + S4000x128.size a := by
  show i ∈ ((View.whole main_v69).slice (win5_6.rect t)).set ↔ _
  rw [View.set_slice_whole, Rect.mem_set_unit]
  exact Iff.rfl

/-- Every row of the output lies in the block of the point numbered by the row's quotient by 4000. -/
theorem cover5 (i : S40000x128.Idx) : ∃ t : Fin cfg5.N, (cfg5.win 6).flush t = true ∧ i ∈ ((cfg5.win 6).blk t).view.set := by
  have hi0 : (i 0).val < 40000 := (i 0).isLt
  have hi1 : (i 1).val < 128 := (i 1).isLt
  have hN : cfg5.N = 10 := N_5
  let t : Fin cfg5.N := ⟨(i 0).val / 4000, by rw [hN]; omega⟩
  obtain ⟨e0, e1, e2, e3, e4, e5, e6, e7, e8, e9, e10, e11, e12, e13⟩ := idx_facts5 t
  have ht : t.val = (i 0).val / 4000 := rfl
  refine ⟨t, flush5_6 t, ?_⟩
  rw [mem_blk5]
  intro a
  match a with
  | ⟨0, _⟩ => show win5_6.index t (0 : Fin 2) * 4000 ≤ (i 0).val ∧ (i 0).val < win5_6.index t (0 : Fin 2) * 4000 + 4000; omega
  | ⟨1, _⟩ => show win5_6.index t (1 : Fin 2) * 128 ≤ (i 1).val ∧ (i 1).val < win5_6.index t (1 : Fin 2) * 128 + 128; omega

/-- The output array after the region: `mlpG` of the operand arrays as the region found them. -/
theorem final5 (c : Dev nD) :
    (dat5 V c).arrAt 6 cfg5.N = mlpG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_eq V c t) cover5

/-- The body's arithmetic at an entry (p, q) of the block: two matrix products into zero accumulators, each followed
    by its bias row and a clamp at zero (a change of float format is the identity on the extended reals). -/
theorem pay8_apply (xh xag : Vec Ideal S4000x128 .f32) (w1 : Vec Ideal S128x128 .f32) (b1 : Vec Ideal S1x128 .f32)
    (w2 : Vec Ideal S128x128 .f32) (b2 : Vec Ideal S1x128 .f32) (p : Fin 4000) (q : Fin 128) :
    k8_pay1 xh xag w1 b1 w2 b2 (ix2 p q)
      = max ((∑ k : Fin 128, max ((∑ c : Fin 128, (xh (ix2 p c) + xag (ix2 p c)) * w1 (ix2 c k)) + b1 (ix2 (0 : Fin 1) k)) (Ideal.ofBits .f32 0x00000000#32)
            * w2 (ix2 k q)) + b2 (ix2 (0 : Fin 1) q)) (Ideal.ofBits .f32 0x00000000#32) := by
  unfold k8_pay1
  simp only [shapeCast_self]
  rw [maximumf_apply, addf_apply, broadcastTo_1b_ab_apply, broadcast_apply]
  refine congrArg (fun s => max (s + b2 (ix2 (0 : Fin 1) q)) (Ideal.ofBits .f32 0x00000000#32)) ?_
  refine (matmul_zero_plain_apply _ none _ _ p q).trans (Finset.sum_congr rfl fun k _ => ?_)
  refine congrArg (· * w2 (ix2 k q)) ?_
  rw [truncf_apply, maximumf_apply, addf_apply, broadcastTo_1b_ab_apply, broadcast_apply]
  refine congrArg (fun s => max (s + b1 (ix2 (0 : Fin 1) k)) (Ideal.ofBits .f32 0x00000000#32)) ?_
  exact matmul_zero_plain_apply _ none _ _ p k

/-- One entry of the block the body stores, from the operand arrays: the two row blocks at the matching array row,
    the two weight matrices and the two bias rows whole. -/
theorem mlp_point8 (H AG : FVec Ideal S40000x128 .f32) (W1 : FVec Ideal S128x128 .f32) (B1 : FVec Ideal S1x128 .f32)
    (W2 : FVec Ideal S128x128 .f32) (B2 : FVec Ideal S1x128 .f32)
    (xh xag : Vec Ideal S4000x128 .f32) (w1 : Vec Ideal S128x128 .f32) (b1 : Vec Ideal S1x128 .f32)
    (w2 : Vec Ideal S128x128 .f32) (b2 : Vec Ideal S1x128 .f32) (j : S4000x128.Idx) (i : S40000x128.Idx)
    (hh : ∀ c : Fin 128, xh (ix2 (j 0 : Fin 4000) c) = H (ix2 (i 0 : Fin 40000) c))
    (hag : ∀ c : Fin 128, xag (ix2 (j 0 : Fin 4000) c) = AG (ix2 (i 0 : Fin 40000) c))
    (hq : (i 1 : Fin 128) = (j 1 : Fin 128)) (hw1 : w1 = W1) (hb1 : b1 = B1) (hw2 : w2 = W2) (hb2 : b2 = B2) :
    k8_pay1 xh xag w1 b1 w2 b2 j = mlpG H AG W1 B1 W2 B2 i := by
  obtain ⟨p, q, rfl⟩ : ∃ (p : Fin 4000) (q : Fin 128), j = ix2 p q := ⟨j 0, j 1, eq_ix2 j⟩
  have hq' : (i 1 : Fin 128) = q := hq
  have hh' : ∀ c : Fin 128, xh (ix2 p c) = H (ix2 (i 0 : Fin 40000) c) := hh
  have hag' : ∀ c : Fin 128, xag (ix2 p c) = AG (ix2 (i 0 : Fin 40000) c) := hag
  rw [pay8_apply, hw1, hb1, hw2, hb2, mlpG_apply, hq']
  simp only [hh', hag']

/-- The block index at point `t` is (t, 0) for the two row windows and the output, (0, 0) for the weights and bias rows. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Window 2's block at any point is its whole array. -/
theorem whole8_2 (c : Dev nD) (t : Fin cfg8.N) : (iblk8 V c 2 t : Vec Ideal S128x128 .f32) = V c (Pipeline.arrRef spec8 2) := by
  obtain ⟨e0, e1, e2, e3, e4, e5, e6, e7, e8, e9, e10, e11, e12, e13⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega

/-- Window 3's block at any point is its whole array. -/
theorem whole8_3 (c : Dev nD) (t : Fin cfg8.N) : (iblk8 V c 3 t : Vec Ideal S1x128 .f32) = V c (Pipeline.arrRef spec8 3) := by
  obtain ⟨e0, e1, e2, e3, e4, e5, e6, e7, e8, e9, e10, e11, e12, e13⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

/-- Window 4's block at any point is its whole array. -/
theorem whole8_4 (c : Dev nD) (t : Fin cfg8.N) : (iblk8 V c 4 t : Vec Ideal S128x128 .f32) = V c (Pipeline.arrRef spec8 4) := by
  obtain ⟨e0, e1, e2, e3, e4, e5, e6, e7, e8, e9, e10, e11, e12, e13⟩ := idx_facts8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 128 + 1 * (y 0).val = (y 0).val; omega
  | ⟨1, _⟩ => show win8_4.index t (1 : Fin 2) * 128 + 1 * (y 1).val = (y 1).val; omega

/-- Window 5's block at any point is its whole array. -/
theorem whole8_5 (c : Dev nD) (t : Fin cfg8.N) : (iblk8 V c 5 t : Vec Ideal S1x128 .f32) = V c (Pipeline.arrRef spec8 5) := by
  obtain ⟨e0, e1, e2, e3, e4, e5, e6, e7, e8, e9, e10, e11, e12, e13⟩ := idx_facts8 t
  funext y
  show V c (Pipeline.arrRef spec8 5) (((cfg8.win 5).blk t).view.emb y) = V c (Pipeline.arrRef spec8 5) y
  refine congrArg _ (funext fun a => Fin.ext ?_)
  match a with
  | ⟨0, _⟩ => show win8_5.index t (0 : Fin 2) * 1 + 1 * (y 0).val = (y 0).val; omega
  | ⟨1, _⟩ => show win8_5.index t (1 : Fin 2) * 128 + 1 * (y 1).val = (y 1).val; omega

set_option maxHeartbeats 1000000 in
/-- What point `t` writes back is block `t` of `mlpG` of the operand arrays. -/
theorem flushed8_eq (c : Dev nD) (t : Fin cfg8.N) :
    (dat8 V c).flushed 6 t = ((cfg8.win 6).blk t).view.read (Elt Ideal)
      (mlpG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts8 t
  funext j
  show k8_pay1 (iblk8 V c 0 t) (iblk8 V c 1 t) (iblk8 V c 2 t) (iblk8 V c 3 t) (iblk8 V c 4 t) (iblk8 V c 5 t) j
    = mlpG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (((cfg8.win 6).blk t).view.emb j)
  refine mlp_point8 _ _ _ _ _ _ (iblk8 V c 0 t) (iblk8 V c 1 t) (iblk8 V c 2 t) (iblk8 V c 3 t) (iblk8 V c 4 t) (iblk8 V c 5 t) j _
    (fun cc => ?_) (fun cc => ?_) ?_ (whole8_2 V c t) (whole8_3 V c t) (whole8_4 V c t) (whole8_5 V c t)
  · show V c (Pipeline.arrRef spec8 0) (((cfg8.win 0).blk t).view.emb (ix2 (j 0 : Fin 4000) cc))
      = V c (Pipeline.arrRef spec8 0) (ix2 ((((cfg8.win 6).blk t).view.emb j) 0 : Fin 40000) cc)
    refine congrArg _ (funext fun a => Fin.ext ?_)
    match a with
    | ⟨0, _⟩ => show win8_0.index t (0 : Fin 2) * 4000 + 1 * (j 0).val = win8_6.index t (0 : Fin 2) * 4000 + 1 * (j 0).val; omega
    | ⟨1, _⟩ => show win8_0.index t (1 : Fin 2) * 128 + 1 * cc.val = cc.val; omega
  · show V c (Pipeline.arrRef spec8 1) (((cfg8.win 1).blk t).view.emb (ix2 (j 0 : Fin 4000) cc))
      = V c (Pipeline.arrRef spec8 1) (ix2 ((((cfg8.win 6).blk t).view.emb j) 0 : Fin 40000) cc)
    refine congrArg _ (funext fun a => Fin.ext ?_)
    match a with
    | ⟨0, _⟩ => show win8_1.index t (0 : Fin 2) * 4000 + 1 * (j 0).val = win8_6.index t (0 : Fin 2) * 4000 + 1 * (j 0).val; omega
    | ⟨1, _⟩ => show win8_1.index t (1 : Fin 2) * 128 + 1 * cc.val = cc.val; omega
  · refine Fin.ext ?_
    show win8_6.index t (1 : Fin 2) * 128 + 1 * (j 1).val = (j 1).val
    omega

/-- An index of the output array is in point `t`'s block iff each coordinate is in the block's range on its axis. -/
theorem mem_blk8 (t : Fin cfg8.N) (i : S40000x128.Idx) :
    i ∈ ((cfg8.win 6).blk t).view.set ↔ ∀ a : Fin 2, win8_6.index t a * S4000x128.size a ≤ (i a).val ∧ (i a).val < win8_6.index t a * S4000x128.size a + S4000x128.size a := by
  show i ∈ ((View.whole main_v104).slice (win8_6.rect t)).set ↔ _
  rw [View.set_slice_whole, Rect.mem_set_unit]
  exact Iff.rfl

/-- Every row of the output lies in the block of the point numbered by the row's quotient by 4000. -/
theorem cover8 (i : S40000x128.Idx) : ∃ t : Fin cfg8.N, (cfg8.win 6).flush t = true ∧ i ∈ ((cfg8.win 6).blk t).view.set := by
  have hi0 : (i 0).val < 40000 := (i 0).isLt
  have hi1 : (i 1).val < 128 := (i 1).isLt
  have hN : cfg8.N = 10 := N_8
  let t : Fin cfg8.N := ⟨(i 0).val / 4000, by rw [hN]; omega⟩
  obtain ⟨e0, e1, e2, e3, e4, e5, e6, e7, e8, e9, e10, e11, e12, e13⟩ := idx_facts8 t
  have ht : t.val = (i 0).val / 4000 := rfl
  refine ⟨t, flush8_6 t, ?_⟩
  rw [mem_blk8]
  intro a
  match a with
  | ⟨0, _⟩ => show win8_6.index t (0 : Fin 2) * 4000 ≤ (i 0).val ∧ (i 0).val < win8_6.index t (0 : Fin 2) * 4000 + 4000; omega
  | ⟨1, _⟩ => show win8_6.index t (1 : Fin 2) * 128 ≤ (i 1).val ∧ (i 1).val < win8_6.index t (1 : Fin 2) * 128 + 128; omega

/-- The output array after the region: `mlpG` of the operand arrays as the region found them. -/
theorem final8 (c : Dev nD) :
    (dat8 V c).arrAt 6 cfg8.N = mlpG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  (dat8 V c).arrAt_eq_of_cover 6 _ (fun t _ => flushed8_eq V c t) cover8

end Cert.KernelIdeal.RegionValue

end
-- ==== Proof.RegionBn.lean ====
/-
  The batch-normalisation regions (one per layer). Every grid point loads rows 4000·t … 4000·t + 3999 of the
  perceptron's output and the whole of the four one-row arrays (mean, variance, scale, shift), normalises the rows
  column by column and writes the same rows of the output; the 10 points' blocks tile the 40000 rows, so the
  finished output is `bnG` of the five arrays.
-/
import proofs.«155398_j16690242912867_1_alg».proof.Proof.Gen.KernelIdeal.Frame
import proofs.«155398_j16690242912867_1_alg».proof.Proof.RegionSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 3 -/

/-- The body's arithmetic at an entry (p, q) of the block: loaded values are, in the order the body reads them,
    the variance row, the scale row, the block of rows, the mean row and the shift row. -/
theorem pay3_apply (xva xg : Vec Ideal S1x128 .f32) (xz : Vec Ideal S4000x128 .f32) (xmu xbt : Vec Ideal S1x128 .f32)
    (p : Fin 4000) (q : Fin 128) :
    k3_pay1 xva xg xz xmu xbt (ix2 p q)
      = (xg (ix2 (0 : Fin 1) q) * (xz (ix2 p q) - xmu (ix2 (0 : Fin 1) q)))
          * Ideal.rsqrt (xva (ix2 (0 : Fin 1) q) + Ideal.ofBits .f32 0x3727C5AC#32) + xbt (ix2 (0 : Fin 1) q) := by
  unfold k3_pay1
  simp only [shapeCast_self, addf_apply, mulf_apply, subf_apply, broadcastTo_1b_ab_apply]
  rfl

/-- One entry of the block the body stores, from the operand arrays: the block's row entry at the matching array
    index, the four rows whole. -/
theorem bn_point3 (Z : FVec Ideal S40000x128 .f32) (MU VA G BT : FVec Ideal S1x128 .f32)
    (xva xg : Vec Ideal S1x128 .f32) (xz : Vec Ideal S4000x128 .f32) (xmu xbt : Vec Ideal S1x128 .f32)
    (j : S4000x128.Idx) (i : S40000x128.Idx)
    (hz : xz j = Z i) (hq : (i 1 : Fin 128) = (j 1 : Fin 128)) (hmu : xmu = MU) (hva : xva = VA) (hg : xg = G) (hbt : xbt = BT) :
    k3_pay1 xva xg xz xmu xbt j = bnG Z MU VA G BT i := by
  obtain ⟨p, q, rfl⟩ : ∃ (p : Fin 4000) (q : Fin 128), j = ix2 p q := ⟨j 0, j 1, eq_ix2 j⟩
  rw [pay3_apply, hz, hmu, hva, hg, hbt]
  unfold bnG
  rw [hq]

/-- The row blocks' index at point `t` is (t, 0) for the rows window and the output, (0, 0) for the four rows. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row window 1's block at any point is its whole one-row array. -/
theorem row3_1 (c : Dev nD) (t : Fin cfg3.N) : (iblk3 V c 1 t : Vec Ideal S1x128 .f32) = V c (Pipeline.arrRef spec3 1) := by
  obtain ⟨e0, e1, e2, e3, e4, e5, e6, e7, e8, e9, e10, e11⟩ := idx_facts3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Row window 2's block at any point is its whole one-row array. -/
theorem row3_2 (c : Dev nD) (t : Fin cfg3.N) : (iblk3 V c 2 t : Vec Ideal S1x128 .f32) = V c (Pipeline.arrRef spec3 2) := by
  obtain ⟨e0, e1, e2, e3, e4, e5, e6, e7, e8, e9, e10, e11⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Row window 3's block at any point is its whole one-row array. -/
theorem row3_3 (c : Dev nD) (t : Fin cfg3.N) : (iblk3 V c 3 t : Vec Ideal S1x128 .f32) = V c (Pipeline.arrRef spec3 3) := by
  obtain ⟨e0, e1, e2, e3, e4, e5, e6, e7, e8, e9, e10, e11⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Row window 4's block at any point is its whole one-row array. -/
theorem row3_4 (c : Dev nD) (t : Fin cfg3.N) : (iblk3 V c 4 t : Vec Ideal S1x128 .f32) = V c (Pipeline.arrRef spec3 4) := by
  obtain ⟨e0, e1, e2, e3, e4, e5, e6, e7, e8, e9, e10, e11⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

set_option maxHeartbeats 1000000 in
/-- What point `t` writes back is block `t` of `bnG` of the operand arrays. -/
theorem flushed3_eq (c : Dev nD) (t : Fin cfg3.N) :
    (dat3 V c).flushed 5 t = ((cfg3.win 5).blk t).view.read (Elt Ideal)
      (bnG (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S4000x128) hz, View.ld_unit_zero (S := S1x128) hz]
  obtain ⟨e0, e1, e2, e3, e4, e5, e6, e7, e8, e9, e10, e11⟩ := idx_facts3 t
  funext j
  show k3_pay1 (iblk3 V c 2 t) (iblk3 V c 3 t) (iblk3 V c 0 t) (iblk3 V c 1 t) (iblk3 V c 4 t) j
    = bnG (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
  refine bn_point3 _ _ _ _ _ (iblk3 V c 2 t) (iblk3 V c 3 t) (iblk3 V c 0 t) (iblk3 V c 1 t) (iblk3 V c 4 t) j _ ?_ ?_
    (row3_1 V c t) (row3_2 V c t) (row3_3 V c t) (row3_4 V c t)
  · show V c (Pipeline.arrRef spec3 0) (((cfg3.win 0).blk t).view.emb j) = V c (Pipeline.arrRef spec3 0) (((cfg3.win 5).blk t).view.emb j)
    refine congrArg _ (funext fun a => Fin.ext ?_)
    match a with
    | ⟨0, _⟩ => show win3_0.index t (0 : Fin 2) * 4000 + 1 * (j 0).val = win3_5.index t (0 : Fin 2) * 4000 + 1 * (j 0).val; omega
    | ⟨1, _⟩ => show win3_0.index t (1 : Fin 2) * 128 + 1 * (j 1).val = win3_5.index t (1 : Fin 2) * 128 + 1 * (j 1).val; omega
  · refine Fin.ext ?_
    show win3_5.index t (1 : Fin 2) * 128 + 1 * (j 1).val = (j 1).val
    omega

/-- An index of the output array is in point `t`'s block iff each coordinate is in the block's range on its axis. -/
theorem mem_blk3 (t : Fin cfg3.N) (i : S40000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v47).slice (win3_5.rect t)).set ↔ _
  rw [View.set_slice_whole, Rect.mem_set_unit]
  exact Iff.rfl

/-- Every row of the output lies in the block of the point numbered by the row's quotient by 4000. -/
theorem cover3 (i : S40000x128.Idx) : ∃ t : Fin cfg3.N, (cfg3.win 5).flush t = true ∧ i ∈ ((cfg3.win 5).blk t).view.set := by
  have hi0 : (i 0).val < 40000 := (i 0).isLt
  have hi1 : (i 1).val < 128 := (i 1).isLt
  have hN : cfg3.N = 10 := N_3
  let t : Fin cfg3.N := ⟨(i 0).val / 4000, by rw [hN]; omega⟩
  obtain ⟨e0, e1, e2, e3, e4, e5, e6, e7, e8, e9, e10, e11⟩ := idx_facts3 t
  have ht : t.val = (i 0).val / 4000 := rfl
  refine ⟨t, flush3_5 t, ?_⟩
  rw [mem_blk3]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- The output array after the region: `bnG` of the operand arrays as the region found them. -/
theorem final3 (c : Dev nD) :
    (dat3 V c).arrAt 5 cfg3.N = bnG (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) cover3

/-! ## Region 6 -/

/-- The body's arithmetic at an entry (p, q) of the block: loaded values are, in the order the body reads them,
    the variance row, the scale row, the block of rows, the mean row and the shift row. -/
theorem pay6_apply (xva xg : Vec Ideal S1x128 .f32) (xz : Vec Ideal S4000x128 .f32) (xmu xbt : Vec Ideal S1x128 .f32)
    (p : Fin 4000) (q : Fin 128) :
    k6_pay1 xva xg xz xmu xbt (ix2 p q)
      = (xg (ix2 (0 : Fin 1) q) * (xz (ix2 p q) - xmu (ix2 (0 : Fin 1) q)))
          * Ideal.rsqrt (xva (ix2 (0 : Fin 1) q) + Ideal.ofBits .f32 0x3727C5AC#32) + xbt (ix2 (0 : Fin 1) q) := by
  unfold k6_pay1
  simp only [shapeCast_self, addf_apply, mulf_apply, subf_apply, broadcastTo_1b_ab_apply]
  rfl

/-- One entry of the block the body stores, from the operand arrays: the block's row entry at the matching array
    index, the four rows whole. -/
theorem bn_point6 (Z : FVec Ideal S40000x128 .f32) (MU VA G BT : FVec Ideal S1x128 .f32)
    (xva xg : Vec Ideal S1x128 .f32) (xz : Vec Ideal S4000x128 .f32) (xmu xbt : Vec Ideal S1x128 .f32)
    (j : S4000x128.Idx) (i : S40000x128.Idx)
    (hz : xz j = Z i) (hq : (i 1 : Fin 128) = (j 1 : Fin 128)) (hmu : xmu = MU) (hva : xva = VA) (hg : xg = G) (hbt : xbt = BT) :
    k6_pay1 xva xg xz xmu xbt j = bnG Z MU VA G BT i := by
  obtain ⟨p, q, rfl⟩ : ∃ (p : Fin 4000) (q : Fin 128), j = ix2 p q := ⟨j 0, j 1, eq_ix2 j⟩
  rw [pay6_apply, hz, hmu, hva, hg, hbt]
  unfold bnG
  rw [hq]

/-- The row blocks' index at point `t` is (t, 0) for the rows window and the output, (0, 0) for the four rows. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row window 1's block at any point is its whole one-row array. -/
theorem row6_1 (c : Dev nD) (t : Fin cfg6.N) : (iblk6 V c 1 t : Vec Ideal S1x128 .f32) = V c (Pipeline.arrRef spec6 1) := by
  obtain ⟨e0, e1, e2, e3, e4, e5, e6, e7, e8, e9, e10, e11⟩ := idx_facts6 t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- Row window 2's block at any point is its whole one-row array. -/
theorem row6_2 (c : Dev nD) (t : Fin cfg6.N) : (iblk6 V c 2 t : Vec Ideal S1x128 .f32) = V c (Pipeline.arrRef spec6 2) := by
  obtain ⟨e0, e1, e2, e3, e4, e5, e6, e7, e8, e9, e10, e11⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Row window 3's block at any point is its whole one-row array. -/
theorem row6_3 (c : Dev nD) (t : Fin cfg6.N) : (iblk6 V c 3 t : Vec Ideal S1x128 .f32) = V c (Pipeline.arrRef spec6 3) := by
  obtain ⟨e0, e1, e2, e3, e4, e5, e6, e7, e8, e9, e10, e11⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Row window 4's block at any point is its whole one-row array. -/
theorem row6_4 (c : Dev nD) (t : Fin cfg6.N) : (iblk6 V c 4 t : Vec Ideal S1x128 .f32) = V c (Pipeline.arrRef spec6 4) := by
  obtain ⟨e0, e1, e2, e3, e4, e5, e6, e7, e8, e9, e10, e11⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

set_option maxHeartbeats 1000000 in
/-- What point `t` writes back is block `t` of `bnG` of the operand arrays. -/
theorem flushed6_eq (c : Dev nD) (t : Fin cfg6.N) :
    (dat6 V c).flushed 5 t = ((cfg6.win 5).blk t).view.read (Elt Ideal)
      (bnG (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S4000x128) hz, View.ld_unit_zero (S := S1x128) hz]
  obtain ⟨e0, e1, e2, e3, e4, e5, e6, e7, e8, e9, e10, e11⟩ := idx_facts6 t
  funext j
  show k6_pay1 (iblk6 V c 2 t) (iblk6 V c 3 t) (iblk6 V c 0 t) (iblk6 V c 1 t) (iblk6 V c 4 t) j
    = bnG (V c (Pipeline.arrRef spec6 0)) (V c (Pipeline.arrRef spec6 1)) (V c (Pipeline.arrRef spec6 2)) (V c (Pipeline.arrRef spec6 3)) (V c (Pipeline.arrRef spec6 4)) (((cfg6.win 5).blk t).view.emb j)
  refine bn_point6 _ _ _ _ _ (iblk6 V c 2 t) (iblk6 V c 3 t) (iblk6 V c 0 t) (iblk6 V c 1 t) (iblk6 V c 4 t) j _ ?_ ?_
    (row6_1 V c t) (row6_2 V c t) (row6_3 V c t) (row6_4 V c t)
  · show V c (Pipeline.arrRef spec6 0) (((cfg6.win 0).blk t).view.emb j) = V c (Pipeline.arrRef spec6 0) (((cfg6.win 5).blk t).view.emb j)
    refine congrArg _ (funext fun a => Fin.ext ?_)
    match a with
    | ⟨0, _⟩ => show win6_0.index t (0 : Fin 2) * 4000 + 1 * (j 0).val = win6_5.index t (0 : Fin 2) * 4000 + 1 * (j 0).val; omega
    | ⟨1, _⟩ => show win6_0.index t (1 : Fin 2) * 128 + 1 * (j 1).val = win6_5.index t (1 : Fin 2) * 128 + 1 * (j 1).val; omega
  · refine Fin.ext ?_
    show win6_5.index t (1 : Fin 2) * 128 + 1 * (j 1).val = (j 1).val
    omega

/-- An index of the output array is in point `t`'s block iff each coordinate is in the block's range on its axis. -/
theorem mem_blk6 (t : Fin cfg6.N) (i : S40000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v82).slice (win6_5.rect t)).set ↔ _
  rw [View.set_slice_whole, Rect.mem_set_unit]
  exact Iff.rfl

/-- Every row of the output lies in the block of the point numbered by the row's quotient by 4000. -/
theorem cover6 (i : S40000x128.Idx) : ∃ t : Fin cfg6.N, (cfg6.win 5).flush t = true ∧ i ∈ ((cfg6.win 5).blk t).view.set := by
  have hi0 : (i 0).val < 40000 := (i 0).isLt
  have hi1 : (i 1).val < 128 := (i 1).isLt
  have hN : cfg6.N = 10 := N_6
  let t : Fin cfg6.N := ⟨(i 0).val / 4000, by rw [hN]; omega⟩
  obtain ⟨e0, e1, e2, e3, e4, e5, e6, e7, e8, e9, e10, e11⟩ := idx_facts6 t
  have ht : t.val = (i 0).val / 4000 := rfl
  refine ⟨t, flush6_5 t, ?_⟩
  rw [mem_blk6]
  intro a
  match a with
  | ⟨0, _⟩ => show win6_5.index t (0 : Fin 2) * 4000 ≤ (i 0).val ∧ (i 0).val < win6_5.index t (0 : Fin 2) * 4000 + 4000; omega
  | ⟨1, _⟩ => show win6_5.index t (1 : Fin 2) * 128 ≤ (i 1).val ∧ (i 1).val < win6_5.index t (1 : Fin 2) * 128 + 128; omega

/-- The output array after the region: `bnG` of the operand arrays as the region found them. -/
theorem final6 (c : Dev nD) :
    (dat6 V c).arrAt 5 cfg6.N = bnG (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 _ (fun t _ => flushed6_eq V c t) cover6

/-! ## Region 9 -/

/-- The body's arithmetic at an entry (p, q) of the block: loaded values are, in the order the body reads them,
    the variance row, the scale row, the block of rows, the mean row and the shift row. -/
theorem pay9_apply (xva xg : Vec Ideal S1x128 .f32) (xz : Vec Ideal S4000x128 .f32) (xmu xbt : Vec Ideal S1x128 .f32)
    (p : Fin 4000) (q : Fin 128) :
    k9_pay1 xva xg xz xmu xbt (ix2 p q)
      = (xg (ix2 (0 : Fin 1) q) * (xz (ix2 p q) - xmu (ix2 (0 : Fin 1) q)))
          * Ideal.rsqrt (xva (ix2 (0 : Fin 1) q) + Ideal.ofBits .f32 0x3727C5AC#32) + xbt (ix2 (0 : Fin 1) q) := by
  unfold k9_pay1
  simp only [shapeCast_self, addf_apply, mulf_apply, subf_apply, broadcastTo_1b_ab_apply]
  rfl

/-- One entry of the block the body stores, from the operand arrays: the block's row entry at the matching array
    index, the four rows whole. -/
theorem bn_point9 (Z : FVec Ideal S40000x128 .f32) (MU VA G BT : FVec Ideal S1x128 .f32)
    (xva xg : Vec Ideal S1x128 .f32) (xz : Vec Ideal S4000x128 .f32) (xmu xbt : Vec Ideal S1x128 .f32)
    (j : S4000x128.Idx) (i : S40000x128.Idx)
    (hz : xz j = Z i) (hq : (i 1 : Fin 128) = (j 1 : Fin 128)) (hmu : xmu = MU) (hva : xva = VA) (hg : xg = G) (hbt : xbt = BT) :
    k9_pay1 xva xg xz xmu xbt j = bnG Z MU VA G BT i := by
  obtain ⟨p, q, rfl⟩ : ∃ (p : Fin 4000) (q : Fin 128), j = ix2 p q := ⟨j 0, j 1, eq_ix2 j⟩
  rw [pay9_apply, hz, hmu, hva, hg, hbt]
  unfold bnG
  rw [hq]

/-- The row blocks' index at point `t` is (t, 0) for the rows window and the output, (0, 0) for the four rows. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row window 1's block at any point is its whole one-row array. -/
theorem row9_1 (c : Dev nD) (t : Fin cfg9.N) : (iblk9 V c 1 t : Vec Ideal S1x128 .f32) = V c (Pipeline.arrRef spec9 1) := by
  obtain ⟨e0, e1, e2, e3, e4, e5, e6, e7, e8, e9, e10, e11⟩ := idx_facts9 t
  funext y
  show V c (Pipeline.arrRef spec9 1) (((cfg9.win 1).blk t).view.emb y) = V c (Pipeline.arrRef spec9 1) y
  refine congrArg _ (funext fun a => Fin.ext ?_)
  match a with
  | ⟨0, _⟩ => show win9_1.index t (0 : Fin 2) * 1 + 1 * (y 0).val = (y 0).val; omega
  | ⟨1, _⟩ => show win9_1.index t (1 : Fin 2) * 128 + 1 * (y 1).val = (y 1).val; omega

/-- Row window 2's block at any point is its whole one-row array. -/
theorem row9_2 (c : Dev nD) (t : Fin cfg9.N) : (iblk9 V c 2 t : Vec Ideal S1x128 .f32) = V c (Pipeline.arrRef spec9 2) := by
  obtain ⟨e0, e1, e2, e3, e4, e5, e6, e7, e8, e9, e10, e11⟩ := idx_facts9 t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 128 + 1 * (y 1).val = (y 1).val; omega

/-- Row window 3's block at any point is its whole one-row array. -/
theorem row9_3 (c : Dev nD) (t : Fin cfg9.N) : (iblk9 V c 3 t : Vec Ideal S1x128 .f32) = V c (Pipeline.arrRef spec9 3) := by
  obtain ⟨e0, e1, e2, e3, e4, e5, e6, e7, e8, e9, e10, e11⟩ := idx_facts9 t
  funext y
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 1 + 1 * (y 0).val = (y 0).val; omega
  | ⟨1, _⟩ => show win9_3.index t (1 : Fin 2) * 128 + 1 * (y 1).val = (y 1).val; omega

/-- Row window 4's block at any point is its whole one-row array. -/
theorem row9_4 (c : Dev nD) (t : Fin cfg9.N) : (iblk9 V c 4 t : Vec Ideal S1x128 .f32) = V c (Pipeline.arrRef spec9 4) := by
  obtain ⟨e0, e1, e2, e3, e4, e5, e6, e7, e8, e9, e10, e11⟩ := idx_facts9 t
  funext y
  show V c (Pipeline.arrRef spec9 4) (((cfg9.win 4).blk t).view.emb y) = V c (Pipeline.arrRef spec9 4) y
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 128 + 1 * (y 1).val = (y 1).val; omega

set_option maxHeartbeats 1000000 in
/-- What point `t` writes back is block `t` of `bnG` of the operand arrays. -/
theorem flushed9_eq (c : Dev nD) (t : Fin cfg9.N) :
    (dat9 V c).flushed 5 t = ((cfg9.win 5).blk t).view.read (Elt Ideal)
      (bnG (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero hz]
  simp only [View.ld_unit_zero (S := S4000x128) hz, View.ld_unit_zero (S := S1x128) hz]
  obtain ⟨e0, e1, e2, e3, e4, e5, e6, e7, e8, e9, e10, e11⟩ := idx_facts9 t
  funext j
  show k9_pay1 (iblk9 V c 2 t) (iblk9 V c 3 t) (iblk9 V c 0 t) (iblk9 V c 1 t) (iblk9 V c 4 t) j
    = bnG (V c (Pipeline.arrRef spec9 0)) (V c (Pipeline.arrRef spec9 1)) (V c (Pipeline.arrRef spec9 2)) (V c (Pipeline.arrRef spec9 3)) (V c (Pipeline.arrRef spec9 4)) (((cfg9.win 5).blk t).view.emb j)
  refine bn_point9 _ _ _ _ _ (iblk9 V c 2 t) (iblk9 V c 3 t) (iblk9 V c 0 t) (iblk9 V c 1 t) (iblk9 V c 4 t) j _ ?_ ?_
    (row9_1 V c t) (row9_2 V c t) (row9_3 V c t) (row9_4 V c t)
  · show V c (Pipeline.arrRef spec9 0) (((cfg9.win 0).blk t).view.emb j) = V c (Pipeline.arrRef spec9 0) (((cfg9.win 5).blk t).view.emb j)
    refine congrArg _ (funext fun a => Fin.ext ?_)
    match a with
    | ⟨0, _⟩ => show win9_0.index t (0 : Fin 2) * 4000 + 1 * (j 0).val = win9_5.index t (0 : Fin 2) * 4000 + 1 * (j 0).val; omega
    | ⟨1, _⟩ => show win9_0.index t (1 : Fin 2) * 128 + 1 * (j 1).val = win9_5.index t (1 : Fin 2) * 128 + 1 * (j 1).val; omega
  · refine Fin.ext ?_
    show win9_5.index t (1 : Fin 2) * 128 + 1 * (j 1).val = (j 1).val
    omega

/-- An index of the output array is in point `t`'s block iff each coordinate is in the block's range on its axis. -/
theorem mem_blk9 (t : Fin cfg9.N) (i : S40000x128.Idx) :
    i ∈ ((cfg9.win 5).blk t).view.set ↔ ∀ a : Fin 2, win9_5.index t a * S4000x128.size a ≤ (i a).val ∧ (i a).val < win9_5.index t a * S4000x128.size a + S4000x128.size a := by
  show i ∈ ((View.whole main_v117).slice (win9_5.rect t)).set ↔ _
  rw [View.set_slice_whole, Rect.mem_set_unit]
  exact Iff.rfl

/-- Every row of the output lies in the block of the point numbered by the row's quotient by 4000. -/
theorem cover9 (i : S40000x128.Idx) : ∃ t : Fin cfg9.N, (cfg9.win 5).flush t = true ∧ i ∈ ((cfg9.win 5).blk t).view.set := by
  have hi0 : (i 0).val < 40000 := (i 0).isLt
  have hi1 : (i 1).val < 128 := (i 1).isLt
  have hN : cfg9.N = 10 := N_9
  let t : Fin cfg9.N := ⟨(i 0).val / 4000, by rw [hN]; omega⟩
  obtain ⟨e0, e1, e2, e3, e4, e5, e6, e7, e8, e9, e10, e11⟩ := idx_facts9 t
  have ht : t.val = (i 0).val / 4000 := rfl
  refine ⟨t, flush9_5 t, ?_⟩
  rw [mem_blk9]
  intro a
  match a with
  | ⟨0, _⟩ => show win9_5.index t (0 : Fin 2) * 4000 ≤ (i 0).val ∧ (i 0).val < win9_5.index t (0 : Fin 2) * 4000 + 4000; omega
  | ⟨1, _⟩ => show win9_5.index t (1 : Fin 2) * 128 ≤ (i 1).val ∧ (i 1).val < win9_5.index t (1 : Fin 2) * 128 + 128; omega

/-- The output array after the region: `bnG` of the operand arrays as the region found them. -/
theorem final9 (c : Dev nD) :
    (dat9 V c).arrAt 5 cfg9.N = bnG (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 _ (fun t _ => flushed9_eq V c t) cover9

end Cert.KernelIdeal.RegionValue

end
-- ==== Proof.RegionHost.lean ====
/-
  Each region's index-by-index result is the plain program's host operations applied to the same arrays:
  the kernel's matrix product into a zero accumulator is the host's `dot_general`, a row laid along every row is the
  host's broadcast of the one-row array, a clamp at zero is the host's maximum with a broadcast zero, and the
  kernel's reciprocal root is the host's.
-/
import proofs.«155398_j16690242912867_1_alg».proof.Proof.RegionEnc
import proofs.«155398_j16690242912867_1_alg».proof.Proof.RegionMsg
import proofs.«155398_j16690242912867_1_alg».proof.Proof.RegionMlp
import proofs.«155398_j16690242912867_1_alg».proof.Proof.RegionBn
import proofs.«155398_j16690242912867_1_alg».proof.Proof.Spec
import Idealize.ShloMosaic.Lib.KernelVsHost

noncomputable section

namespace Cert.KernelIdeal.RegionValue

open Cert.KernelIdeal Idealize.ShloMosaic Idealize.ShloMosaic.ValueIdx

/-- A one-row array laid along the 40000 rows, read at (r, q), is the row's entry q. -/
theorem bc_apply (y : FVec Ideal S1x128 .f32) (r : Fin 40000) (q : Fin 128) :
    Cert.Spec.bc (F := Ideal) y (ix2 r q) = y (ix2 (0 : Fin 1) q) :=
  broadcastInDim_oneRow_apply _ y r q

theorem msgG_eq (a b : FVec Ideal S640000x128 .f32) : msgG a b = Cert.Spec.msg (F := Ideal) a b := by
  funext i
  rfl

theorem encG_eq (x : FVec Ideal S40000x32 .f32) (wx : FVec Ideal S32x128 .f32) (b2 : FVec Ideal S1x128 .f32) :
    encG x wx b2 = Cert.Spec.encK (F := Ideal) x wx b2 := by
  funext i
  obtain ⟨r, q, rfl⟩ : ∃ (r : Fin 40000) (q : Fin 128), i = ix2 r q := ⟨i 0, i 1, eq_ix2 i⟩
  have e1 := dotGeneral_plain_apply' Cert.ReferenceIdeal.Facts₀.dot_S40000x32_S32x128_S40000x128_1_0_0_1_n_n_wf none x wx r q
  have e2 := bc_apply b2 r q
  exact (congrArg₂ (· + ·) e1 e2).symm

/-- The 128-wide linear layer is the host's product plus the broadcast bias row. -/
theorem linG_eq (x : FVec Ideal S40000x128 .f32) (w : FVec Ideal S128x128 .f32) (b : FVec Ideal S1x128 .f32) :
    linG x w b = addf (Host.dotGeneral (F := Ideal) Cert.ReferenceIdeal.dot_S40000x128_S128x128_S40000x128_1_0_0_1_n_n none x w) (Cert.Spec.bc (F := Ideal) b) := by
  funext i
  obtain ⟨r, q, rfl⟩ : ∃ (r : Fin 40000) (q : Fin 128), i = ix2 r q := ⟨i 0, i 1, eq_ix2 i⟩
  have e1 := dotGeneral_plain_apply' Cert.ReferenceIdeal.Facts₀.dot_S40000x128_S128x128_S40000x128_1_0_0_1_n_n_wf none x w r q
  have e2 := bc_apply b r q
  exact (congrArg₂ (· + ·) e1 e2).symm

/-- The clamp at zero is the host's maximum with a broadcast zero. -/
theorem reluG_eq (x : FVec Ideal S40000x128 .f32) : reluG x = Cert.Spec.relu40 (F := Ideal) x := by
  funext i
  rfl

theorem mlpG_eq (h ag : FVec Ideal S40000x128 .f32) (w1 : FVec Ideal S128x128 .f32) (b1 : FVec Ideal S1x128 .f32)
    (w2 : FVec Ideal S128x128 .f32) (b2 : FVec Ideal S1x128 .f32) : mlpG h ag w1 b1 w2 b2 = Cert.Spec.mlpK (F := Ideal) h ag w1 b1 w2 b2 := by
  unfold mlpG Cert.Spec.mlpK
  simp only [linG_eq, reluG_eq]
  rfl

theorem bnG_eq (z : FVec Ideal S40000x128 .f32) (mu va g bt : FVec Ideal S1x128 .f32) : bnG z mu va g bt = Cert.Spec.bnK (F := Ideal) z mu va g bt := by
  funext i
  obtain ⟨r, q, rfl⟩ : ∃ (r : Fin 40000) (q : Fin 128), i = ix2 r q := ⟨i 0, i 1, eq_ix2 i⟩
  unfold Cert.Spec.bnK
  simp only [addf_apply, mulf_apply, subf_apply, bc_apply]
  rfl

end Cert.KernelIdeal.RegionValue

end
-- ==== Proof.RefOpsList.lean ====
/- The reference program's @main as literal lists of its 297 host operations, one list per printed window,
   in program order; a called function's operations stand at its call, over the call's buffers. -/
import proofs.«155398_j16690242912867_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 87 of 297: the window main_part0. -/
abbrev ops0 : List (HloOp τ sig (Elt F)) :=
  [ StableHlo.binary main_arg0 main_arg1 main_v0 ((fun l r => Host.dotGeneral dot_S40000x32_S32x128_S40000x128_1_0_0_1_n_n none l r) : (⟨S40000x32, .f32⟩ : BufTy).Contents (Elt F) → (⟨S32x128, .f32⟩ : BufTy).Contents (Elt F) → (⟨S40000x128, .f32⟩ : BufTy).Contents (Elt F)),
    StableHlo.unary main_arg2 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S40000x128 ![0, 1] bcast_S1x128_S40000x128_0_1 : (⟨S1x128, .f32⟩ : BufTy).Contents (Elt F) → (⟨S40000x128, .f32⟩ : BufTy).Contents (Elt F)),
    StableHlo.binary main_v0 main_v2 main_v3 (addf : (⟨S40000x128, .f32⟩ : BufTy).Contents (Elt F) → (⟨S40000x128, .f32⟩ : BufTy).Contents (Elt F) → (⟨S40000x128, .f32⟩ : BufTy).Contents (Elt F)),
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_arg11 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 4#32),
    StableHlo.unary main_c_0 main_v6 (broadcastInDim S640000 ![] bcast_S_S640000 : (⟨S_, .i32⟩ : BufTy).Contents (Elt F) → (⟨S640000, .i32⟩ : BufTy).Contents (Elt F)),
    StableHlo.binary main_arg11 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_arg11 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg3 main_v9 main_v10 ((fun x i => Host.gather gather_S4x128_S640000x1_S640000x128_1_0_n_n_0_1_1128 x i) : (⟨S4x128, .f32⟩ : BufTy).Contents (Elt F) → (⟨S640000x1, .i32⟩ : BufTy).Contents (Elt F) → (⟨S640000x128, .f32⟩ : BufTy).Contents (Elt F)),
    StableHlo.unary main_arg10 main_v11 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v11 main_v12 rfl shapeCasts_S1x640000_S640000,
    StableHlo.unary main_arg10 main_v13 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v13 main_v14 rfl shapeCasts_S1x640000_S640000,
    StableHlo.nullary main_c_1 (constantI S_ 32 0#32),
    StableHlo.unary main_c_1 main_v15 (broadcastInDim S640000 ![] bcast_S_S640000 : (⟨S_, .i32⟩ : BufTy).Contents (Elt F) → (⟨S640000, .i32⟩ : BufTy).Contents (Elt F)),
    StableHlo.binary main_v12 main_v15 main_v16 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 40000#32),
    StableHlo.unary main_c_2 main_v17 (broadcastInDim S640000 ![] bcast_S_S640000 : (⟨S_, .i32⟩ : BufTy).Contents (Elt F) → (⟨S640000, .i32⟩ : BufTy).Contents (Elt F)),
    StableHlo.binary main_v12 main_v17 main_v18 (addi : (⟨S640000, .i32⟩ : BufTy).Contents (Elt F) → (⟨S640000, .i32⟩ : BufTy).Contents (Elt F) → (⟨S640000, .i32⟩ : BufTy).Contents (Elt F)),
    StableHlo.ternary main_v16 main_v18 main_v12 main_v19 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v19 main_v20 (broadcastInDim S640000x1 ![0] bcast_S640000_S640000x1_0 : (⟨S640000, .i32⟩ : BufTy).Contents (Elt F) → (⟨S640000x1, .i32⟩ : BufTy).Contents (Elt F)),
    StableHlo.binary main_v3 main_v20 main_v21 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.binary main_v21 main_v10 main_v22 (addf : (⟨S640000x128, .f32⟩ : BufTy).Contents (Elt F) → (⟨S640000x128, .f32⟩ : BufTy).Contents (Elt F) → (⟨S640000x128, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S640000x128, .f32⟩) main_call0_v0) (broadcastInDim S640000x128 ![] bcast_S_S640000x128),
    StableHlo.TRef.binary (StableHlo.TRef.of (T := ⟨S640000x128, .f32⟩) main_v22) (StableHlo.TRef.of (T := ⟨S640000x128, .f32⟩) main_call0_v0) (StableHlo.TRef.of (T := ⟨S640000x128, .f32⟩) main_v23) maximumf,
    StableHlo.nullary main_cst (constant S_ .f32 0x00000000#32),
    StableHlo.unary main_cst main_v24 (broadcastInDim S40000x128 ![] bcast_S_S40000x128 : (⟨S_, .f32⟩ : BufTy).Contents (Elt F) → (⟨S40000x128, .f32⟩ : BufTy).Contents (Elt F)),
    StableHlo.unary main_v14 main_v25 (broadcastInDim S640000x1 ![0] bcast_S640000_S640000x1_0 : (⟨S640000, .i32⟩ : BufTy).Contents (Elt F) → (⟨S640000x1, .i32⟩ : BufTy).Contents (Elt F)),
    StableHlo.ternary main_v24 main_v25 main_v23 main_v26 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v3 main_v26 main_v27 (addf : (⟨S40000x128, .f32⟩ : BufTy).Contents (Elt F) → (⟨S40000x128, .f32⟩ : BufTy).Contents (Elt F) → (⟨S40000x128, .f32⟩ : BufTy).Contents (Elt F)),
    StableHlo.unary main_arg4 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v28 main_v29 rfl shapeCasts_S1x128x128_S128x128,
    StableHlo.binary main_v27 main_v29 main_v30 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg5 main_v31 ((extractStridedSlice S1x128 ![0, 0] · slices_S3x128_S1x128_0_0) : (⟨S3x128, .f32⟩ : BufTy).Contents (Elt F) → (⟨S1x128, .f32⟩ : BufTy).Contents (Elt F)),
    StableHlo.reshape main_v31 main_v32 rfl shapeCasts_S1x128_S128,
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S40000x128 ![0, 1] bcast_S1x128_S40000x128_0_1 : (⟨S1x128, .f32⟩ : BufTy).Contents (Elt F) → (⟨S40000x128, .f32⟩ : BufTy).Contents (Elt F)),
    StableHlo.binary main_v30 main_v34 main_v35 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S40000x128, .f32⟩) main_call1_v0) (broadcastInDim S40000x128 ![] bcast_S_S40000x128),
    StableHlo.TRef.binary (StableHlo.TRef.of (T := ⟨S40000x128, .f32⟩) main_v35) (StableHlo.TRef.of (T := ⟨S40000x128, .f32⟩) main_call1_v0) (StableHlo.TRef.of (T := ⟨S40000x128, .f32⟩) main_v36) maximumf,
    StableHlo.unary main_arg6 main_v37 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v37 main_v38 rfl shapeCasts_S1x128x128_S128x128,
    StableHlo.binary main_v36 main_v38 main_v39 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg7 main_v40 ((extractStridedSlice S1x128 ![0, 0] · slices_S3x128_S1x128_0_0) : (⟨S3x128, .f32⟩ : BufTy).Contents (Elt F) → (⟨S1x128, .f32⟩ : BufTy).Contents (Elt F)),
    StableHlo.reshape main_v40 main_v41 rfl shapeCasts_S1x128_S128,
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S40000x128 ![0, 1] bcast_S1x128_S40000x128_0_1 : (⟨S1x128, .f32⟩ : BufTy).Contents (Elt F) → (⟨S40000x128, .f32⟩ : BufTy).Contents (Elt F)),
    StableHlo.binary main_v39 main_v43 main_v44 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S40000x128, .f32⟩) main_call2_v0) (broadcastInDim S40000x128 ![] bcast_S_S40000x128),
    StableHlo.TRef.binary (StableHlo.TRef.of (T := ⟨S40000x128, .f32⟩) main_v44) (StableHlo.TRef.of (T := ⟨S40000x128, .f32⟩) main_call2_v0) (StableHlo.TRef.of (T := ⟨S40000x128, .f32⟩) main_v45) maximumf,
    StableHlo.nullary main_cst_3 (constant S_ .f32 0x00000000#32),
    StableHlo.binary main_v45 main_cst_3 main_v46 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_4 (constant S_ .f32 0x471C4000#32),
    StableHlo.unary main_cst_4 main_v47 (broadcastInDim S128 ![] bcast_S_S128 : (⟨S_, .f32⟩ : BufTy).Contents (Elt F) → (⟨S128, .f32⟩ : BufTy).Contents (Elt F)),
    StableHlo.binary main_v46 main_v47 main_v48 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary (StableHlo.TRef.of (T := ⟨S_, .f32⟩) main_call3_cst) (constant S_ .f32 0x00000000#32),
    StableHlo.TRef.binary (StableHlo.TRef.of (T := ⟨S40000x128, .f32⟩) main_v45) (StableHlo.TRef.of (T := ⟨S_, .f32⟩) main_call3_cst) (StableHlo.TRef.of (T := ⟨S128, .f32⟩) main_call3_v0) (fun x v => Host.reduceAdd x v reducesTo_S40000x128_S128_d0 h_S_),
    StableHlo.TRef.unary (StableHlo.TRef.of (T := ⟨S128, .f32⟩) main_call3_v0) (StableHlo.TRef.of (T := ⟨S1x128, .f32⟩) main_call3_v1) (broadcastInDim S1x128 ![1] bcast_S128_S1x128_1),
    StableHlo.TRef.nullary (StableHlo.TRef.of (T := ⟨S_, .f32⟩) main_call3_cst_0) (constant S_ .f32 0x471C4000#32),
    StableHlo.TRef.unary (StableHlo.TRef.of (T := ⟨S_, .f32⟩) main_call3_cst_0) (StableHlo.TRef.of (T := ⟨S1x128, .f32⟩) main_call3_v2) (broadcastInDim S1x128 ![] bcast_S_S1x128),
    StableHlo.TRef.binary (StableHlo.TRef.of (T := ⟨S1x128, .f32⟩) main_call3_v1) (StableHlo.TRef.of (T := ⟨S1x128, .f32⟩) main_call3_v2) (StableHlo.TRef.of (T := ⟨S1x128, .f32⟩) main_call3_v3) Host.divf,
    StableHlo.TRef.unary (StableHlo.TRef.of (T := ⟨S1x128, .f32⟩) main_call3_v3) (StableHlo.TRef.of (T := ⟨S40000x128, .f32⟩) main_call3_v4) (broadcastInDim S40000x128 ![0, 1] bcast_S1x128_S40000x128_0_1),
    StableHlo.TRef.binary (StableHlo.TRef.of (T := ⟨S40000x128, .f32⟩) main_v45) (StableHlo.TRef.of (T := ⟨S40000x128, .f32⟩) main_call3_v4) (StableHlo.TRef.of (T := ⟨S40000x128, .f32⟩) main_call3_v5) subf,
    StableHlo.TRef.binary (StableHlo.TRef.of (T := ⟨S40000x128, .f32⟩) main_call3_v5) (StableHlo.TRef.of (T := ⟨S40000x128, .f32⟩) main_call3_v5) (StableHlo.TRef.of (T := ⟨S40000x128, .f32⟩) main_call3_v6) mulf,
    StableHlo.TRef.unary (StableHlo.TRef.of (T := ⟨S_, .i32⟩) main_c_5) (StableHlo.TRef.of (T := ⟨S_, .f32⟩) main_call3_v7) (sitofp .f32),
    StableHlo.TRef.nullary (StableHlo.TRef.of (T := ⟨S_, .f32⟩) main_call3_cst_1) (constant S_ .f32 0x471C4000#32),
    StableHlo.TRef.binary (StableHlo.TRef.of (T := ⟨S_, .f32⟩) main_call3_cst_1) (StableHlo.TRef.of (T := ⟨S_, .f32⟩) main_call3_v7) (StableHlo.TRef.of (T := ⟨S_, .f32⟩) main_call3_v8) subf,
    StableHlo.TRef.nullary (StableHlo.TRef.of (T := ⟨S_, .f32⟩) main_call3_cst_2) (constant S_ .f32 0x00000000#32),
    StableHlo.TRef.binary (StableHlo.TRef.of (T := ⟨S40000x128, .f32⟩) main_call3_v6) (StableHlo.TRef.of (T := ⟨S_, .f32⟩) main_call3_cst_2) (StableHlo.TRef.of (T := ⟨S128, .f32⟩) main_call3_v9) (fun x v => Host.reduceAdd x v reducesTo_S40000x128_S128_d0 h_S_),
    StableHlo.TRef.unary (StableHlo.TRef.of (T := ⟨S_, .f32⟩) main_call3_v8) (StableHlo.TRef.of (T := ⟨S128, .f32⟩) main_call3_v10) (broadcastInDim S128 ![] bcast_S_S128),
    StableHlo.TRef.binary (StableHlo.TRef.of (T := ⟨S128, .f32⟩) main_call3_v9) (StableHlo.TRef.of (T := ⟨S128, .f32⟩) main_call3_v10) (StableHlo.TRef.of (T := ⟨S128, .f32⟩) main_call3_v11) Host.divf,
    StableHlo.TRef.nullary (StableHlo.TRef.of (T := ⟨S_, .f32⟩) main_call3_cst_3) (constant S_ .f32 0x00000000#32),
    StableHlo.TRef.binary (StableHlo.TRef.of (T := ⟨S_, .f32⟩) main_call3_v8) (StableHlo.TRef.of (T := ⟨S_, .f32⟩) main_call3_cst_3) (StableHlo.TRef.of (T := ⟨S_, .i1⟩) main_call3_v12) (cmpf .ogt),
    StableHlo.TRef.nullary (StableHlo.TRef.of (T := ⟨S_, .f32⟩) main_call3_cst_4) (constant S_ .f32 0x7FC00000#32),
    StableHlo.TRef.unary (StableHlo.TRef.of (T := ⟨S_, .f32⟩) main_call3_cst_4) (StableHlo.TRef.of (T := ⟨S_, .f32⟩) main_call3_call0_v0) id,
    StableHlo.TRef.unary (StableHlo.TRef.of (T := ⟨S_, .f32⟩) main_call3_call0_v0) (StableHlo.TRef.of (T := ⟨S128, .f32⟩) main_call3_call0_v1) (broadcastInDim S128 ![] bcast_S_S128),
    StableHlo.TRef.ternary (StableHlo.TRef.of (T := ⟨S_, .i1⟩) main_call3_v12) (StableHlo.TRef.of (T := ⟨S128, .f32⟩) main_call3_v11) (StableHlo.TRef.of (T := ⟨S128, .f32⟩) main_call3_call0_v1) (StableHlo.TRef.of (T := ⟨S128, .f32⟩) main_v49) (fun p a b => select (broadcastInDim S128 ![] bcast_S_S128 p) a b),
    StableHlo.unary main_arg8 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128 ]

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window main_part0 writes, in order. -/
abbrev ops0_W : List (Ref sig .tc) := [main_v0, main_v1, main_v2, main_v3, main_c, main_v4, main_v5, main_c_0, main_v6, main_v7, main_v8, main_v9, main_v10, main_v11, main_v12, main_v13, main_v14, main_c_1, main_v15, main_v16, main_c_2, main_v17, main_v18, main_v19, main_v20, main_v21, main_v22, main_call0_cst, main_call0_v0, main_v23, main_cst, main_v24, main_v25, main_v26, main_v27, main_v28, main_v29, main_v30, main_v31, main_v32, main_v33, main_v34, main_v35, main_call1_cst, main_call1_v0, main_v36, main_v37, main_v38, main_v39, main_v40, main_v41, main_v42, main_v43, main_v44, main_call2_cst, main_call2_v0, main_v45, main_cst_3, main_v46, main_cst_4, main_v47, main_v48, main_c_5, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v49, main_v50, main_v51]

set_option maxRecDepth 8192 in
theorem ops0_writes : (ops0 : List (HloOp τ sig (Elt F))).Forall fun op => op.writes ⊆ (ops0_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- Operations 88 … 174 of 297: the window main_part1. -/
abbrev ops1 : List (HloOp τ sig (Elt F)) :=
  [ StableHlo.unary main_v48 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S40000x128 ![0, 1] bcast_S1x128_S40000x128_0_1 : (⟨S1x128, .f32⟩ : BufTy).Contents (Elt F) → (⟨S40000x128, .f32⟩ : BufTy).Contents (Elt F)),
    StableHlo.binary main_v45 main_v53 main_v54 (subf : (⟨S40000x128, .f32⟩ : BufTy).Contents (Elt F) → (⟨S40000x128, .f32⟩ : BufTy).Contents (Elt F) → (⟨S40000x128, .f32⟩ : BufTy).Contents (Elt F)),
    StableHlo.unary main_v51 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S40000x128 ![0, 1] bcast_S1x128_S40000x128_0_1 : (⟨S1x128, .f32⟩ : BufTy).Contents (Elt F) → (⟨S40000x128, .f32⟩ : BufTy).Contents (Elt F)),
    StableHlo.binary main_v56 main_v54 main_v57 (mulf : (⟨S40000x128, .f32⟩ : BufTy).Contents (Elt F) → (⟨S40000x128, .f32⟩ : BufTy).Contents (Elt F) → (⟨S40000x128, .f32⟩ : BufTy).Contents (Elt F)),
    StableHlo.nullary main_cst_6 (constant S_ .f32 0x3727C5AC#32),
    StableHlo.unary main_cst_6 main_v58 (broadcastInDim S128 ![] bcast_S_S128 : (⟨S_, .f32⟩ : BufTy).Contents (Elt F) → (⟨S128, .f32⟩ : BufTy).Contents (Elt F)),
    StableHlo.binary main_v49 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S40000x128 ![0, 1] bcast_S1x128_S40000x128_0_1 : (⟨S1x128, .f32⟩ : BufTy).Contents (Elt F) → (⟨S40000x128, .f32⟩ : BufTy).Contents (Elt F)),
    StableHlo.binary main_v57 main_v62 main_v63 (mulf : (⟨S40000x128, .f32⟩ : BufTy).Contents (Elt F) → (⟨S40000x128, .f32⟩ : BufTy).Contents (Elt F) → (⟨S40000x128, .f32⟩ : BufTy).Contents (Elt F)),
    StableHlo.unary main_arg9 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S40000x128 ![0, 1] bcast_S1x128_S40000x128_0_1 : (⟨S1x128, .f32⟩ : BufTy).Contents (Elt F) → (⟨S40000x128, .f32⟩ : BufTy).Contents (Elt F)),
    StableHlo.binary main_v63 main_v67 main_v68 (addf : (⟨S40000x128, .f32⟩ : BufTy).Contents (Elt F) → (⟨S40000x128, .f32⟩ : BufTy).Contents (Elt F) → (⟨S40000x128, .f32⟩ : BufTy).Contents (Elt F)),
    StableHlo.nullary main_c_7 (constantI S_ 32 0#32),
    StableHlo.unary main_c_7 main_v69 (broadcastInDim S640000 ![] bcast_S_S640000 : (⟨S_, .i32⟩ : BufTy).Contents (Elt F) → (⟨S640000, .i32⟩ : BufTy).Contents (Elt F)),
    StableHlo.binary main_v12 main_v69 main_v70 (cmpi .slt : (⟨S640000, .i32⟩ : BufTy).Contents (Elt F) → (⟨S640000, .i32⟩ : BufTy).Contents (Elt F) → (⟨S640000, .i1⟩ : BufTy).Contents (Elt F)),
    StableHlo.nullary main_c_8 (constantI S_ 32 40000#32),
    StableHlo.unary main_c_8 main_v71 (broadcastInDim S640000 ![] bcast_S_S640000 : (⟨S_, .i32⟩ : BufTy).Contents (Elt F) → (⟨S640000, .i32⟩ : BufTy).Contents (Elt F)),
    StableHlo.binary main_v12 main_v71 main_v72 (addi : (⟨S640000, .i32⟩ : BufTy).Contents (Elt F) → (⟨S640000, .i32⟩ : BufTy).Contents (Elt F) → (⟨S640000, .i32⟩ : BufTy).Contents (Elt F)),
    StableHlo.ternary main_v70 main_v72 main_v12 main_v73 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v73 main_v74 (broadcastInDim S640000x1 ![0] bcast_S640000_S640000x1_0 : (⟨S640000, .i32⟩ : BufTy).Contents (Elt F) → (⟨S640000x1, .i32⟩ : BufTy).Contents (Elt F)),
    StableHlo.binary main_v68 main_v74 main_v75 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.binary main_v75 main_v10 main_v76 (addf : (⟨S640000x128, .f32⟩ : BufTy).Contents (Elt F) → (⟨S640000x128, .f32⟩ : BufTy).Contents (Elt F) → (⟨S640000x128, .f32⟩ : BufTy).Contents (Elt F)),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S640000x128, .f32⟩) main_call4_v0) (broadcastInDim S640000x128 ![] bcast_S_S640000x128),
    StableHlo.TRef.binary (StableHlo.TRef.of (T := ⟨S640000x128, .f32⟩) main_v76) (StableHlo.TRef.of (T := ⟨S640000x128, .f32⟩) main_call4_v0) (StableHlo.TRef.of (T := ⟨S640000x128, .f32⟩) main_v77) maximumf,
    StableHlo.nullary main_cst_9 (constant S_ .f32 0x00000000#32),
    StableHlo.unary main_cst_9 main_v78 (broadcastInDim S40000x128 ![] bcast_S_S40000x128 : (⟨S_, .f32⟩ : BufTy).Contents (Elt F) → (⟨S40000x128, .f32⟩ : BufTy).Contents (Elt F)),
    StableHlo.unary main_v14 main_v79 (broadcastInDim S640000x1 ![0] bcast_S640000_S640000x1_0 : (⟨S640000, .i32⟩ : BufTy).Contents (Elt F) → (⟨S640000x1, .i32⟩ : BufTy).Contents (Elt F)),
    StableHlo.ternary main_v78 main_v79 main_v77 main_v80 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v68 main_v80 main_v81 (addf : (⟨S40000x128, .f32⟩ : BufTy).Contents (Elt F) → (⟨S40000x128, .f32⟩ : BufTy).Contents (Elt F) → (⟨S40000x128, .f32⟩ : BufTy).Contents (Elt F)),
    StableHlo.unary main_arg4 main_v82 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v82 main_v83 rfl shapeCasts_S1x128x128_S128x128,
    StableHlo.binary main_v81 main_v83 main_v84 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg5 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S40000x128 ![0, 1] bcast_S1x128_S40000x128_0_1 : (⟨S1x128, .f32⟩ : BufTy).Contents (Elt F) → (⟨S40000x128, .f32⟩ : BufTy).Contents (Elt F)),
    StableHlo.binary main_v84 main_v88 main_v89 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S40000x128, .f32⟩) main_call5_v0) (broadcastInDim S40000x128 ![] bcast_S_S40000x128),
    StableHlo.TRef.binary (StableHlo.TRef.of (T := ⟨S40000x128, .f32⟩) main_v89) (StableHlo.TRef.of (T := ⟨S40000x128, .f32⟩) main_call5_v0) (StableHlo.TRef.of (T := ⟨S40000x128, .f32⟩) main_v90) maximumf,
    StableHlo.unary main_arg6 main_v91 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v91 main_v92 rfl shapeCasts_S1x128x128_S128x128,
    StableHlo.binary main_v90 main_v92 main_v93 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg7 main_v94 ((extractStridedSlice S1x128 ![1, 0] · slices_S3x128_S1x128_1_0) : (⟨S3x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S40000x128 ![0, 1] bcast_S1x128_S40000x128_0_1 : (⟨S1x128, .f32⟩ : BufTy).Contents (Elt F) → (⟨S40000x128, .f32⟩ : BufTy).Contents (Elt F)),
    StableHlo.binary main_v93 main_v97 main_v98 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S40000x128, .f32⟩) main_call6_v0) (broadcastInDim S40000x128 ![] bcast_S_S40000x128),
    StableHlo.TRef.binary (StableHlo.TRef.of (T := ⟨S40000x128, .f32⟩) main_v98) (StableHlo.TRef.of (T := ⟨S40000x128, .f32⟩) main_call6_v0) (StableHlo.TRef.of (T := ⟨S40000x128, .f32⟩) main_v99) maximumf,
    StableHlo.nullary main_cst_10 (constant S_ .f32 0x00000000#32),
    StableHlo.binary main_v99 main_cst_10 main_v100 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_11 (constant S_ .f32 0x471C4000#32),
    StableHlo.unary main_cst_11 main_v101 (broadcastInDim S128 ![] bcast_S_S128 : (⟨S_, .f32⟩ : BufTy).Contents (Elt F) → (⟨S128, .f32⟩ : BufTy).Contents (Elt F)),
    StableHlo.binary main_v100 main_v101 main_v102 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (StableHlo.TRef.of (T := ⟨S_, .f32⟩) main_call7_cst) (constant S_ .f32 0x00000000#32),
    StableHlo.TRef.binary (StableHlo.TRef.of (T := ⟨S40000x128, .f32⟩) main_v99) (StableHlo.TRef.of (T := ⟨S_, .f32⟩) main_call7_cst) (StableHlo.TRef.of (T := ⟨S128, .f32⟩) main_call7_v0) (fun x v => Host.reduceAdd x v reducesTo_S40000x128_S128_d0 h_S_),
    StableHlo.TRef.unary (StableHlo.TRef.of (T := ⟨S128, .f32⟩) main_call7_v0) (StableHlo.TRef.of (T := ⟨S1x128, .f32⟩) main_call7_v1) (broadcastInDim S1x128 ![1] bcast_S128_S1x128_1),
    StableHlo.TRef.nullary (StableHlo.TRef.of (T := ⟨S_, .f32⟩) main_call7_cst_0) (constant S_ .f32 0x471C4000#32),
    StableHlo.TRef.unary (StableHlo.TRef.of (T := ⟨S_, .f32⟩) main_call7_cst_0) (StableHlo.TRef.of (T := ⟨S1x128, .f32⟩) main_call7_v2) (broadcastInDim S1x128 ![] bcast_S_S1x128),
    StableHlo.TRef.binary (StableHlo.TRef.of (T := ⟨S1x128, .f32⟩) main_call7_v1) (StableHlo.TRef.of (T := ⟨S1x128, .f32⟩) main_call7_v2) (StableHlo.TRef.of (T := ⟨S1x128, .f32⟩) main_call7_v3) Host.divf,
    StableHlo.TRef.unary (StableHlo.TRef.of (T := ⟨S1x128, .f32⟩) main_call7_v3) (StableHlo.TRef.of (T := ⟨S40000x128, .f32⟩) main_call7_v4) (broadcastInDim S40000x128 ![0, 1] bcast_S1x128_S40000x128_0_1),
    StableHlo.TRef.binary (StableHlo.TRef.of (T := ⟨S40000x128, .f32⟩) main_v99) (StableHlo.TRef.of (T := ⟨S40000x128, .f32⟩) main_call7_v4) (StableHlo.TRef.of (T := ⟨S40000x128, .f32⟩) main_call7_v5) subf,
    StableHlo.TRef.binary (StableHlo.TRef.of (T := ⟨S40000x128, .f32⟩) main_call7_v5) (StableHlo.TRef.of (T := ⟨S40000x128, .f32⟩) main_call7_v5) (StableHlo.TRef.of (T := ⟨S40000x128, .f32⟩) main_call7_v6) mulf,
    StableHlo.TRef.unary (StableHlo.TRef.of (T := ⟨S_, .i32⟩) main_c_12) (StableHlo.TRef.of (T := ⟨S_, .f32⟩) main_call7_v7) (sitofp .f32),
    StableHlo.TRef.nullary (StableHlo.TRef.of (T := ⟨S_, .f32⟩) main_call7_cst_1) (constant S_ .f32 0x471C4000#32),
    StableHlo.TRef.binary (StableHlo.TRef.of (T := ⟨S_, .f32⟩) main_call7_cst_1) (StableHlo.TRef.of (T := ⟨S_, .f32⟩) main_call7_v7) (StableHlo.TRef.of (T := ⟨S_, .f32⟩) main_call7_v8) subf,
    StableHlo.TRef.nullary (StableHlo.TRef.of (T := ⟨S_, .f32⟩) main_call7_cst_2) (constant S_ .f32 0x00000000#32),
    StableHlo.TRef.binary (StableHlo.TRef.of (T := ⟨S40000x128, .f32⟩) main_call7_v6) (StableHlo.TRef.of (T := ⟨S_, .f32⟩) main_call7_cst_2) (StableHlo.TRef.of (T := ⟨S128, .f32⟩) main_call7_v9) (fun x v => Host.reduceAdd x v reducesTo_S40000x128_S128_d0 h_S_),
    StableHlo.TRef.unary (StableHlo.TRef.of (T := ⟨S_, .f32⟩) main_call7_v8) (StableHlo.TRef.of (T := ⟨S128, .f32⟩) main_call7_v10) (broadcastInDim S128 ![] bcast_S_S128),
    StableHlo.TRef.binary (StableHlo.TRef.of (T := ⟨S128, .f32⟩) main_call7_v9) (StableHlo.TRef.of (T := ⟨S128, .f32⟩) main_call7_v10) (StableHlo.TRef.of (T := ⟨S128, .f32⟩) main_call7_v11) Host.divf,
    StableHlo.TRef.nullary (StableHlo.TRef.of (T := ⟨S_, .f32⟩) main_call7_cst_3) (constant S_ .f32 0x00000000#32),
    StableHlo.TRef.binary (StableHlo.TRef.of (T := ⟨S_, .f32⟩) main_call7_v8) (StableHlo.TRef.of (T := ⟨S_, .f32⟩) main_call7_cst_3) (StableHlo.TRef.of (T := ⟨S_, .i1⟩) main_call7_v12) (cmpf .ogt),
    StableHlo.TRef.nullary (StableHlo.TRef.of (T := ⟨S_, .f32⟩) main_call7_cst_4) (constant S_ .f32 0x7FC00000#32),
    StableHlo.TRef.unary (StableHlo.TRef.of (T := ⟨S_, .f32⟩) main_call7_cst_4) (StableHlo.TRef.of (T := ⟨S_, .f32⟩) main_call7_call0_v0) id,
    StableHlo.TRef.unary (StableHlo.TRef.of (T := ⟨S_, .f32⟩) main_call7_call0_v0) (StableHlo.TRef.of (T := ⟨S128, .f32⟩) main_call7_call0_v1) (broadcastInDim S128 ![] bcast_S_S128),
    StableHlo.TRef.ternary (StableHlo.TRef.of (T := ⟨S_, .i1⟩) main_call7_v12) (StableHlo.TRef.of (T := ⟨S128, .f32⟩) main_call7_v11) (StableHlo.TRef.of (T := ⟨S128, .f32⟩) main_call7_call0_v1) (StableHlo.TRef.of (T := ⟨S128, .f32⟩) main_v103) (fun p a b => select (broadcastInDim S128 ![] bcast_S_S128 p) a b),
    StableHlo.unary main_arg8 main_v104 ((extractStridedSlice S1x128 ![1, 0] · slices_S3x128_S1x128_1_0) : (⟨S3x128, .f32⟩ : BufTy).Contents (Elt F) → (⟨S1x128, .f32⟩ : BufTy).Contents (Elt F)) ]

set_option maxRecDepth 8192 in
theorem ops1_sub : (ops1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window main_part1 writes, in order. -/
abbrev ops1_W : List (Ref sig .tc) := [main_v52, main_v53, main_v54, main_v55, main_v56, main_v57, main_cst_6, main_v58, main_v59, main_v60, main_v61, main_v62, main_v63, main_v64, main_v65, main_v66, main_v67, main_v68, main_c_7, main_v69, main_v70, main_c_8, main_v71, main_v72, main_v73, main_v74, main_v75, main_v76, main_call4_cst, main_call4_v0, main_v77, main_cst_9, main_v78, main_v79, main_v80, main_v81, main_v82, main_v83, main_v84, main_v85, main_v86, main_v87, main_v88, main_v89, main_call5_cst, main_call5_v0, main_v90, main_v91, main_v92, main_v93, main_v94, main_v95, main_v96, main_v97, main_v98, main_call6_cst, main_call6_v0, main_v99, main_cst_10, main_v100, main_cst_11, main_v101, main_v102, main_c_12, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v103, main_v104]

set_option maxRecDepth 8192 in
theorem ops1_writes : (ops1 : List (HloOp τ sig (Elt F))).Forall fun op => op.writes ⊆ (ops1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- Operations 175 … 261 of 297: the window main_part2. -/
abbrev ops2 : List (HloOp τ sig (Elt F)) :=
  [ StableHlo.reshape main_v104 main_v105 rfl shapeCasts_S1x128_S128,
    StableHlo.unary main_v102 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S40000x128 ![0, 1] bcast_S1x128_S40000x128_0_1 : (⟨S1x128, .f32⟩ : BufTy).Contents (Elt F) → (⟨S40000x128, .f32⟩ : BufTy).Contents (Elt F)),
    StableHlo.binary main_v99 main_v107 main_v108 (subf : (⟨S40000x128, .f32⟩ : BufTy).Contents (Elt F) → (⟨S40000x128, .f32⟩ : BufTy).Contents (Elt F) → (⟨S40000x128, .f32⟩ : BufTy).Contents (Elt F)),
    StableHlo.unary main_v105 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S40000x128 ![0, 1] bcast_S1x128_S40000x128_0_1 : (⟨S1x128, .f32⟩ : BufTy).Contents (Elt F) → (⟨S40000x128, .f32⟩ : BufTy).Contents (Elt F)),
    StableHlo.binary main_v110 main_v108 main_v111 (mulf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3727C5AC#32),
    StableHlo.unary main_cst_13 main_v112 (broadcastInDim S128 ![] bcast_S_S128 : (⟨S_, .f32⟩ : BufTy).Contents (Elt F) → (⟨S128, .f32⟩ : BufTy).Contents (Elt F)),
    StableHlo.binary main_v103 main_v112 main_v113 (addf : (⟨S128, .f32⟩ : BufTy).Contents (Elt F) → (⟨S128, .f32⟩ : BufTy).Contents (Elt F) → (⟨S128, .f32⟩ : BufTy).Contents (Elt F)),
    StableHlo.unary main_v113 main_v114 (Host.rsqrt : (⟨S128, .f32⟩ : BufTy).Contents (Elt F) → (⟨S128, .f32⟩ : BufTy).Contents (Elt F)),
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S40000x128 ![0, 1] bcast_S1x128_S40000x128_0_1 : (⟨S1x128, .f32⟩ : BufTy).Contents (Elt F) → (⟨S40000x128, .f32⟩ : BufTy).Contents (Elt F)),
    StableHlo.binary main_v111 main_v116 main_v117 (mulf : (⟨S40000x128, .f32⟩ : BufTy).Contents (Elt F) → (⟨S40000x128, .f32⟩ : BufTy).Contents (Elt F) → (⟨S40000x128, .f32⟩ : BufTy).Contents (Elt F)),
    StableHlo.unary main_arg9 main_v118 ((extractStridedSlice S1x128 ![1, 0] · slices_S3x128_S1x128_1_0) : (⟨S3x128, .f32⟩ : BufTy).Contents (Elt F) → (⟨S1x128, .f32⟩ : BufTy).Contents (Elt F)),
    StableHlo.reshape main_v118 main_v119 rfl shapeCasts_S1x128_S128,
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S40000x128 ![0, 1] bcast_S1x128_S40000x128_0_1 : (⟨S1x128, .f32⟩ : BufTy).Contents (Elt F) → (⟨S40000x128, .f32⟩ : BufTy).Contents (Elt F)),
    StableHlo.binary main_v117 main_v121 main_v122 (addf : (⟨S40000x128, .f32⟩ : BufTy).Contents (Elt F) → (⟨S40000x128, .f32⟩ : BufTy).Contents (Elt F) → (⟨S40000x128, .f32⟩ : BufTy).Contents (Elt F)),
    StableHlo.nullary main_c_14 (constantI S_ 32 0#32),
    StableHlo.unary main_c_14 main_v123 (broadcastInDim S640000 ![] bcast_S_S640000 : (⟨S_, .i32⟩ : BufTy).Contents (Elt F) → (⟨S640000, .i32⟩ : BufTy).Contents (Elt F)),
    StableHlo.binary main_v12 main_v123 main_v124 (cmpi .slt : (⟨S640000, .i32⟩ : BufTy).Contents (Elt F) → (⟨S640000, .i32⟩ : BufTy).Contents (Elt F) → (⟨S640000, .i1⟩ : BufTy).Contents (Elt F)),
    StableHlo.nullary main_c_15 (constantI S_ 32 40000#32),
    StableHlo.unary main_c_15 main_v125 (broadcastInDim S640000 ![] bcast_S_S640000 : (⟨S_, .i32⟩ : BufTy).Contents (Elt F) → (⟨S640000, .i32⟩ : BufTy).Contents (Elt F)),
    StableHlo.binary main_v12 main_v125 main_v126 (addi : (⟨S640000, .i32⟩ : BufTy).Contents (Elt F) → (⟨S640000, .i32⟩ : BufTy).Contents (Elt F) → (⟨S640000, .i32⟩ : BufTy).Contents (Elt F)),
    StableHlo.ternary main_v124 main_v126 main_v12 main_v127 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v127 main_v128 (broadcastInDim S640000x1 ![0] bcast_S640000_S640000x1_0 : (⟨S640000, .i32⟩ : BufTy).Contents (Elt F) → (⟨S640000x1, .i32⟩ : BufTy).Contents (Elt F)),
    StableHlo.binary main_v122 main_v128 main_v129 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.binary main_v129 main_v10 main_v130 (addf : (⟨S640000x128, .f32⟩ : BufTy).Contents (Elt F) → (⟨S640000x128, .f32⟩ : BufTy).Contents (Elt F) → (⟨S640000x128, .f32⟩ : BufTy).Contents (Elt F)),
    StableHlo.TRef.nullary (StableHlo.TRef.of (T := ⟨S_, .f32⟩) main_call8_cst) (constant S_ .f32 0x00000000#32),
    StableHlo.TRef.unary (StableHlo.TRef.of (T := ⟨S_, .f32⟩) main_call8_cst) (StableHlo.TRef.of (T := ⟨S640000x128, .f32⟩) main_call8_v0) (broadcastInDim S640000x128 ![] bcast_S_S640000x128),
    StableHlo.TRef.binary (StableHlo.TRef.of (T := ⟨S640000x128, .f32⟩) main_v130) (StableHlo.TRef.of (T := ⟨S640000x128, .f32⟩) main_call8_v0) (StableHlo.TRef.of (T := ⟨S640000x128, .f32⟩) main_v131) maximumf,
    StableHlo.nullary main_cst_16 (constant S_ .f32 0x00000000#32),
    StableHlo.unary main_cst_16 main_v132 (broadcastInDim S40000x128 ![] bcast_S_S40000x128 : (⟨S_, .f32⟩ : BufTy).Contents (Elt F) → (⟨S40000x128, .f32⟩ : BufTy).Contents (Elt F)),
    StableHlo.unary main_v14 main_v133 (broadcastInDim S640000x1 ![0] bcast_S640000_S640000x1_0 : (⟨S640000, .i32⟩ : BufTy).Contents (Elt F) → (⟨S640000x1, .i32⟩ : BufTy).Contents (Elt F)),
    StableHlo.ternary main_v132 main_v133 main_v131 main_v134 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_v122 main_v134 main_v135 (addf : (⟨S40000x128, .f32⟩ : BufTy).Contents (Elt F) → (⟨S40000x128, .f32⟩ : BufTy).Contents (Elt F) → (⟨S40000x128, .f32⟩ : BufTy).Contents (Elt F)),
    StableHlo.unary main_arg4 main_v136 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v136 main_v137 rfl shapeCasts_S1x128x128_S128x128,
    StableHlo.binary main_v135 main_v137 main_v138 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg5 main_v139 ((extractStridedSlice S1x128 ![2, 0] · slices_S3x128_S1x128_2_0) : (⟨S3x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S40000x128 ![0, 1] bcast_S1x128_S40000x128_0_1 : (⟨S1x128, .f32⟩ : BufTy).Contents (Elt F) → (⟨S40000x128, .f32⟩ : BufTy).Contents (Elt F)),
    StableHlo.binary main_v138 main_v142 main_v143 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call9_cst) (constant S_ .f32 0x00000000#32),
    StableHlo.TRef.unary (StableHlo.TRef.of (T := ⟨S_, .f32⟩) main_call9_cst) (StableHlo.TRef.of (T := ⟨S40000x128, .f32⟩) main_call9_v0) (broadcastInDim S40000x128 ![] bcast_S_S40000x128),
    StableHlo.TRef.binary (StableHlo.TRef.of (T := ⟨S40000x128, .f32⟩) main_v143) (StableHlo.TRef.of (T := ⟨S40000x128, .f32⟩) main_call9_v0) (StableHlo.TRef.of (T := ⟨S40000x128, .f32⟩) main_v144) maximumf,
    StableHlo.unary main_arg6 main_v145 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v145 main_v146 rfl shapeCasts_S1x128x128_S128x128,
    StableHlo.binary main_v144 main_v146 main_v147 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg7 main_v148 ((extractStridedSlice S1x128 ![2, 0] · slices_S3x128_S1x128_2_0) : (⟨S3x128, .f32⟩ : BufTy).Contents (Elt F) → (⟨S1x128, .f32⟩ : BufTy).Contents (Elt F)),
    StableHlo.reshape main_v148 main_v149 rfl shapeCasts_S1x128_S128,
    StableHlo.unary main_v149 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S40000x128 ![0, 1] bcast_S1x128_S40000x128_0_1 : (⟨S1x128, .f32⟩ : BufTy).Contents (Elt F) → (⟨S40000x128, .f32⟩ : BufTy).Contents (Elt F)),
    StableHlo.binary main_v147 main_v151 main_v152 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call10_cst) (constant S_ .f32 0x00000000#32),
    StableHlo.TRef.unary (StableHlo.TRef.of (T := ⟨S_, .f32⟩) main_call10_cst) (StableHlo.TRef.of (T := ⟨S40000x128, .f32⟩) main_call10_v0) (broadcastInDim S40000x128 ![] bcast_S_S40000x128),
    StableHlo.TRef.binary (StableHlo.TRef.of (T := ⟨S40000x128, .f32⟩) main_v152) (StableHlo.TRef.of (T := ⟨S40000x128, .f32⟩) main_call10_v0) (StableHlo.TRef.of (T := ⟨S40000x128, .f32⟩) main_v153) maximumf,
    StableHlo.nullary main_cst_17 (constant S_ .f32 0x00000000#32),
    StableHlo.binary main_v153 main_cst_17 main_v154 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_18 (constant S_ .f32 0x471C4000#32),
    StableHlo.unary main_cst_18 main_v155 (broadcastInDim S128 ![] bcast_S_S128 : (⟨S_, .f32⟩ : BufTy).Contents (Elt F) → (⟨S128, .f32⟩ : BufTy).Contents (Elt F)),
    StableHlo.binary main_v154 main_v155 main_v156 (Host.divf : (⟨S128, .f32⟩ : BufTy).Contents (Elt F) → (⟨S128, .f32⟩ : BufTy).Contents (Elt F) → (⟨S128, .f32⟩ : BufTy).Contents (Elt F)),
    StableHlo.nullary main_c_19 (constantI S_ 32 0#32),
    StableHlo.TRef.nullary (StableHlo.TRef.of (T := ⟨S_, .f32⟩) main_call11_cst) (constant S_ .f32 0x00000000#32),
    StableHlo.TRef.binary (StableHlo.TRef.of (T := ⟨S40000x128, .f32⟩) main_v153) (StableHlo.TRef.of (T := ⟨S_, .f32⟩) main_call11_cst) (StableHlo.TRef.of (T := ⟨S128, .f32⟩) main_call11_v0) (fun x v => Host.reduceAdd x v reducesTo_S40000x128_S128_d0 h_S_),
    StableHlo.TRef.unary (StableHlo.TRef.of (T := ⟨S128, .f32⟩) main_call11_v0) (StableHlo.TRef.of (T := ⟨S1x128, .f32⟩) main_call11_v1) (broadcastInDim S1x128 ![1] bcast_S128_S1x128_1),
    StableHlo.TRef.nullary (StableHlo.TRef.of (T := ⟨S_, .f32⟩) main_call11_cst_0) (constant S_ .f32 0x471C4000#32),
    StableHlo.TRef.unary (StableHlo.TRef.of (T := ⟨S_, .f32⟩) main_call11_cst_0) (StableHlo.TRef.of (T := ⟨S1x128, .f32⟩) main_call11_v2) (broadcastInDim S1x128 ![] bcast_S_S1x128),
    StableHlo.TRef.binary (StableHlo.TRef.of (T := ⟨S1x128, .f32⟩) main_call11_v1) (StableHlo.TRef.of (T := ⟨S1x128, .f32⟩) main_call11_v2) (StableHlo.TRef.of (T := ⟨S1x128, .f32⟩) main_call11_v3) Host.divf,
    StableHlo.TRef.unary (StableHlo.TRef.of (T := ⟨S1x128, .f32⟩) main_call11_v3) (StableHlo.TRef.of (T := ⟨S40000x128, .f32⟩) main_call11_v4) (broadcastInDim S40000x128 ![0, 1] bcast_S1x128_S40000x128_0_1),
    StableHlo.TRef.binary (StableHlo.TRef.of (T := ⟨S40000x128, .f32⟩) main_v153) (StableHlo.TRef.of (T := ⟨S40000x128, .f32⟩) main_call11_v4) (StableHlo.TRef.of (T := ⟨S40000x128, .f32⟩) main_call11_v5) subf,
    StableHlo.TRef.binary (StableHlo.TRef.of (T := ⟨S40000x128, .f32⟩) main_call11_v5) (StableHlo.TRef.of (T := ⟨S40000x128, .f32⟩) main_call11_v5) (StableHlo.TRef.of (T := ⟨S40000x128, .f32⟩) main_call11_v6) mulf,
    StableHlo.TRef.unary (StableHlo.TRef.of (T := ⟨S_, .i32⟩) main_c_19) (StableHlo.TRef.of (T := ⟨S_, .f32⟩) main_call11_v7) (sitofp .f32),
    StableHlo.TRef.nullary (StableHlo.TRef.of (T := ⟨S_, .f32⟩) main_call11_cst_1) (constant S_ .f32 0x471C4000#32),
    StableHlo.TRef.binary (StableHlo.TRef.of (T := ⟨S_, .f32⟩) main_call11_cst_1) (StableHlo.TRef.of (T := ⟨S_, .f32⟩) main_call11_v7) (StableHlo.TRef.of (T := ⟨S_, .f32⟩) main_call11_v8) subf,
    StableHlo.TRef.nullary (StableHlo.TRef.of (T := ⟨S_, .f32⟩) main_call11_cst_2) (constant S_ .f32 0x00000000#32),
    StableHlo.TRef.binary (StableHlo.TRef.of (T := ⟨S40000x128, .f32⟩) main_call11_v6) (StableHlo.TRef.of (T := ⟨S_, .f32⟩) main_call11_cst_2) (StableHlo.TRef.of (T := ⟨S128, .f32⟩) main_call11_v9) (fun x v => Host.reduceAdd x v reducesTo_S40000x128_S128_d0 h_S_),
    StableHlo.TRef.unary (StableHlo.TRef.of (T := ⟨S_, .f32⟩) main_call11_v8) (StableHlo.TRef.of (T := ⟨S128, .f32⟩) main_call11_v10) (broadcastInDim S128 ![] bcast_S_S128),
    StableHlo.TRef.binary (StableHlo.TRef.of (T := ⟨S128, .f32⟩) main_call11_v9) (StableHlo.TRef.of (T := ⟨S128, .f32⟩) main_call11_v10) (StableHlo.TRef.of (T := ⟨S128, .f32⟩) main_call11_v11) Host.divf,
    StableHlo.TRef.nullary (StableHlo.TRef.of (T := ⟨S_, .f32⟩) main_call11_cst_3) (constant S_ .f32 0x00000000#32),
    StableHlo.TRef.binary (StableHlo.TRef.of (T := ⟨S_, .f32⟩) main_call11_v8) (StableHlo.TRef.of (T := ⟨S_, .f32⟩) main_call11_cst_3) (StableHlo.TRef.of (T := ⟨S_, .i1⟩) main_call11_v12) (cmpf .ogt),
    StableHlo.TRef.nullary (StableHlo.TRef.of (T := ⟨S_, .f32⟩) main_call11_cst_4) (constant S_ .f32 0x7FC00000#32),
    StableHlo.TRef.unary (StableHlo.TRef.of (T := ⟨S_, .f32⟩) main_call11_cst_4) (StableHlo.TRef.of (T := ⟨S_, .f32⟩) main_call11_call0_v0) id,
    StableHlo.TRef.unary (StableHlo.TRef.of (T := ⟨S_, .f32⟩) main_call11_call0_v0) (StableHlo.TRef.of (T := ⟨S128, .f32⟩) main_call11_call0_v1) (broadcastInDim S128 ![] bcast_S_S128),
    StableHlo.TRef.ternary (StableHlo.TRef.of (T := ⟨S_, .i1⟩) main_call11_v12) (StableHlo.TRef.of (T := ⟨S128, .f32⟩) main_call11_v11) (StableHlo.TRef.of (T := ⟨S128, .f32⟩) main_call11_call0_v1) (StableHlo.TRef.of (T := ⟨S128, .f32⟩) main_v157) (fun p a b => select (broadcastInDim S128 ![] bcast_S_S128 p) a b) ]

set_option maxRecDepth 8192 in
theorem ops2_sub : (ops2 : List (HloOp τ sig (Elt F))).Forall fun op => op.bufs ⊆ tcRefs τ sig :=
  ⟨reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window main_part2 writes, in order. -/
abbrev ops2_W : List (Ref sig .tc) := [main_v105, main_v106, main_v107, main_v108, main_v109, main_v110, main_v111, main_cst_13, main_v112, main_v113, main_v114, main_v115, main_v116, main_v117, main_v118, main_v119, main_v120, main_v121, main_v122, main_c_14, main_v123, main_v124, main_c_15, main_v125, main_v126, main_v127, main_v128, main_v129, main_v130, main_call8_cst, main_call8_v0, main_v131, main_cst_16, main_v132, main_v133, main_v134, main_v135, main_v136, main_v137, main_v138, main_v139, main_v140, main_v141, main_v142, main_v143, main_call9_cst, main_call9_v0, main_v144, main_v145, main_v146, main_v147, main_v148, main_v149, main_v150, main_v151, main_v152, main_call10_cst, main_call10_v0, main_v153, main_cst_17, main_v154, main_cst_18, main_v155, main_v156, main_c_19, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v157]

set_option maxRecDepth 8192 in
theorem ops2_writes : (ops2 : List (HloOp τ sig (Elt F))).Forall fun op => op.writes ⊆ (ops2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- Operations 262 … 297 of 297: the window main_part3. -/
abbrev ops3 : List (HloOp τ sig (Elt F)) :=
  [ StableHlo.unary main_arg8 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.unary main_v156 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S40000x128 ![0, 1] bcast_S1x128_S40000x128_0_1 : (⟨S1x128, .f32⟩ : BufTy).Contents (Elt F) → (⟨S40000x128, .f32⟩ : BufTy).Contents (Elt F)),
    StableHlo.binary main_v153 main_v161 main_v162 (subf : (⟨S40000x128, .f32⟩ : BufTy).Contents (Elt F) → (⟨S40000x128, .f32⟩ : BufTy).Contents (Elt F) → (⟨S40000x128, .f32⟩ : BufTy).Contents (Elt F)),
    StableHlo.unary main_v159 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S40000x128 ![0, 1] bcast_S1x128_S40000x128_0_1 : (⟨S1x128, .f32⟩ : BufTy).Contents (Elt F) → (⟨S40000x128, .f32⟩ : BufTy).Contents (Elt F)),
    StableHlo.binary main_v164 main_v162 main_v165 (mulf : (⟨S40000x128, .f32⟩ : BufTy).Contents (Elt F) → (⟨S40000x128, .f32⟩ : BufTy).Contents (Elt F) → (⟨S40000x128, .f32⟩ : BufTy).Contents (Elt F)),
    StableHlo.nullary main_cst_20 (constant S_ .f32 0x3727C5AC#32),
    StableHlo.unary main_cst_20 main_v166 (broadcastInDim S128 ![] bcast_S_S128 : (⟨S_, .f32⟩ : BufTy).Contents (Elt F) → (⟨S128, .f32⟩ : BufTy).Contents (Elt F)),
    StableHlo.binary main_v157 main_v166 main_v167 (addf : (⟨S128, .f32⟩ : BufTy).Contents (Elt F) → (⟨S128, .f32⟩ : BufTy).Contents (Elt F) → (⟨S128, .f32⟩ : BufTy).Contents (Elt F)),
    StableHlo.unary main_v167 main_v168 (Host.rsqrt : (⟨S128, .f32⟩ : BufTy).Contents (Elt F) → (⟨S128, .f32⟩ : BufTy).Contents (Elt F)),
    StableHlo.unary main_v168 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S40000x128 ![0, 1] bcast_S1x128_S40000x128_0_1 : (⟨S1x128, .f32⟩ : BufTy).Contents (Elt F) → (⟨S40000x128, .f32⟩ : BufTy).Contents (Elt F)),
    StableHlo.binary main_v165 main_v170 main_v171 (mulf : (⟨S40000x128, .f32⟩ : BufTy).Contents (Elt F) → (⟨S40000x128, .f32⟩ : BufTy).Contents (Elt F) → (⟨S40000x128, .f32⟩ : BufTy).Contents (Elt F)),
    StableHlo.unary main_arg9 main_v172 ((extractStridedSlice S1x128 ![2, 0] · slices_S3x128_S1x128_2_0) : (⟨S3x128, .f32⟩ : BufTy).Contents (Elt F) → (⟨S1x128, .f32⟩ : BufTy).Contents (Elt F)),
    StableHlo.reshape main_v172 main_v173 rfl shapeCasts_S1x128_S128,
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S40000x128 ![0, 1] bcast_S1x128_S40000x128_0_1 : (⟨S1x128, .f32⟩ : BufTy).Contents (Elt F) → (⟨S40000x128, .f32⟩ : BufTy).Contents (Elt F)),
    StableHlo.binary main_v171 main_v175 main_v176 (addf : (⟨S40000x128, .f32⟩ : BufTy).Contents (Elt F) → (⟨S40000x128, .f32⟩ : BufTy).Contents (Elt F) → (⟨S40000x128, .f32⟩ : BufTy).Contents (Elt F)),
    StableHlo.nullary main_cst_21 (constant S_ .f32 0x3F800000#32),
    StableHlo.unary main_cst_21 main_v177 (broadcastInDim S40000 ![] bcast_S_S40000 : (⟨S_, .f32⟩ : BufTy).Contents (Elt F) → (⟨S40000, .f32⟩ : BufTy).Contents (Elt F)),
    StableHlo.nullary main_cst_22 (constant S_ .f32 0x00000000#32),
    StableHlo.unary main_cst_22 main_v178 (broadcastInDim S64 ![] bcast_S_S64 : (⟨S_, .f32⟩ : BufTy).Contents (Elt F) → (⟨S64, .f32⟩ : BufTy).Contents (Elt F)),
    StableHlo.unary main_arg12 main_v179 (broadcastInDim S40000x1 ![0] bcast_S40000_S40000x1_0 : (⟨S40000, .i32⟩ : BufTy).Contents (Elt F) → (⟨S40000x1, .i32⟩ : BufTy).Contents (Elt F)),
    StableHlo.ternary main_v178 main_v179 main_v177 main_v180 ((fun x i u => Host.scatterAdd scatter_S64_S40000x1_S40000_n_0_0_1 x i u) : (⟨S64, .f32⟩ : BufTy).Contents (Elt F) → (⟨S40000x1, .i32⟩ : BufTy).Contents (Elt F) → (⟨S40000, .f32⟩ : BufTy).Contents (Elt F) → (⟨S64, .f32⟩ : BufTy).Contents (Elt F)),
    StableHlo.nullary main_cst_23 (constant S_ .f32 0x00000000#32),
    StableHlo.unary main_cst_23 main_v181 (broadcastInDim S64x128 ![] bcast_S_S64x128 : (⟨S_, .f32⟩ : BufTy).Contents (Elt F) → (⟨S64x128, .f32⟩ : BufTy).Contents (Elt F)),
    StableHlo.unary main_arg12 main_v182 (broadcastInDim S40000x1 ![0] bcast_S40000_S40000x1_0 : (⟨S40000, .i32⟩ : BufTy).Contents (Elt F) → (⟨S40000x1, .i32⟩ : BufTy).Contents (Elt F)),
    StableHlo.ternary main_v181 main_v182 main_v176 main_v183 ((fun x i u => Host.scatterAdd scatter_S64x128_S40000x1_S40000x128_1_0_0_1 x i u) : (⟨S64x128, .f32⟩ : BufTy).Contents (Elt F) → (⟨S40000x1, .i32⟩ : BufTy).Contents (Elt F) → (⟨S40000x128, .f32⟩ : BufTy).Contents (Elt F) → (⟨S64x128, .f32⟩ : BufTy).Contents (Elt F)),
    StableHlo.nullary main_cst_24 (constant S_ .f32 0x3F800000#32),
    StableHlo.unary main_cst_24 main_v184 (broadcastInDim S64 ![] bcast_S_S64 : (⟨S_, .f32⟩ : BufTy).Contents (Elt F) → (⟨S64, .f32⟩ : BufTy).Contents (Elt F)),
    StableHlo.binary main_v180 main_v184 main_v185 (maximumf : (⟨S64, .f32⟩ : BufTy).Contents (Elt F) → (⟨S64, .f32⟩ : BufTy).Contents (Elt F) → (⟨S64, .f32⟩ : BufTy).Contents (Elt F)),
    StableHlo.unary main_v185 main_v186 (broadcastInDim S64x1 ![0] bcast_S64_S64x1_0 : (⟨S64, .f32⟩ : BufTy).Contents (Elt F) → (⟨S64x1, .f32⟩ : BufTy).Contents (Elt F)),
    StableHlo.unary main_v186 main_v187 (broadcastInDim S64x128 ![0, 1] bcast_S64x1_S64x128_0_1 : (⟨S64x1, .f32⟩ : BufTy).Contents (Elt F) → (⟨S64x128, .f32⟩ : BufTy).Contents (Elt F)),
    StableHlo.binary main_v183 main_v187 main_v188 (Host.divf : (⟨S64x128, .f32⟩ : BufTy).Contents (Elt F) → (⟨S64x128, .f32⟩ : BufTy).Contents (Elt F) → (⟨S64x128, .f32⟩ : BufTy).Contents (Elt F)) ]

set_option maxRecDepth 8192 in
theorem ops3_sub : (ops3 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window main_part3 writes, in order. -/
abbrev ops3_W : List (Ref sig .tc) := [main_v158, main_v159, main_v160, main_v161, main_v162, main_v163, main_v164, main_v165, main_cst_20, main_v166, main_v167, main_v168, main_v169, main_v170, main_v171, main_v172, main_v173, main_v174, main_v175, main_v176, main_cst_21, main_v177, main_cst_22, main_v178, main_v179, main_v180, main_cst_23, main_v181, main_v182, main_v183, main_cst_24, main_v184, main_v185, main_v186, main_v187, main_v188]

set_option maxRecDepth 8192 in
theorem ops3_writes : (ops3 : List (HloOp τ sig (Elt F))).Forall fun op => op.writes ⊆ (ops3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-- @main's 297 operations, in order. -/
abbrev ops : List (HloOp τ sig (Elt F)) :=
  ops0 ++ (ops1 ++ (ops2 ++ (ops3)))

end Cert.ReferenceIdeal.RefRun

end
-- ==== Proof.RefOps.lean ====
/-
  The run of the plain-jnp program. Its @main is a straight line of host operations (the functions it calls
  are straight lines too, and a call is its callee's body over the call's buffers), so the program is `seq` of the
  literal list of its operations, and every weakly fair execution ends with each buffer at the fold of the
  operations' results over the launch contents.
-/
import proofs.«155398_j16690242912867_1_alg».proof.Proof.RefOpsList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window is the line of its operations

A called function's body is a chain of `hlo` steps ending in `pure ⟨⟩`; bound in front of the rest of the window it
is the same chain continued (sequencing computes through an `hlo` step), and its typed references at a call's record
are the record's buffers: the two sides agree by computation. -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

/-- @main runs its windows in order: the line of all the operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its results. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/-
  What the plain-jnp program computes. The fold of its operations is read window by window: after each window the few
  buffers a later window still reads hold a stage of the specification at the arguments (the edge embedding, the two
  index vectors, a layer's perceptron output with its column mean and variance), and after the last window the result
  buffer holds the pooled output of the third layer, which is the specification's `result`. The arguments are written
  by no operation.
-/
import proofs.«155398_j16690242912867_1_alg».proof.Proof.RefOps
import proofs.«155398_j16690242912867_1_alg».proof.Proof.Spec
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the specification at the arguments a valuation holds -/

/-- The edge embedding. -/
def e (V : Valuation τ sig (Elt F)) : Spec.Arr F S640000x128 .f32 := Spec.emb (V (main_arg3 : DevRef τ sig)) (V (main_arg11 : DevRef τ sig))
/-- The edges' source and destination nodes. -/
def src (V : Valuation τ sig (Elt F)) : Spec.Arr F S640000 .i32 := Spec.srcOf (V (main_arg10 : DevRef τ sig))
def dst (V : Valuation τ sig (Elt F)) : Spec.Arr F S640000 .i32 := Spec.dstOf (V (main_arg10 : DevRef τ sig))
/-- The encoded node features. -/
def h0 (V : Valuation τ sig (Elt F)) : Spec.Arr F S40000x128 .f32 := Spec.enc (V (main_arg0 : DevRef τ sig)) (V (main_arg1 : DevRef τ sig)) (V (main_arg2 : DevRef τ sig))
/-- Layer 1's perceptron output. -/
def z1 (V : Valuation τ sig (Elt F)) : Spec.Arr F S40000x128 .f32 :=
  Spec.mlpK (h0 V) (Spec.aggr (dst V) (Spec.msg (Spec.gath (h0 V) (src V)) (e V)))
    (Spec.w_0 (V (main_arg4 : DevRef τ sig))) (Spec.row (Spec.v_0 (V (main_arg5 : DevRef τ sig))))
    (Spec.w_0 (V (main_arg6 : DevRef τ sig))) (Spec.row (Spec.v_0 (V (main_arg7 : DevRef τ sig))))
/-- Layer 1's output: the perceptron's output normalised by its own column statistics. -/
def h1 (V : Valuation τ sig (Elt F)) : Spec.Arr F S40000x128 .f32 :=
  Spec.bn (z1 V) (Spec.mean (z1 V)) (Spec.var (z1 V)) (Spec.v_0 (V (main_arg8 : DevRef τ sig))) (Spec.v_0 (V (main_arg9 : DevRef τ sig)))

/-- Layer 2's perceptron output. -/
def z2 (V : Valuation τ sig (Elt F)) : Spec.Arr F S40000x128 .f32 :=
  Spec.mlpK (h1 V) (Spec.aggr (dst V) (Spec.msg (Spec.gath (h1 V) (src V)) (e V)))
    (Spec.w_1 (V (main_arg4 : DevRef τ sig))) (Spec.row (Spec.v_1 (V (main_arg5 : DevRef τ sig))))
    (Spec.w_1 (V (main_arg6 : DevRef τ sig))) (Spec.row (Spec.v_1 (V (main_arg7 : DevRef τ sig))))
/-- Layer 2's output: the perceptron's output normalised by its own column statistics. -/
def h2 (V : Valuation τ sig (Elt F)) : Spec.Arr F S40000x128 .f32 :=
  Spec.bn (z2 V) (Spec.mean (z2 V)) (Spec.var (z2 V)) (Spec.v_1 (V (main_arg8 : DevRef τ sig))) (Spec.v_1 (V (main_arg9 : DevRef τ sig)))

/-- Layer 3's perceptron output. -/
def z3 (V : Valuation τ sig (Elt F)) : Spec.Arr F S40000x128 .f32 :=
  Spec.mlpK (h2 V) (Spec.aggr (dst V) (Spec.msg (Spec.gath (h2 V) (src V)) (e V)))
    (Spec.w_2 (V (main_arg4 : DevRef τ sig))) (Spec.row (Spec.v_2 (V (main_arg5 : DevRef τ sig))))
    (Spec.w_2 (V (main_arg6 : DevRef τ sig))) (Spec.row (Spec.v_2 (V (main_arg7 : DevRef τ sig))))
/-- Layer 3's output: the perceptron's output normalised by its own column statistics. -/
def h3 (V : Valuation τ sig (Elt F)) : Spec.Arr F S40000x128 .f32 :=
  Spec.bn (z3 V) (Spec.mean (z3 V)) (Spec.var (z3 V)) (Spec.v_2 (V (main_arg8 : DevRef τ sig))) (Spec.v_2 (V (main_arg9 : DevRef τ sig)))

/-! ## The contents after each window -/

def val1 (V : Valuation τ sig (Elt F)) : Valuation τ sig (Elt F) := after ops0 V
def val2 (V : Valuation τ sig (Elt F)) : Valuation τ sig (Elt F) := after ops1 (val1 V)
def val3 (V : Valuation τ sig (Elt F)) : Valuation τ sig (Elt F) := after ops2 (val2 V)
def val4 (V : Valuation τ sig (Elt F)) : Valuation τ sig (Elt F) := after ops3 (val3 V)

/-- The whole line's fold is the four windows' folds in turn. -/
theorem after_ops (V : Valuation τ sig (Elt F)) : after ops V = val4 V := by
  simp only [ops, StableHlo.after_append]
  rfl

/-- A buffer a window does not write keeps its contents through it. -/
theorem keep0 (W : Valuation τ sig (Elt F)) (r : Ref sig .tc) (h : r ∉ ops0_W) :
    after ops0 W (Proc.devRef .tc r) = W (Proc.devRef .tc r) := after_of_writes_sub ops0 W ops0_writes h
theorem keep1 (W : Valuation τ sig (Elt F)) (r : Ref sig .tc) (h : r ∉ ops1_W) :
    after ops1 W (Proc.devRef .tc r) = W (Proc.devRef .tc r) := after_of_writes_sub ops1 W ops1_writes h
theorem keep2 (W : Valuation τ sig (Elt F)) (r : Ref sig .tc) (h : r ∉ ops2_W) :
    after ops2 W (Proc.devRef .tc r) = W (Proc.devRef .tc r) := after_of_writes_sub ops2 W ops2_writes h
theorem keep3 (W : Valuation τ sig (Elt F)) (r : Ref sig .tc) (h : r ∉ ops3_W) :
    after ops3 W (Proc.devRef .tc r) = W (Proc.devRef .tc r) := after_of_writes_sub ops3 W ops3_writes h

/-- No operation writes an argument. -/
theorem arg_keep (V : Valuation τ sig (Elt F)) (r : Ref sig .tc) (h0 : r ∉ ops0_W) (h1 : r ∉ ops1_W) (h2 : r ∉ ops2_W)
    (h3 : r ∉ ops3_W) : after ops V (Proc.devRef .tc r) = V (Proc.devRef .tc r) := by
  rw [after_ops]
  exact (keep3 _ r h3).trans ((keep2 _ r h2).trans ((keep1 _ r h1).trans (keep0 _ r h0)))

/-! ### After the first window: the encoder, the edge data, layer 1's perceptron and its statistics -/

theorem val1_arg4 (V : Valuation τ sig (Elt F)) : val1 V (no_index (Proc.devRef .tc main_arg4)) = V (Proc.devRef .tc main_arg4) :=
  keep0 _ main_arg4 (by decide)
theorem val1_arg5 (V : Valuation τ sig (Elt F)) : val1 V (no_index (Proc.devRef .tc main_arg5)) = V (Proc.devRef .tc main_arg5) :=
  keep0 _ main_arg5 (by decide)
theorem val1_arg6 (V : Valuation τ sig (Elt F)) : val1 V (no_index (Proc.devRef .tc main_arg6)) = V (Proc.devRef .tc main_arg6) :=
  keep0 _ main_arg6 (by decide)
theorem val1_arg7 (V : Valuation τ sig (Elt F)) : val1 V (no_index (Proc.devRef .tc main_arg7)) = V (Proc.devRef .tc main_arg7) :=
  keep0 _ main_arg7 (by decide)
theorem val1_arg8 (V : Valuation τ sig (Elt F)) : val1 V (no_index (Proc.devRef .tc main_arg8)) = V (Proc.devRef .tc main_arg8) :=
  keep0 _ main_arg8 (by decide)
theorem val1_arg9 (V : Valuation τ sig (Elt F)) : val1 V (no_index (Proc.devRef .tc main_arg9)) = V (Proc.devRef .tc main_arg9) :=
  keep0 _ main_arg9 (by decide)
theorem val1_arg12 (V : Valuation τ sig (Elt F)) : val1 V (no_index (Proc.devRef .tc main_arg12)) = V (Proc.devRef .tc main_arg12) :=
  keep0 _ main_arg12 (by decide)

set_option maxRecDepth 8192 in
set_option maxHeartbeats 4000000 in
theorem val1_v10 (V : Valuation τ sig (Elt F)) : val1 V (no_index (Proc.devRef .tc main_v10)) = e V := by
  unfold val1
  simp only [ops0]
  after_results_simp
  rfl

set_option maxRecDepth 8192 in
set_option maxHeartbeats 4000000 in
theorem val1_v12 (V : Valuation τ sig (Elt F)) : val1 V (no_index (Proc.devRef .tc main_v12)) = src V := by
  unfold val1
  simp only [ops0]
  after_results_simp
  rfl

set_option maxRecDepth 8192 in
set_option maxHeartbeats 4000000 in
theorem val1_v14 (V : Valuation τ sig (Elt F)) : val1 V (no_index (Proc.devRef .tc main_v14)) = dst V := by
  unfold val1
  simp only [ops0]
  after_results_simp
  rfl

set_option maxRecDepth 8192 in
set_option maxHeartbeats 4000000 in
theorem val1_v45 (V : Valuation τ sig (Elt F)) : val1 V (no_index (Proc.devRef .tc main_v45)) = z1 V := by
  unfold val1
  simp only [ops0]
  after_results_simp
  rfl

set_option maxRecDepth 8192 in
set_option maxHeartbeats 4000000 in
theorem val1_v48 (V : Valuation τ sig (Elt F)) : val1 V (no_index (Proc.devRef .tc main_v48)) = Spec.mean (z1 V) := by
  unfold val1
  simp only [ops0]
  after_results_simp
  rfl

set_option maxRecDepth 8192 in
set_option maxHeartbeats 4000000 in
theorem val1_v49 (V : Valuation τ sig (Elt F)) : val1 V (no_index (Proc.devRef .tc main_v49)) = Spec.var (z1 V) := by
  unfold val1
  simp only [ops0]
  after_results_simp
  rfl

set_option maxRecDepth 8192 in
set_option maxHeartbeats 4000000 in
theorem val1_v51 (V : Valuation τ sig (Elt F)) : val1 V (no_index (Proc.devRef .tc main_v51)) = Spec.v_0 (V (main_arg8 : DevRef τ sig)) := by
  unfold val1
  simp only [ops0]
  after_results_simp
  rfl

/-! ### After the second window: layer 1's normalisation, layer 2's perceptron and its statistics -/

theorem val2_arg4 (V : Valuation τ sig (Elt F)) : val2 V (no_index (Proc.devRef .tc main_arg4)) = V (Proc.devRef .tc main_arg4) :=
  (keep1 _ main_arg4 (by decide)).trans (val1_arg4 V)
theorem val2_arg5 (V : Valuation τ sig (Elt F)) : val2 V (no_index (Proc.devRef .tc main_arg5)) = V (Proc.devRef .tc main_arg5) :=
  (keep1 _ main_arg5 (by decide)).trans (val1_arg5 V)
theorem val2_arg6 (V : Valuation τ sig (Elt F)) : val2 V (no_index (Proc.devRef .tc main_arg6)) = V (Proc.devRef .tc main_arg6) :=
  (keep1 _ main_arg6 (by decide)).trans (val1_arg6 V)
theorem val2_arg7 (V : Valuation τ sig (Elt F)) : val2 V (no_index (Proc.devRef .tc main_arg7)) = V (Proc.devRef .tc main_arg7) :=
  (keep1 _ main_arg7 (by decide)).trans (val1_arg7 V)
theorem val2_arg8 (V : Valuation τ sig (Elt F)) : val2 V (no_index (Proc.devRef .tc main_arg8)) = V (Proc.devRef .tc main_arg8) :=
  (keep1 _ main_arg8 (by decide)).trans (val1_arg8 V)
theorem val2_arg9 (V : Valuation τ sig (Elt F)) : val2 V (no_index (Proc.devRef .tc main_arg9)) = V (Proc.devRef .tc main_arg9) :=
  (keep1 _ main_arg9 (by decide)).trans (val1_arg9 V)
theorem val2_arg12 (V : Valuation τ sig (Elt F)) : val2 V (no_index (Proc.devRef .tc main_arg12)) = V (Proc.devRef .tc main_arg12) :=
  (keep1 _ main_arg12 (by decide)).trans (val1_arg12 V)

theorem val2_v10 (V : Valuation τ sig (Elt F)) : val2 V (no_index (Proc.devRef .tc main_v10)) = e V :=
  (keep1 _ main_v10 (by decide)).trans (val1_v10 V)

theorem val2_v12 (V : Valuation τ sig (Elt F)) : val2 V (no_index (Proc.devRef .tc main_v12)) = src V :=
  (keep1 _ main_v12 (by decide)).trans (val1_v12 V)

theorem val2_v14 (V : Valuation τ sig (Elt F)) : val2 V (no_index (Proc.devRef .tc main_v14)) = dst V :=
  (keep1 _ main_v14 (by decide)).trans (val1_v14 V)

set_option maxRecDepth 8192 in
set_option maxHeartbeats 4000000 in
theorem val2_v99 (V : Valuation τ sig (Elt F)) : val2 V (no_index (Proc.devRef .tc main_v99)) = z2 V := by
  unfold val2
  simp only [ops1]
  after_results_simp
  simp only [val1_v10, val1_v12, val1_v14, val1_v45, val1_v48, val1_v49, val1_v51, val1_arg4, val1_arg5, val1_arg6, val1_arg7, val1_arg8, val1_arg9]
  rfl

set_option maxRecDepth 8192 in
set_option maxHeartbeats 4000000 in
theorem val2_v102 (V : Valuation τ sig (Elt F)) : val2 V (no_index (Proc.devRef .tc main_v102)) = Spec.mean (z2 V) := by
  unfold val2
  simp only [ops1]
  after_results_simp
  simp only [val1_v10, val1_v12, val1_v14, val1_v45, val1_v48, val1_v49, val1_v51, val1_arg4, val1_arg5, val1_arg6, val1_arg7, val1_arg8, val1_arg9]
  rfl

set_option maxRecDepth 8192 in
set_option maxHeartbeats 4000000 in
theorem val2_v103 (V : Valuation τ sig (Elt F)) : val2 V (no_index (Proc.devRef .tc main_v103)) = Spec.var (z2 V) := by
  unfold val2
  simp only [ops1]
  after_results_simp
  simp only [val1_v10, val1_v12, val1_v14, val1_v45, val1_v48, val1_v49, val1_v51, val1_arg4, val1_arg5, val1_arg6, val1_arg7, val1_arg8, val1_arg9]
  rfl

set_option maxRecDepth 8192 in
set_option maxHeartbeats 4000000 in
theorem val2_v104 (V : Valuation τ sig (Elt F)) : val2 V (no_index (Proc.devRef .tc main_v104)) = extractStridedSlice S1x128 ![1, 0] (V (main_arg8 : DevRef τ sig)) slices_S3x128_S1x128_1_0 := by
  unfold val2
  simp only [ops1]
  after_results_simp
  simp only [val1_arg8]

/-! ### After the third window: layer 2's normalisation, layer 3's perceptron and its statistics -/

theorem val3_arg8 (V : Valuation τ sig (Elt F)) : val3 V (no_index (Proc.devRef .tc main_arg8)) = V (Proc.devRef .tc main_arg8) :=
  (keep2 _ main_arg8 (by decide)).trans (val2_arg8 V)
theorem val3_arg9 (V : Valuation τ sig (Elt F)) : val3 V (no_index (Proc.devRef .tc main_arg9)) = V (Proc.devRef .tc main_arg9) :=
  (keep2 _ main_arg9 (by decide)).trans (val2_arg9 V)
theorem val3_arg12 (V : Valuation τ sig (Elt F)) : val3 V (no_index (Proc.devRef .tc main_arg12)) = V (Proc.devRef .tc main_arg12) :=
  (keep2 _ main_arg12 (by decide)).trans (val2_arg12 V)

set_option maxRecDepth 8192 in
set_option maxHeartbeats 4000000 in
theorem val3_v153 (V : Valuation τ sig (Elt F)) : val3 V (no_index (Proc.devRef .tc main_v153)) = z3 V := by
  unfold val3
  simp only [ops2]
  after_results_simp
  simp only [val2_v10, val2_v12, val2_v14, val2_v99, val2_v102, val2_v103, val2_v104, val2_arg4, val2_arg5, val2_arg6, val2_arg7, val2_arg9]
  rfl

set_option maxRecDepth 8192 in
set_option maxHeartbeats 4000000 in
theorem val3_v156 (V : Valuation τ sig (Elt F)) : val3 V (no_index (Proc.devRef .tc main_v156)) = Spec.mean (z3 V) := by
  unfold val3
  simp only [ops2]
  after_results_simp
  simp only [val2_v10, val2_v12, val2_v14, val2_v99, val2_v102, val2_v103, val2_v104, val2_arg4, val2_arg5, val2_arg6, val2_arg7, val2_arg9]
  rfl

set_option maxRecDepth 8192 in
set_option maxHeartbeats 4000000 in
theorem val3_v157 (V : Valuation τ sig (Elt F)) : val3 V (no_index (Proc.devRef .tc main_v157)) = Spec.var (z3 V) := by
  unfold val3
  simp only [ops2]
  after_results_simp
  simp only [val2_v10, val2_v12, val2_v14, val2_v99, val2_v102, val2_v103, val2_v104, val2_arg4, val2_arg5, val2_arg6, val2_arg7, val2_arg9]
  rfl

/-! ### After the last window: layer 3's normalisation and the pooling -/

set_option maxRecDepth 8192 in
set_option maxHeartbeats 4000000 in
theorem val4_v188 (V : Valuation τ sig (Elt F)) : val4 V (no_index (Proc.devRef .tc main_v188)) = Spec.pool (h3 V) (V (main_arg12 : DevRef τ sig)) := by
  unfold val4
  simp only [ops3]
  after_results_simp
  simp only [val3_v153, val3_v156, val3_v157, val3_arg8, val3_arg9, val3_arg12]
  rfl

/-! ## The result and the arguments -/

/-- The specification's `result` is the pooled third layer: its `let`s and `layer` unfolded. -/
theorem result_unfold (V : Valuation τ sig (Elt F)) :
    Spec.pool (h3 V) (V (main_arg12 : DevRef τ sig))
      = Cert.Spec.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := rfl

/-- The program's result buffer ends at the specification's `result` of the arguments. -/
theorem result_eq (V : Valuation τ sig (Elt F)) :
    after ops V (main_v188 : DevRef τ sig)
      = Cert.Spec.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  exact (val4_v188 V).trans (result_unfold V)

theorem arg0_eq (V : Valuation τ sig (Elt F)) : after ops V (main_arg0 : DevRef τ sig) = V (main_arg0 : DevRef τ sig) :=
  arg_keep V main_arg0 (by decide) (by decide) (by decide) (by decide)
theorem arg1_eq (V : Valuation τ sig (Elt F)) : after ops V (main_arg1 : DevRef τ sig) = V (main_arg1 : DevRef τ sig) :=
  arg_keep V main_arg1 (by decide) (by decide) (by decide) (by decide)
theorem arg2_eq (V : Valuation τ sig (Elt F)) : after ops V (main_arg2 : DevRef τ sig) = V (main_arg2 : DevRef τ sig) :=
  arg_keep V main_arg2 (by decide) (by decide) (by decide) (by decide)
theorem arg3_eq (V : Valuation τ sig (Elt F)) : after ops V (main_arg3 : DevRef τ sig) = V (main_arg3 : DevRef τ sig) :=
  arg_keep V main_arg3 (by decide) (by decide) (by decide) (by decide)
theorem arg4_eq (V : Valuation τ sig (Elt F)) : after ops V (main_arg4 : DevRef τ sig) = V (main_arg4 : DevRef τ sig) :=
  arg_keep V main_arg4 (by decide) (by decide) (by decide) (by decide)
theorem arg5_eq (V : Valuation τ sig (Elt F)) : after ops V (main_arg5 : DevRef τ sig) = V (main_arg5 : DevRef τ sig) :=
  arg_keep V main_arg5 (by decide) (by decide) (by decide) (by decide)
theorem arg6_eq (V : Valuation τ sig (Elt F)) : after ops V (main_arg6 : DevRef τ sig) = V (main_arg6 : DevRef τ sig) :=
  arg_keep V main_arg6 (by decide) (by decide) (by decide) (by decide)
theorem arg7_eq (V : Valuation τ sig (Elt F)) : after ops V (main_arg7 : DevRef τ sig) = V (main_arg7 : DevRef τ sig) :=
  arg_keep V main_arg7 (by decide) (by decide) (by decide) (by decide)
theorem arg8_eq (V : Valuation τ sig (Elt F)) : after ops V (main_arg8 : DevRef τ sig) = V (main_arg8 : DevRef τ sig) :=
  arg_keep V main_arg8 (by decide) (by decide) (by decide) (by decide)
theorem arg9_eq (V : Valuation τ sig (Elt F)) : after ops V (main_arg9 : DevRef τ sig) = V (main_arg9 : DevRef τ sig) :=
  arg_keep V main_arg9 (by decide) (by decide) (by decide) (by decide)
theorem arg10_eq (V : Valuation τ sig (Elt F)) : after ops V (main_arg10 : DevRef τ sig) = V (main_arg10 : DevRef τ sig) :=
  arg_keep V main_arg10 (by decide) (by decide) (by decide) (by decide)
theorem arg11_eq (V : Valuation τ sig (Elt F)) : after ops V (main_arg11 : DevRef τ sig) = V (main_arg11 : DevRef τ sig) :=
  arg_keep V main_arg11 (by decide) (by decide) (by decide) (by decide)
theorem arg12_eq (V : Valuation τ sig (Elt F)) : after ops V (main_arg12 : DevRef τ sig) = V (main_arg12 : DevRef τ sig) :=
  arg_keep V main_arg12 (by decide) (by decide) (by decide) (by decide)

end Cert.ReferenceIdeal.RefRun

end
-- ==== Proof.lean ====
/-
  The certificate of a three-layer edge-conditioned graph network (GINE convolutions with batch normalisation, mean pooling
  over 64 graphs) computed by ten kernel regions among host operations, against the same network in plain jnp.

  At the ideal instance every float is an extended real and every operation the exact one, so the two programs differ only
  in HOW they compute each stage, never in what: the kernel's encoder and perceptron regions take a matrix product into a
  zero accumulator and add a [1,128] row to every row where the plain program takes the host's product and adds a broadcast
  vector; the message and normalisation regions compute entry by entry on blocks of rows what the plain program computes
  on whole arrays. The gathers along the edges, the scatter-adds, the batch statistics and the pooling are the same host
  operations in both. One specification (Proof/Spec.lean) states each stage as a function of whole arrays:
    - the kernel program's result is that function of its arguments: each region's output array is its stage of the
      region's input arrays (Proof/Region*.lean: block by block, then the blocks cover the array), and the fold through
      @main's twenty-seven segments composes the stages (Proof/KernelChain.lean over Proof/KernelKeep.lean);
    - the plain program's result is the same function: its run is its operations in order (Proof/RefOps.lean) and the
      fold of their results is the specification by unfolding (Proof/RefValue.lean).
  No algebraic law is used beyond reading both matrix products as the same finite sum, and no finiteness of the inputs:
  the precondition is never opened. The idealization rewrote nothing, so `preserves` is trivial. The three frames are the
  two generated frame certificates and the plain program's run with its result dropped.
-/
import proofs.«155398_j16690242912867_1_alg».proof.Defs
import proofs.«155398_j16690242912867_1_alg».proof.Proof.Gen.Kernel
import proofs.«155398_j16690242912867_1_alg».proof.Proof.Gen.Kernel.Frame
import proofs.«155398_j16690242912867_1_alg».proof.Proof.Gen.KernelIdeal
import proofs.«155398_j16690242912867_1_alg».proof.Proof.Gen.KernelIdeal.Frame
import proofs.«155398_j16690242912867_1_alg».proof.Proof.Gen.ReferenceIdeal
import proofs.«155398_j16690242912867_1_alg».proof.Proof.Gen.Pre_finite_inputs
import proofs.«155398_j16690242912867_1_alg».proof.Proof.KernelRun
import proofs.«155398_j16690242912867_1_alg».proof.Proof.KernelChain
import proofs.«155398_j16690242912867_1_alg».proof.Proof.RegionHost
import proofs.«155398_j16690242912867_1_alg».proof.Proof.RefOps
import proofs.«155398_j16690242912867_1_alg».proof.Proof.RefValue
import Idealize.ShloMosaic.Adequacy
import Idealize.ShloMosaic.Init

noncomputable section

namespace Cert.Proof

open Idealize.ShloMosaic Idealize.ShloMosaic.TcCoe Idealize.SL.Sem

set_option maxHeartbeats 4000000 in
/-- Each region's output array is the specification's stage of its input arrays: the region's index-by-index value, and
    that value as the host operations' composition. -/
theorem finals : Cert.KernelIdeal.Chain.Finals where
  f0 := fun V c => (Cert.KernelIdeal.RegionValue.final0 V c).trans (Cert.KernelIdeal.RegionValue.encG_eq _ _ _)
  f1 := fun V c => (Cert.KernelIdeal.RegionValue.final1 V c).trans (Cert.KernelIdeal.RegionValue.msgG_eq _ _)
  f4 := fun V c => (Cert.KernelIdeal.RegionValue.final4 V c).trans (Cert.KernelIdeal.RegionValue.msgG_eq _ _)
  f7 := fun V c => (Cert.KernelIdeal.RegionValue.final7 V c).trans (Cert.KernelIdeal.RegionValue.msgG_eq _ _)
  f2 := fun V c => (Cert.KernelIdeal.RegionValue.final2 V c).trans (Cert.KernelIdeal.RegionValue.mlpG_eq _ _ _ _ _ _)
  f5 := fun V c => (Cert.KernelIdeal.RegionValue.final5 V c).trans (Cert.KernelIdeal.RegionValue.mlpG_eq _ _ _ _ _ _)
  f8 := fun V c => (Cert.KernelIdeal.RegionValue.final8 V c).trans (Cert.KernelIdeal.RegionValue.mlpG_eq _ _ _ _ _ _)
  f3 := fun V c => (Cert.KernelIdeal.RegionValue.final3 V c).trans (Cert.KernelIdeal.RegionValue.bnG_eq _ _ _ _ _)
  f6 := fun V c => (Cert.KernelIdeal.RegionValue.final6 V c).trans (Cert.KernelIdeal.RegionValue.bnG_eq _ _ _ _ _)
  f9 := fun V c => (Cert.KernelIdeal.RegionValue.final9 V c).trans (Cert.KernelIdeal.RegionValue.bnG_eq _ _ _ _ _)

theorem frame_k : Cert.frame_Kernel := fun m ρ _ => Cert.Kernel.Gen.frame m ρ
theorem frame_ki : Cert.frame_KernelIdeal := fun m ρ _ => Cert.KernelIdeal.Gen.frame m ρ

/-- The plain program's run leaves every argument array as launched: no operation names one as its result. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _)⟩)
    (Cert.ReferenceIdeal.RefRun.run_main (F := Ideal) m ρ)

/-- Both programs end with the specification's function of the (agreeing) argument arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_val m ρ c finals), (h c).2⟩)
      (Cert.KernelIdeal.Run.run_main (F := Ideal) m ρ)
  · refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _)⟩)
      (Cert.ReferenceIdeal.RefRun.run_main (F := Ideal) m' ρ')
    refine (h c Cert.ReferenceIdeal.main_v188).trans ((Cert.ReferenceIdeal.RefRun.result_eq _).trans ?_)
    obtain ⟨e0, e1, e2, e3, e4, e5, e6, e7, e8, e9, e10, e11, e12⟩ := hagree c
    show Cert.Spec.result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = _
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
